-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x128 .f32) (main_arg13 : FVec F S128 .f32) (main_arg14 : FVec F S64x128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_v63 main_v67

def fn_part2 {F : FTy → Type} [FloatOps F] (main_arg8 : FVec F S64 .f32) (main_arg9 : FVec F S64x64 .f32) (main_arg10 : FVec F S64 .f32) (main_arg11 : FVec F S64 .f32) (main_arg12 : FVec F S64x128 .f32) (main_arg13 : FVec F S128 .f32) (main_arg14 : FVec F S64x128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64x128 .f32) (main_arg13 : FVec F S128 .f32) (main_arg14 : FVec F S64x128 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x3 .f32) (main_arg1 : IVec S2x800000 32) (main_arg2 : FVec F S3x64 .f32) (main_arg3 : FVec F S64 .f32) (main_arg4 : FVec F S3x64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64x128 .f32) (main_arg13 : FVec F S128 .f32) (main_arg14 : FVec F S64x128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x3 : Shape := ⟨2, ![50000, 3]⟩
abbrev S2x800000 : Shape := ⟨2, ![2, 800000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x3 : Shape := ⟨2, ![800000, 3]⟩
abbrev S1x64 : Shape := ⟨2, ![1, 64]⟩
abbrev S50000x64 : Shape := ⟨2, ![50000, 64]⟩
abbrev S5x1x64 : Shape := ⟨3, ![5, 1, 64]⟩
abbrev S10000x3 : Shape := ⟨2, ![10000, 3]⟩
abbrev S10000x64 : Shape := ⟨2, ![10000, 64]⟩
abbrev S1x1x64 : Shape := ⟨3, ![1, 1, 64]⟩
abbrev S800000x64 : Shape := ⟨2, ![800000, 64]⟩
abbrev S1x128 : Shape := ⟨2, ![1, 128]⟩
abbrev S50000x128 : Shape := ⟨2, ![50000, 128]⟩
abbrev S10000x128 : Shape := ⟨2, ![10000, 128]⟩

abbrev nBuf : Space → Nat
  | .hbm => 132
  | .vmem => 55
  | .smem => 0
  | _ => 0

abbrev hbmTy0_0 (i : Nat) : BufTy := match i % 128 with
  | 0 => ⟨S50000x3, .f32⟩
  | 1 => ⟨S2x800000, .i32⟩
  | 2 => ⟨S3x64, .f32⟩
  | 3 => ⟨S64, .f32⟩
  | 4 => ⟨S3x64, .f32⟩
  | 5 => ⟨S64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64x128, .f32⟩
  | 13 => ⟨S128, .f32⟩
  | 14 => ⟨S64x128, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S50000x1, .f32⟩
  | 26 => ⟨S_, .f32⟩
  | 27 => ⟨S50000x1, .f32⟩
  | 28 => ⟨S50000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x3, .f32⟩
  | 38 => ⟨S_, .f32⟩
  | 39 => ⟨S50000x3, .f32⟩
  | 40 => ⟨S800000x1, .i32⟩
  | 41 => ⟨S50000x3, .f32⟩
  | 42 => ⟨S50000x3, .f32⟩
  | 43 => ⟨S50000x3, .f32⟩
  | 44 => ⟨S1x64, .f32⟩
  | 45 => ⟨S50000x64, .f32⟩
  | 46 => ⟨S5x1x64, .f32⟩
  | 47 => ⟨S5x1x64, .f32⟩
  | 48 => ⟨S_, .f32⟩
  | 49 => ⟨S1x64, .f32⟩
  | 50 => ⟨S_, .f32⟩
  | 51 => ⟨S1x64, .f32⟩
  | 52 => ⟨S_, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S1x64, .f32⟩
  | 60 => ⟨S_, .f32⟩
  | 61 => ⟨S1x64, .f32⟩
  | 62 => ⟨S1x64, .f32⟩
  | 63 => ⟨S_, .f32⟩
  | 64 => ⟨S1x64, .f32⟩
  | 65 => ⟨S1x64, .f32⟩
  | 66 => ⟨S1x64, .f32⟩
  | 67 => ⟨S1x64, .f32⟩
  | 68 => ⟨S1x64, .f32⟩
  | 69 => ⟨S50000x64, .f32⟩
  | 70 => ⟨S50000x64, .bf16⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .bf16⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S50000x64, .f32⟩
  | 86 => ⟨S50000x64, .f32⟩
  | 87 => ⟨S1x64, .f32⟩
  | 88 => ⟨S50000x64, .f32⟩
  | 89 => ⟨S5x1x64, .f32⟩
  | 90 => ⟨S5x1x64, .f32⟩
  | 91 => ⟨S_, .f32⟩
  | 92 => ⟨S1x64, .f32⟩
  | 93 => ⟨S_, .f32⟩
  | 94 => ⟨S1x64, .f32⟩
  | 95 => ⟨S_, .f32⟩
  | 96 => ⟨S1x64, .f32⟩
  | 97 => ⟨S1x64, .f32⟩
  | 98 => ⟨S_, .f32⟩
  | 99 => ⟨S1x64, .f32⟩
  | 100 => ⟨S1x64, .f32⟩
  | 101 => ⟨S1x64, .f32⟩
  | 102 => ⟨S1x64, .f32⟩
  | 103 => ⟨S_, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S1x64, .f32⟩
  | 110 => ⟨S1x64, .f32⟩
  | 111 => ⟨S1x64, .f32⟩
  | 112 => ⟨S50000x64, .f32⟩
  | 113 => ⟨S50000x64, .bf16⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .bf16⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x3, .f32⟩

abbrev hbmTy0_1 (i : Nat) : BufTy := match i % 128 with
  | 0 => ⟨S50000x64, .f32⟩
  | 1 => ⟨S50000x64, .f32⟩
  | 2 => ⟨S1x128, .f32⟩
  | 3 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S10000x3, .f32⟩
  | .local _ .vmem, ⟨3, _⟩ => ⟨S10000x3, .f32⟩
  | .local _ .vmem, ⟨4, _⟩ => ⟨S3x64, .f32⟩
  | .local _ .vmem, ⟨5, _⟩ => ⟨S1x64, .f32⟩
  | .local _ .vmem, ⟨6, _⟩ => ⟨S3x64, .f32⟩
  | .local _ .vmem, ⟨7, _⟩ => ⟨S10000x64, .f32⟩
  | .local _ .vmem, ⟨8, _⟩ => ⟨S10000x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S10000x64, .bf16⟩
  | .local _ .vmem, ⟨22, _⟩ => ⟨S10000x64, .bf16⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64x64, .f32⟩
  | .local _ .vmem, ⟨28, _⟩ => ⟨S1x64, .f32⟩
  | .local _ .vmem, ⟨29, _⟩ => ⟨S64x64, .f32⟩
  | .local _ .vmem, ⟨30, _⟩ => ⟨S10000x64, .f32⟩
  | .local _ .vmem, ⟨31, _⟩ => ⟨S10000x64, .f32⟩
  | .local _ .vmem, ⟨32, _⟩ => ⟨S1x1x64, .f32⟩
  | .local _ .vmem, ⟨33, _⟩ => ⟨S1x1x64, .f32⟩
  | .local _ .vmem, ⟨34, _⟩ => ⟨S1x1x64, .f32⟩
  | .local _ .vmem, ⟨35, _⟩ => ⟨S1x1x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .bf16⟩
  | .local _ .vmem, ⟨45, _⟩ => ⟨S10000x64, .bf16⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x128, .f32⟩
  | .local _ .vmem, ⟨51, _⟩ => ⟨S1x128, .f32⟩
  | .local _ .vmem, ⟨52, _⟩ => ⟨S64x128, .f32⟩
  | .local _ .vmem, ⟨53, _⟩ => ⟨S10000x128, .f32⟩
  | .local _ .vmem, ⟨54, _⟩ => ⟨S10000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev main_cst_4 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40_0 : Ref sig .tc := ⟨.hbm, 69, rfl⟩
abbrev main_v40_1 : Ref sig .tc := ⟨.hbm, 70, rfl⟩
abbrev main_c_10 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55_0 : Ref sig .tc := ⟨.hbm, 88, rfl⟩
abbrev main_v55_1 : Ref sig .tc := ⟨.hbm, 89, rfl⟩
abbrev main_v55_2 : Ref sig .tc := ⟨.hbm, 90, rfl⟩
abbrev main_cst_13 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_cst_15 : Ref sig .tc := ⟨.hbm, 95, rfl⟩
abbrev main_v58 : Ref sig .tc := ⟨.hbm, 96, rfl⟩
abbrev main_v59 : Ref sig .tc := ⟨.hbm, 97, rfl⟩
abbrev main_cst_16 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_17 : Ref sig .tc := ⟨.hbm, 103, rfl⟩
abbrev main_v64 : Ref sig .tc := ⟨.hbm, 104, rfl⟩
abbrev main_v65 : Ref sig .tc := ⟨.hbm, 105, rfl⟩
abbrev main_cst_18 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71_0 : Ref sig .tc := ⟨.hbm, 112, rfl⟩
abbrev main_v71_1 : Ref sig .tc := ⟨.hbm, 113, rfl⟩
abbrev main_c_19 : Ref sig .tc := ⟨.hbm, 114, rfl⟩
abbrev main_v72 : Ref sig .tc := ⟨.hbm, 115, rfl⟩
abbrev main_v73 : Ref sig .tc := ⟨.hbm, 116, rfl⟩
abbrev main_c_20 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_21 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg5_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc3_sem6_0 : DmaSem sig := 44
abbrev cc3_sem6_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem5_1 : DmaSem sig := 54

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x64 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  shapeCasts_S64_S1x64 : S64.ShapeCasts S1x64
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  reducesTo_S5x1x64_S1x64_d0 : S5x1x64.ReducesTo [0] S1x64
  h_S_ : 0 < S_.numel
  bcast_S_S1x64 : S_.BroadcastsInDim S1x64 (![] : Fin 0 → Fin S1x64.rank)
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S64x64_S64x64_0_0 : ∀ a, (![0, 0] : Fin 2 → Nat) a + S64x64.size a ≤ S64x64.size a
  h_S64x64 : 0 < S64x64.numel
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  scatter_S50000_S800000x1_S800000_n_0_0_1_wf : ScatterDims.WF S50000 S800000x1 S800000 [] [0] [0] 1
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S10000x3_S3x64_S10000x64_1_0_0_1_n_n_wf : DotDims.WF S10000x3 S3x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S50000x3.size a
  hwx0_0 : ∀ i : grid0.Coords, EltTy.bits .f32 = 32 ∨ (Rect.block (s := S50000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S50000x3.size a
  hwx0_1 : ∀ i : grid0.Coords, EltTy.bits .f32 = 32 ∨ (Rect.block (s := S50000x3) S10000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S5x1x64.size a
  hwx0_6 : ∀ i : grid0.Coords, EltTy.bits .f32 = 32 ∨ (Rect.block (s := S5x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S5x1x64.size a
  hwx0_7 : ∀ i : grid0.Coords, EltTy.bits .f32 = 32 ∨ (Rect.block (s := S5x1x64) S1x1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S50000x64.size a
  hwx1_6 : ∀ i : grid1.Coords, EltTy.bits .bf16 = 32 ∨ (Rect.block (s := S50000x64) S10000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x64.size a ≤ S5x1x64.size a
  hwx2_6 : ∀ i : grid2.Coords, EltTy.bits .f32 = 32 ∨ (Rect.block (s := S5x1x64) S1x1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x64.size a ≤ S5x1x64.size a
  hwx2_7 : ∀ i : grid2.Coords, EltTy.bits .f32 = 32 ∨ (Rect.block (s := S5x1x64) S1x1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S50000x64.size a
  hwx3_6 : ∀ i : grid3.Coords, EltTy.bits .bf16 = 32 ∨ (Rect.block (s := S50000x64) S10000x64.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S64x128.size a
  hwx4_4 : ∀ i : grid4.Coords, EltTy.bits .f32 = 32 ∨ (Rect.block (s := S64x128) S64x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S50000x128.size a
  hwx4_5 : ∀ i : grid4.Coords, EltTy.bits .f32 = 32 ∨ (Rect.block (s := S50000x128) S10000x128.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_v22) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x1x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_2) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40_0) S10000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40_1) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_0) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v55_1) S1x1x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v55_2) S1x1x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v55_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71_0) S10000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v71_1) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v84) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71_0) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S64x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S10000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S50000x128 : Shape := ⟨2, ![50000, 128]⟩
abbrev S1x128 : Shape := ⟨2, ![1, 128]⟩

abbrev nBuf : Space → Nat
  | .hbm => 175
  | .vmem => 0
  | .smem => 0
  | _ => 0

abbrev hbmTy0_0 (i : Nat) : BufTy := match i % 128 with
  | 0 => ⟨S50000x3, .f32⟩
  | 1 => ⟨S2x800000, .i32⟩
  | 2 => ⟨S3x64, .f32⟩
  | 3 => ⟨S64, .f32⟩
  | 4 => ⟨S3x64, .f32⟩
  | 5 => ⟨S64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64x128, .f32⟩
  | 13 => ⟨S128, .f32⟩
  | 14 => ⟨S64x128, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .f32⟩
  | 29 => ⟨S50000x3, .f32⟩
  | 30 => ⟨S800000x1, .i32⟩
  | 31 => ⟨S50000x3, .f32⟩
  | 32 => ⟨S_, .f32⟩
  | 33 => ⟨S800000x1, .f32⟩
  | 34 => ⟨S_, .f32⟩
  | 35 => ⟨S50000x1, .f32⟩
  | 36 => ⟨S800000x1, .i32⟩
  | 37 => ⟨S50000x1, .f32⟩
  | 38 => ⟨S_, .f32⟩
  | 39 => ⟨S50000x1, .f32⟩
  | 40 => ⟨S50000x1, .f32⟩
  | 41 => ⟨S50000x3, .f32⟩
  | 42 => ⟨S50000x3, .f32⟩
  | 43 => ⟨S50000x64, .f32⟩
  | 44 => ⟨S1x64, .f32⟩
  | 45 => ⟨S50000x64, .f32⟩
  | 46 => ⟨S50000x64, .f32⟩
  | 47 => ⟨S50000x64, .f32⟩
  | 48 => ⟨S50000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S50000x64, .f32⟩
  | 65 => ⟨S50000x64, .f32⟩
  | 66 => ⟨S_, .f32⟩
  | 67 => ⟨S64, .f32⟩
  | 68 => ⟨S64, .f32⟩
  | 69 => ⟨S64, .f32⟩
  | 70 => ⟨S1x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S_, .f32⟩
  | 96 => ⟨S800000x1, .f32⟩
  | 97 => ⟨S_, .f32⟩
  | 98 => ⟨S50000x1, .f32⟩
  | 99 => ⟨S800000x1, .i32⟩
  | 100 => ⟨S50000x1, .f32⟩
  | 101 => ⟨S_, .f32⟩
  | 102 => ⟨S50000x1, .f32⟩
  | 103 => ⟨S50000x1, .f32⟩
  | 104 => ⟨S50000x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S50000x64, .f32⟩
  | 111 => ⟨S50000x64, .f32⟩
  | 112 => ⟨S_, .f32⟩
  | 113 => ⟨S64, .f32⟩
  | 114 => ⟨S_, .f32⟩
  | 115 => ⟨S64, .f32⟩
  | 116 => ⟨S64, .f32⟩
  | 117 => ⟨S1x64, .f32⟩
  | 118 => ⟨S50000x64, .f32⟩
  | 119 => ⟨S50000x64, .f32⟩
  | 120 => ⟨S50000x64, .f32⟩
  | 121 => ⟨S_, .f32⟩
  | 122 => ⟨S64, .f32⟩
  | 123 => ⟨S_, .f32⟩
  | 124 => ⟨S64, .f32⟩
  | 125 => ⟨S64, .f32⟩
  | 126 => ⟨S1x64, .f32⟩
  | 127 => ⟨S50000x64, .f32⟩
  | _ => ⟨S50000x3, .f32⟩

abbrev hbmTy0_1 (i : Nat) : BufTy := match i % 128 with
  | 0 => ⟨S50000x64, .f32⟩
  | 1 => ⟨S_, .f32⟩
  | 2 => ⟨S64, .f32⟩
  | 3 => ⟨S64, .f32⟩
  | 4 => ⟨S64, .f32⟩
  | 5 => ⟨S1x64, .f32⟩
  | 6 => ⟨S50000x64, .f32⟩
  | 7 => ⟨S50000x64, .f32⟩
  | 8 => ⟨S1x64, .f32⟩
  | 9 => ⟨S50000x64, .f32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S_, .f32⟩
  | 31 => ⟨S800000x1, .f32⟩
  | 32 => ⟨S_, .f32⟩
  | 33 => ⟨S50000x1, .f32⟩
  | 34 => ⟨S800000x1, .i32⟩
  | 35 => ⟨S50000x1, .f32⟩
  | 36 => ⟨S_, .f32⟩
  | 37 => ⟨S50000x1, .f32⟩
  | 38 => ⟨S50000x1, .f32⟩
  | 39 => ⟨S50000x64, .f32⟩
  | 40 => ⟨S50000x64, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call0_cst : Ref sig .tc := ⟨.hbm, 79, rfl⟩
abbrev main_call0_v0 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_cst_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_cst_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call1_cst : Ref sig .tc := ⟨.hbm, 142, rfl⟩
abbrev main_call1_v0 : Ref sig .tc := ⟨.hbm, 143, rfl⟩
abbrev main_v103 : Ref sig .tc := ⟨.hbm, 144, rfl⟩
abbrev main_c_20 : Ref sig .tc := ⟨.hbm, 145, rfl⟩
abbrev main_v104 : Ref sig .tc := ⟨.hbm, 146, rfl⟩
abbrev main_v105 : Ref sig .tc := ⟨.hbm, 147, rfl⟩
abbrev main_c_21 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_22 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_23 : Ref sig .tc := ⟨.hbm, 158, rfl⟩
abbrev main_v114 : Ref sig .tc := ⟨.hbm, 159, rfl⟩
abbrev main_cst_24 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_25 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x3 : S_.BroadcastsInDim S50000x3 (![] : Fin 0 → Fin S50000x3.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  scatter_S50000x1_S800000x1_S800000x1_1_0_0_1_wf : ScatterDims.WF S50000x1 S800000x1 S800000x1 [1] [0] [0] 1
  dot_S50000x3_S3x64_S50000x64_1_0_0_1_n_n_wf : DotDims.WF S50000x3 S3x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KRun.lean ====
/-
  The kernel program's run with its result named. The program is five kernel regions among stretches of host
  operations; its buffers' contents at each boundary are a fold from the launch memory (host operations applied, a
  region's arrays replaced by what its write-backs leave). The frame of the program already runs this fold to the end
  and reads the argument arrays back; here the same run also reads the result buffer at the end of the fold.
-/
import proofs.«105976_j14628658610510_2_alg».proof.Proof.Gen.KernelIdeal.Frame

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the end of the
    fold of its contents and every argument array as launched. -/
theorem run_value : θ_run defs (onTc (τ := τ) (main (F := F))) ⟨m, fun _ => 0, ρ⟩ (fun r => ∀ c : Dev nD,
      r.2.mem ((c.tc : Thread nD τ).loc main_v86) = W10 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v86 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.KerValue

end
-- ==== Proof.KArgs.lean ====
/-
  The argument arrays at the boundaries inside the kernel program's run. No host operation and no region writes an
  argument array, so the fold of the buffers' contents, read at an argument's buffer at any boundary, walks back to
  the launch memory: the same walk the frame makes from the last boundary, started at an earlier one.
-/
import proofs.«105976_j14628658610510_2_alg».proof.Proof.Gen.KernelIdeal.Frame

noncomputable section

namespace Cert.KernelIdeal.KerValue

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

end Cert.KernelIdeal.KerValue

end
-- ==== Proof.AggKer.lean ====
/-
  The kernel program's neighbourhood mean, operation by operation.

  From the edge list `e` (row 0 the sources, row 1 the destinations, 800000 edges) and a feature
  matrix `h` over the 50000 nodes: every edge carries its source's feature row (a gather at the
  source indices, a negative index first moved up by 50000), the rows are added into their
  destinations (a scatter-add into zeros), and each node's sum is divided by its in-degree. The
  in-degree is taken once, as a scatter-add of a rank-1 array of ones into a rank-1 array of zeros,
  then viewed as a column and clamped below at one.
-/
import proofs.«105976_j14628658610510_2_alg».proof.KernelIdeal
import Idealize.ShloMosaic.PureOps.Ideal

noncomputable section

namespace Cert.KernelIdeal.KerValue

open Cert.KernelIdeal Idealize.ShloMosaic
open Cert.KernelIdeal.Facts₀

variable [Cert.KernelIdeal.Facts]

/-- Row 0 of the edge list as an array of 800000 integers: the source of every edge. -/
def srcRowK (e : (⟨S2x800000, .i32⟩ : BufTy).Contents (Elt Ideal)) : (⟨S800000, .i32⟩ : BufTy).Contents (Elt Ideal) :=
  shapeCast _ (extractStridedSlice S1x800000 ![0, 0] (e) slices_S2x800000_S1x800000_0_0) shapeCasts_S1x800000_S800000

/-- Row 1 of the edge list: the destination of every edge. -/
def dstRowK (e : (⟨S2x800000, .i32⟩ : BufTy).Contents (Elt Ideal)) : (⟨S800000, .i32⟩ : BufTy).Contents (Elt Ideal) :=
  shapeCast _ (extractStridedSlice S1x800000 ![1, 0] (e) slices_S2x800000_S1x800000_1_0) shapeCasts_S1x800000_S800000

/-- The source indices as a column: a negative source is first moved up by the number of nodes. -/
def srcIdxK (e : (⟨S2x800000, .i32⟩ : BufTy).Contents (Elt Ideal)) : (⟨S800000x1, .i32⟩ : BufTy).Contents (Elt Ideal) :=
  broadcastInDim S800000x1 ![0] bcast_S800000_S800000x1_0
    (select
      (cmpi .slt (srcRowK e) (broadcastInDim (s := S_) S800000 ![] bcast_S_S800000 (constantI S_ 32 0#32)))
      (addi (srcRowK e) (broadcastInDim (s := S_) S800000 ![] bcast_S_S800000 (constantI S_ 32 50000#32)))
      (srcRowK e))

/-- The destination indices as a column. -/
def dstIdxK (e : (⟨S2x800000, .i32⟩ : BufTy).Contents (Elt Ideal)) : (⟨S800000x1, .i32⟩ : BufTy).Contents (Elt Ideal) :=
  broadcastInDim S800000x1 ![0] bcast_S800000_S800000x1_0 (dstRowK e)

/-- Each node's in-degree, clamped below at one: ones added into zeros at the destinations (both of rank 1),
    the result viewed as a column, then the maximum with one. -/
def degK (e : (⟨S2x800000, .i32⟩ : BufTy).Contents (Elt Ideal)) : FVec Ideal S50000x1 .f32 :=
  maximumf
    (broadcastInDim S50000x1 ![0] bcast_S50000_S50000x1_0
      (Host.scatterAdd scatter_S50000_S800000x1_S800000_n_0_0_1
        (broadcastInDim S50000 ![] bcast_S_S50000 (constant (F := Ideal) S_ .f32 0x00000000#32))
        (dstIdxK e)
        (broadcastInDim S800000 ![] bcast_S_S800000 (constant (F := Ideal) S_ .f32 0x3F800000#32))))
    (broadcastInDim S50000x1 ![] bcast_S_S50000x1 (constant (F := Ideal) S_ .f32 0x3F800000#32))

/-- The neighbourhood mean of a three-column feature matrix. -/
def aggK3 (e : (⟨S2x800000, .i32⟩ : BufTy).Contents (Elt Ideal)) (h : FVec Ideal S50000x3 .f32) : FVec Ideal S50000x3 .f32 :=
  Host.divf
    (Host.scatterAdd scatter_S50000x3_S800000x1_S800000x3_1_0_0_1
      (broadcastInDim S50000x3 ![] bcast_S_S50000x3 (constant (F := Ideal) S_ .f32 0x00000000#32))
      (dstIdxK e)
      (Host.gather gather_S50000x3_S800000x1_S800000x3_1_0_n_n_0_1_13 (h) (srcIdxK e)))
    (broadcastInDim S50000x3 ![0, 1] bcast_S50000x1_S50000x3_0_1 (degK e))

/-- The neighbourhood mean of a sixty-four-column feature matrix. -/
def aggK64 (e : (⟨S2x800000, .i32⟩ : BufTy).Contents (Elt Ideal)) (h : FVec Ideal S50000x64 .f32) : FVec Ideal S50000x64 .f32 :=
  Host.divf
    (Host.scatterAdd scatter_S50000x64_S800000x1_S800000x64_1_0_0_1
      (broadcastInDim S50000x64 ![] bcast_S_S50000x64 (constant (F := Ideal) S_ .f32 0x00000000#32))
      (dstIdxK e)
      (Host.gather gather_S50000x64_S800000x1_S800000x64_1_0_n_n_0_1_164 (h) (srcIdxK e)))
    (broadcastInDim S50000x64 ![0, 1] bcast_S50000x1_S50000x64_0_1 (degK e))

end Cert.KernelIdeal.KerValue

end
-- ==== Proof.KHost.lean ====
/-
  The host arithmetic between the kernel program's five regions, read back stretch by stretch.

  Before region 0 the program slices the edge list, counts each node's in-degree, averages the input features over
  in-neighbours and views the first bias as a row. After region 0 (and again after region 2) it adds the five per-tile
  column sums and sums of squares, divides by the number of rows, forms mean of squares minus squared mean clamped at
  zero, adds the small constant and takes the inverse square root, and views the scale and shift as rows. Before
  regions 2 and 4 it averages the previous layer's output over in-neighbours, with the index arrays and the clamped
  in-degree it computed at the start. Each buffer's contents after a stretch are the stretch's operations applied to
  the contents before it; a buffer no operation of the stretch writes is unchanged, and a region leaves every buffer
  other than its own arrays unchanged.
-/
import proofs.«105976_j14628658610510_2_alg».proof.Proof.Gen.KernelIdeal.Frame
import proofs.«105976_j14628658610510_2_alg».proof.Proof.KArgs
import proofs.«105976_j14628658610510_2_alg».proof.Proof.AggKer
import Idealize.ShloMosaic.Lib.StableHlo.Run
import Idealize.ShloMosaic.PureOps.Ideal.Laws

noncomputable section

namespace Cert.KernelIdeal.KerValue

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (ρ : Dev nD → PrngReg)

/-! ### Host stretch 0: the index arrays, the in-degree, the first neighbourhood mean, the first bias as a row -/

theorem W1_v1 (c : Dev nD) : W1 m ρ c (Proc.devRef .tc main_v1) = srcRowK (m ((c.tc : Thread nD τ).loc main_arg1)) := by
  show StableHlo.after hostOps0 (W0 m ρ c) (Proc.devRef .tc main_v1) = _
  after_results
  unfold srcRowK
  rfl

theorem W1_v3 (c : Dev nD) : W1 m ρ c (Proc.devRef .tc main_v3) = dstRowK (m ((c.tc : Thread nD τ).loc main_arg1)) := by
  show StableHlo.after hostOps0 (W0 m ρ c) (Proc.devRef .tc main_v3) = _
  after_results
  unfold dstRowK
  rfl

theorem W1_v10 (c : Dev nD) : W1 m ρ c (Proc.devRef .tc main_v10) = degK (m ((c.tc : Thread nD τ).loc main_arg1)) := by
  show StableHlo.after hostOps0 (W0 m ρ c) (Proc.devRef .tc main_v10) = _
  after_results
  unfold degK dstIdxK dstRowK
  rfl

set_option maxHeartbeats 4000000 in
theorem W1_v22 (c : Dev nD) : W1 m ρ c (Proc.devRef .tc main_v22)
    = aggK3 (m ((c.tc : Thread nD τ).loc main_arg1)) (m ((c.tc : Thread nD τ).loc main_arg0)) := by
  show StableHlo.after hostOps0 (W0 m ρ c) (Proc.devRef .tc main_v22) = _
  after_results
  unfold aggK3 degK dstIdxK srcIdxK dstRowK srcRowK
  rfl

theorem W1_v23 (c : Dev nD) : W1 m ρ c (Proc.devRef .tc main_v23)
    = shapeCast _ (m ((c.tc : Thread nD τ).loc main_arg3)) Facts₀.shapeCasts_S64_S1x64 := by
  show StableHlo.after hostOps0 (W0 m ρ c) (Proc.devRef .tc main_v23) = _
  after_results; try rfl

/-! ### The index arrays and the in-degree are carried unchanged to the later stretches -/

theorem W4_v1 (c : Dev nD) : W4 m ρ c (Proc.devRef .tc main_v1) = srcRowK (m ((c.tc : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results; try rfl
    _ = W1 m ρ c (Proc.devRef .tc main_v1) := W2_of_ne m ρ c main_v1 (by decide)
    _ = srcRowK (m ((c.tc : Thread nD τ).loc main_arg1)) := W1_v1 m ρ c
theorem W4_v3 (c : Dev nD) : W4 m ρ c (Proc.devRef .tc main_v3) = dstRowK (m ((c.tc : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by show StableHlo.after hostOps1 (W2 m ρ c) (Proc.devRef .tc main_v3) = _; after_results; try rfl
    _ = W1 m ρ c (Proc.devRef .tc main_v3) := W2_of_ne m ρ c main_v3 (by decide)
    _ = dstRowK (m ((c.tc : Thread nD τ).loc main_arg1)) := W1_v3 m ρ c
theorem W4_v10 (c : Dev nD) : W4 m ρ c (Proc.devRef .tc main_v10) = degK (m ((c.tc : Thread nD τ).loc main_arg1)) :=
  calc W4 m ρ c (Proc.devRef .tc main_v10)
    _ = W3 m ρ c (Proc.devRef .tc main_v10) := W4_of_ne m ρ c main_v10 (by decide)
    _ = W2 m ρ c (Proc.devRef .tc main_v10) := by show StableHlo.after hostOps1 (W2 m ρ c) (Proc.devRef .tc main_v10) = _; after_results; try rfl
    _ = W1 m ρ c (Proc.devRef .tc main_v10) := W2_of_ne m ρ c main_v10 (by decide)
    _ = degK (m ((c.tc : Thread nD τ).loc main_arg1)) := W1_v10 m ρ c
theorem W8_v1 (c : Dev nD) : W8 m ρ c (Proc.devRef .tc main_v1) = srcRowK (m ((c.tc : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := by show StableHlo.after hostOps3 (W6 m ρ c) (Proc.devRef .tc main_v1) = _; after_results; try rfl
    _ = W5 m ρ c (Proc.devRef .tc main_v1) := W6_of_ne m ρ c main_v1 (by decide)
    _ = W4 m ρ c (Proc.devRef .tc main_v1) := by show StableHlo.after hostOps2 (W4 m ρ c) (Proc.devRef .tc main_v1) = _; after_results; try rfl
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results; try rfl
    _ = W1 m ρ c (Proc.devRef .tc main_v1) := W2_of_ne m ρ c main_v1 (by decide)
    _ = srcRowK (m ((c.tc : Thread nD τ).loc main_arg1)) := W1_v1 m ρ c
theorem W8_v3 (c : Dev nD) : W8 m ρ c (Proc.devRef .tc main_v3) = dstRowK (m ((c.tc : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by show StableHlo.after hostOps3 (W6 m ρ c) (Proc.devRef .tc main_v3) = _; after_results; try rfl
    _ = W5 m ρ c (Proc.devRef .tc main_v3) := W6_of_ne m ρ c main_v3 (by decide)
    _ = W4 m ρ c (Proc.devRef .tc main_v3) := by show StableHlo.after hostOps2 (W4 m ρ c) (Proc.devRef .tc main_v3) = _; after_results; try rfl
    _ = W3 m ρ c (Proc.devRef .tc main_v3) := W4_of_ne m ρ c main_v3 (by decide)
    _ = W2 m ρ c (Proc.devRef .tc main_v3) := by show StableHlo.after hostOps1 (W2 m ρ c) (Proc.devRef .tc main_v3) = _; after_results; try rfl
    _ = W1 m ρ c (Proc.devRef .tc main_v3) := W2_of_ne m ρ c main_v3 (by decide)
    _ = dstRowK (m ((c.tc : Thread nD τ).loc main_arg1)) := W1_v3 m ρ c
theorem W8_v10 (c : Dev nD) : W8 m ρ c (Proc.devRef .tc main_v10) = degK (m ((c.tc : Thread nD τ).loc main_arg1)) :=
  calc W8 m ρ c (Proc.devRef .tc main_v10)
    _ = W7 m ρ c (Proc.devRef .tc main_v10) := W8_of_ne m ρ c main_v10 (by decide)
    _ = W6 m ρ c (Proc.devRef .tc main_v10) := by show StableHlo.after hostOps3 (W6 m ρ c) (Proc.devRef .tc main_v10) = _; after_results; try rfl
    _ = W5 m ρ c (Proc.devRef .tc main_v10) := W6_of_ne m ρ c main_v10 (by decide)
    _ = W4 m ρ c (Proc.devRef .tc main_v10) := by show StableHlo.after hostOps2 (W4 m ρ c) (Proc.devRef .tc main_v10) = _; after_results; try rfl
    _ = W3 m ρ c (Proc.devRef .tc main_v10) := W4_of_ne m ρ c main_v10 (by decide)
    _ = W2 m ρ c (Proc.devRef .tc main_v10) := by show StableHlo.after hostOps1 (W2 m ρ c) (Proc.devRef .tc main_v10) = _; after_results; try rfl
    _ = W1 m ρ c (Proc.devRef .tc main_v10) := W2_of_ne m ρ c main_v10 (by decide)
    _ = degK (m ((c.tc : Thread nD τ).loc main_arg1)) := W1_v10 m ρ c

/-! ### Host stretch 1: the column statistics from the per-tile partial sums -/

/-- The column means as the program computes them: the five per-tile sums added (from zero), over the number of rows. -/
theorem W3_v28 (c : Dev nD) : W3 m ρ c (Proc.devRef .tc main_v28)
    = Host.divf (Host.reduceAdd (W2 m ρ c (Proc.devRef .tc main_v24_1)) (constant (F := Ideal) S_ .f32 0x00000000#32) Facts₀.reducesTo_S5x1x64_S1x64_d0 Facts₀.h_S_)
        (broadcastInDim S1x64 ![] Facts₀.bcast_S_S1x64 (constant (F := Ideal) S_ .f32 0x47435000#32)) := by
  show StableHlo.after hostOps1 (W2 m ρ c) (Proc.devRef .tc main_v28) = _
  after_results; try rfl

/-- The inverse standard deviations: mean of squares minus squared mean, clamped below at zero, plus the small constant,
    inverse square root. -/
theorem W3_v37 (c : Dev nD) : W3 m ρ c (Proc.devRef .tc main_v37)
    = Host.rsqrt (addf (maximumf (subf
        (Host.divf (Host.reduceAdd (W2 m ρ c (Proc.devRef .tc main_v24_2)) (constant (F := Ideal) S_ .f32 0x00000000#32) Facts₀.reducesTo_S5x1x64_S1x64_d0 Facts₀.h_S_)
          (broadcastInDim S1x64 ![] Facts₀.bcast_S_S1x64 (constant (F := Ideal) S_ .f32 0x47435000#32)))
        (mulf (W3 m ρ c (Proc.devRef .tc main_v28)) (W3 m ρ c (Proc.devRef .tc main_v28))))
        (broadcastInDim S1x64 ![] Facts₀.bcast_S_S1x64 (constant (F := Ideal) S_ .f32 0x00000000#32)))
        (broadcastInDim S1x64 ![] Facts₀.bcast_S_S1x64 (constant (F := Ideal) S_ .f32 0x3727C5AC#32))) := by
  rw [W3_v28 m ρ c]
  show StableHlo.after hostOps1 (W2 m ρ c) (Proc.devRef .tc main_v37) = _
  after_results; try rfl

theorem W3_v38 (c : Dev nD) : W3 m ρ c (Proc.devRef .tc main_v38)
    = shapeCast _ (m ((c.tc : Thread nD τ).loc main_arg5)) Facts₀.shapeCasts_S64_S1x64 := by
  show StableHlo.after hostOps1 (W2 m ρ c) (Proc.devRef .tc main_v38) = _
  after_results
  rw [W2_main_arg5 m ρ c]
  rfl
theorem W3_v39 (c : Dev nD) : W3 m ρ c (Proc.devRef .tc main_v39)
    = shapeCast _ (m ((c.tc : Thread nD τ).loc main_arg6)) Facts₀.shapeCasts_S64_S1x64 := by
  show StableHlo.after hostOps1 (W2 m ρ c) (Proc.devRef .tc main_v39) = _
  after_results
  rw [W2_main_arg6 m ρ c]
  rfl

/-- The pre-activation array is not touched by the stretch. -/
theorem W3_v24_0 (c : Dev nD) : W3 m ρ c (Proc.devRef .tc main_v24_0) = W2 m ρ c (Proc.devRef .tc main_v24_0) := by
  show StableHlo.after hostOps1 (W2 m ρ c) (Proc.devRef .tc main_v24_0) = _
  after_results; try rfl

/-! ### Host stretch 2: the neighbourhood mean of the previous layer's output, and the bias as a row -/

set_option maxHeartbeats 4000000 in
/-- The neighbourhood mean, from the copy of the previous layer's output the program gathers (a narrower float
    format in the program; the same extended reals here). -/
theorem W5_v53 (c : Dev nD) : W5 m ρ c (Proc.devRef .tc main_v53)
    = aggK64 (m ((c.tc : Thread nD τ).loc main_arg1)) (W4 m ρ c (Proc.devRef .tc main_v40_1)) := by
  show StableHlo.after hostOps2 (W4 m ρ c) (Proc.devRef .tc main_v53) = _
  after_results
  rw [W4_v1 m ρ c, W4_v3 m ρ c, W4_v10 m ρ c]
  unfold aggK64 dstIdxK srcIdxK
  rfl

theorem W5_v54 (c : Dev nD) : W5 m ρ c (Proc.devRef .tc main_v54)
    = shapeCast _ (m ((c.tc : Thread nD τ).loc main_arg8)) Facts₀.shapeCasts_S64_S1x64 := by
  show StableHlo.after hostOps2 (W4 m ρ c) (Proc.devRef .tc main_v54) = _
  after_results
  rw [W4_main_arg8 m ρ c]
  rfl

/-- The previous layer's output in full precision is not touched by the stretch. -/
theorem W5_v40_0 (c : Dev nD) : W5 m ρ c (Proc.devRef .tc main_v40_0) = W4 m ρ c (Proc.devRef .tc main_v40_0) := by
  show StableHlo.after hostOps2 (W4 m ρ c) (Proc.devRef .tc main_v40_0) = _
  after_results; try rfl

/-! ### Host stretch 3: the column statistics from the per-tile partial sums -/

/-- The column means as the program computes them: the five per-tile sums added (from zero), over the number of rows. -/
theorem W7_v59 (c : Dev nD) : W7 m ρ c (Proc.devRef .tc main_v59)
    = Host.divf (Host.reduceAdd (W6 m ρ c (Proc.devRef .tc main_v55_1)) (constant (F := Ideal) S_ .f32 0x00000000#32) Facts₀.reducesTo_S5x1x64_S1x64_d0 Facts₀.h_S_)
        (broadcastInDim S1x64 ![] Facts₀.bcast_S_S1x64 (constant (F := Ideal) S_ .f32 0x47435000#32)) := by
  show StableHlo.after hostOps3 (W6 m ρ c) (Proc.devRef .tc main_v59) = _
  after_results; try rfl

/-- The inverse standard deviations: mean of squares minus squared mean, clamped below at zero, plus the small constant,
    inverse square root. -/
theorem W7_v68 (c : Dev nD) : W7 m ρ c (Proc.devRef .tc main_v68)
    = Host.rsqrt (addf (maximumf (subf
        (Host.divf (Host.reduceAdd (W6 m ρ c (Proc.devRef .tc main_v55_2)) (constant (F := Ideal) S_ .f32 0x00000000#32) Facts₀.reducesTo_S5x1x64_S1x64_d0 Facts₀.h_S_)
          (broadcastInDim S1x64 ![] Facts₀.bcast_S_S1x64 (constant (F := Ideal) S_ .f32 0x47435000#32)))
        (mulf (W7 m ρ c (Proc.devRef .tc main_v59)) (W7 m ρ c (Proc.devRef .tc main_v59))))
        (broadcastInDim S1x64 ![] Facts₀.bcast_S_S1x64 (constant (F := Ideal) S_ .f32 0x00000000#32)))
        (broadcastInDim S1x64 ![] Facts₀.bcast_S_S1x64 (constant (F := Ideal) S_ .f32 0x3727C5AC#32))) := by
  rw [W7_v59 m ρ c]
  show StableHlo.after hostOps3 (W6 m ρ c) (Proc.devRef .tc main_v68) = _
  after_results; try rfl

theorem W7_v69 (c : Dev nD) : W7 m ρ c (Proc.devRef .tc main_v69)
    = shapeCast _ (m ((c.tc : Thread nD τ).loc main_arg10)) Facts₀.shapeCasts_S64_S1x64 := by
  show StableHlo.after hostOps3 (W6 m ρ c) (Proc.devRef .tc main_v69) = _
  after_results
  rw [W6_main_arg10 m ρ c]
  rfl
theorem W7_v70 (c : Dev nD) : W7 m ρ c (Proc.devRef .tc main_v70)
    = shapeCast _ (m ((c.tc : Thread nD τ).loc main_arg11)) Facts₀.shapeCasts_S64_S1x64 := by
  show StableHlo.after hostOps3 (W6 m ρ c) (Proc.devRef .tc main_v70) = _
  after_results
  rw [W6_main_arg11 m ρ c]
  rfl

/-- The pre-activation array is not touched by the stretch. -/
theorem W7_v55_0 (c : Dev nD) : W7 m ρ c (Proc.devRef .tc main_v55_0) = W6 m ρ c (Proc.devRef .tc main_v55_0) := by
  show StableHlo.after hostOps3 (W6 m ρ c) (Proc.devRef .tc main_v55_0) = _
  after_results; try rfl

/-! ### Host stretch 4: the neighbourhood mean of the previous layer's output, and the bias as a row -/

set_option maxHeartbeats 4000000 in
/-- The neighbourhood mean, from the copy of the previous layer's output the program gathers (a narrower float
    format in the program; the same extended reals here). -/
theorem W9_v84 (c : Dev nD) : W9 m ρ c (Proc.devRef .tc main_v84)
    = aggK64 (m ((c.tc : Thread nD τ).loc main_arg1)) (W8 m ρ c (Proc.devRef .tc main_v71_1)) := by
  show StableHlo.after hostOps4 (W8 m ρ c) (Proc.devRef .tc main_v84) = _
  after_results
  rw [W8_v1 m ρ c, W8_v3 m ρ c, W8_v10 m ρ c]
  unfold aggK64 dstIdxK srcIdxK
  rfl

theorem W9_v85 (c : Dev nD) : W9 m ρ c (Proc.devRef .tc main_v85)
    = shapeCast _ (m ((c.tc : Thread nD τ).loc main_arg13)) Facts₀.shapeCasts_S128_S1x128 := by
  show StableHlo.after hostOps4 (W8 m ρ c) (Proc.devRef .tc main_v85) = _
  after_results
  rw [W8_main_arg13 m ρ c]
  rfl

/-- The previous layer's output in full precision is not touched by the stretch. -/
theorem W9_v71_0 (c : Dev nD) : W9 m ρ c (Proc.devRef .tc main_v71_0) = W8 m ρ c (Proc.devRef .tc main_v71_0) := by
  show StableHlo.after hostOps4 (W8 m ρ c) (Proc.devRef .tc main_v71_0) = _
  after_results; try rfl

end Cert.KernelIdeal.KerValue

end
-- ==== Proof.Spec.lean ====
/-
  The mathematics both programs compute, as functions of matrices of extended reals, index by index.

  One layer of the network is, for a node-feature matrix `x` and its neighbourhood means `agg`,
  the affine map `lin agg x = agg · Wl + bl + x · Wr`; the two inner layers are followed by a batch
  normalisation over the rows (the nodes) — each column shifted by its mean, scaled by the inverse
  square root of its variance plus a small constant, then by a learned scale and shift — and by the
  positive part. The reference takes a column's variance as the mean of the squared deviations; the
  kernel takes each column's sum and sum of squares tile by tile (five tiles of ten thousand rows),
  adds the five partial sums, and uses  E[p²] − (E[p])²  clamped below at zero. Over real entries the
  two variances are one number; with an infinite entry they are not, which is why the proof carries
  finiteness from the inputs up to each layer's affine map.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals, `n` rows by `d` columns, indexed as the programs index a rank-2 array. -/
abbrev Mat (n d : Nat) : Type := (⟨2, ![n, d]⟩ : Shape).Idx → EReal

/-- The number of rows (nodes), 50000, as the float both programs divide by. -/
def nF : EReal := Ideal.ofBits .f32 0x47435000#32

/-- The small constant added to a variance before the inverse square root. -/
def epsF : EReal := Ideal.ofBits .f32 0x3727C5AC#32

/-- One layer's affine map: `(agg · Wl + bl) + x · Wr`, entry `(r, c)`. -/
def lin {n d o : Nat} (agg x : Mat n d) (Wl : Mat d o) (bl : Mat 1 o) (Wr : Mat d o) : Mat n o :=
  fun j => ((∑ k : Fin d, agg (ix2 (j 0 : Fin n) k) * Wl (ix2 k (j 1 : Fin o))) + bl (ix2 (0 : Fin 1) (j 1 : Fin o)))
    + ∑ k : Fin d, x (ix2 (j 0 : Fin n) k) * Wr (ix2 k (j 1 : Fin o))

/-- A column's sum over all rows. -/
def colSum {n o : Nat} (p : Mat n o) (c : Fin o) : EReal := ∑ r : Fin n, p (ix2 r c)

/-- A column's mean: its sum divided by the number of rows. -/
def mean {n o : Nat} (p : Mat n o) (c : Fin o) : EReal := Ideal.div (colSum p c) nF

/-- A column's variance as the reference takes it: the mean of the squared deviations from the mean. -/
def varDev {n o : Nat} (p : Mat n o) (c : Fin o) : EReal :=
  Ideal.div (∑ r : Fin n, (p (ix2 r c) - mean p c) * (p (ix2 r c) - mean p c)) nF

/-- A column's sum of squares over all rows. -/
def colSumSq {n o : Nat} (p : Mat n o) (c : Fin o) : EReal := ∑ r : Fin n, p (ix2 r c) * p (ix2 r c)

/-- A column's variance as the kernel takes it: mean of squares minus squared mean, clamped below at zero. -/
def varMom {n o : Nat} (p : Mat n o) (c : Fin o) : EReal :=
  max (Ideal.div (colSumSq p c) nF - mean p c * mean p c) 0

/-- The inverse standard deviation from a variance. -/
def istd (v : EReal) : EReal := Ideal.rsqrt (v + epsF)

/-- Normalise, scale, shift, take the positive part: entry `(r, c)` is
    `max ((p r c − mu c) · s c · g c + b c) 0`. -/
def bnRelu {n o : Nat} (p : Mat n o) (mu s g b : Fin o → EReal) : Mat n o :=
  fun j => max ((p j - mu (j 1 : Fin o)) * s (j 1 : Fin o) * g (j 1 : Fin o) + b (j 1 : Fin o)) 0

/-- Every entry is a real number (neither infinity). -/
def IsReal {ι : Type} (f : ι → EReal) : Prop := ∀ i, f i ≠ ⊤ ∧ f i ≠ ⊥

/-- Row `r` of tile `t` (tiles of 10000 rows) as a row of the 50000-row matrix. -/
def tileRow (t : Fin 5) (r : Fin 10000) : Fin 50000 := ⟨10000 * t.val + r.val, by omega⟩

/-- A column's sum taken tile by tile: the five tiles' partial sums, added. -/
def colSumTiled {o : Nat} (p : Mat 50000 o) (c : Fin o) : EReal :=
  ∑ t : Fin 5, ∑ r : Fin 10000, p (ix2 (tileRow t r) c)

/-- A column's sum of squares taken tile by tile. -/
def colSumSqTiled {o : Nat} (p : Mat 50000 o) (c : Fin o) : EReal :=
  ∑ t : Fin 5, ∑ r : Fin 10000, p (ix2 (tileRow t r) c) * p (ix2 (tileRow t r) c)

end Cert.Spec

end
-- ==== Proof.RegionLin0.lean ====
/-
  Layer 0's affine-map region, as functions of the arrays it is entered with.

  The grid has five points; at point `t` the body sees rows `10000·t … 10000·t + 9999` of the neighbour means and of the
  features (3 columns each), and the whole left weight (3 × 64), bias (1 × 64) and right weight (3 × 64). Its
  arithmetic, read at row `r` and column `q` of the tile, is
      (∑ k, agg (r, k) · Wl (k, q) + bl (0, q)) + ∑ k, x (r, k) · Wr (k, q):
  the two matrix-unit products accumulate into zero and are read as sums over the contraction coordinate, the change of
  float format before them is the identity on extended reals, and the bias row is broadcast over the tile's rows. That is
  row `10000·t + r` of the affine map `Cert.Spec.lin` of the whole arrays, so point `t` writes back block `t` of that
  map, and the five blocks fill the 50000 × 64 output. The body also sums each column of its tile, and each column of
  the tile's squares, over the tile's 10000 rows (a reduction over axis 0, then two casts that only add unit axes), and
  writes the two 64-vectors to row `t` of two 5 × 1 × 64 arrays: entry `(t, 0, q)` of the first is
  `∑ r, lin (10000·t + r, q)`, of the second `∑ r, lin (10000·t + r, q)²`.
-/
import proofs.«105976_j14628658610510_2_alg».proof.Proof.Gen.KernelIdeal.Frame
import proofs.«105976_j14628658610510_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.RegionValue
open Idealize.ShloMosaic Idealize.ShloMosaic.TcCoe Idealize.SL.Sem Idealize.ShloMosaic.ValueIdx Cert.KernelIdeal Cert.KernelIdeal.Gen

theorem mm0_lhs0 (i : S10000x64.Idx) (q : dot_S10000x3_S3x64_S10000x64_1_0_0_1_n_n.contr.Idx) :
    (dot_S10000x3_S3x64_S10000x64_1_0_0_1_n_n.lhsIdx i q 0).val = (i 0).val := by
  unfold DotDims.lhsIdx
  rw [dif_neg (show ¬(0 : Fin S10000x3.rank) ∈ dot_S10000x3_S3x64_S10000x64_1_0_0_1_n_n.lhsBatch by decide), dif_pos (show (0 : Fin S10000x3.rank) ∈ dot_S10000x3_S3x64_S10000x64_1_0_0_1_n_n.lhsNonContracting by decide)]
  rfl
theorem mm0_lhs1 (i : S10000x64.Idx) (q : dot_S10000x3_S3x64_S10000x64_1_0_0_1_n_n.contr.Idx) :
    (dot_S10000x3_S3x64_S10000x64_1_0_0_1_n_n.lhsIdx i q 1).val = (q ⟨0, by decide⟩).val :=
  dot_S10000x3_S3x64_S10000x64_1_0_0_1_n_n.lhsIdx_val_of_single rfl i q
theorem mm0_rhs0 (i : S10000x64.Idx) (q : dot_S10000x3_S3x64_S10000x64_1_0_0_1_n_n.contr.Idx) :
    (dot_S10000x3_S3x64_S10000x64_1_0_0_1_n_n.rhsIdx i q 0).val = (q ⟨0, by decide⟩).val :=
  dot_S10000x3_S3x64_S10000x64_1_0_0_1_n_n.rhsIdx_val_of_single rfl i q
theorem mm0_rhs1 (i : S10000x64.Idx) (q : dot_S10000x3_S3x64_S10000x64_1_0_0_1_n_n.contr.Idx) :
    (dot_S10000x3_S3x64_S10000x64_1_0_0_1_n_n.rhsIdx i q 1).val = (i 1).val := by
  unfold DotDims.rhsIdx
  rw [dif_neg (show ¬(1 : Fin S3x64.rank) ∈ dot_S10000x3_S3x64_S10000x64_1_0_0_1_n_n.rhsBatch by decide), dif_pos (show (1 : Fin S3x64.rank) ∈ dot_S10000x3_S3x64_S10000x64_1_0_0_1_n_n.rhsNonContracting by decide)]
  rfl

/-- The matrix unit into a zero accumulator, read at row `r`, column `q`: the sum over the 3 contraction
    coordinates of the products of the operands' entries. -/
theorem mm0_apply (a : FVec Ideal S10000x3 .bf16) (b : FVec Ideal S3x64 .bf16) (r : Fin 10000) (q : Fin 64) :
    matmul dot_S10000x3_S3x64_S10000x64_1_0_0_1_n_n none a b (constant (F := Ideal) S10000x64 .f32 0x00000000#32) (ix2 r q)
      = ∑ k : Fin 3, a (ix2 r k) * b (ix2 k q) := by
  simp only [matmul]
  rw [Ideal.matmul_constant_zero_apply, ← Equiv.sum_comp (ValueIdx.contrEquiv1 dot_S10000x3_S3x64_S10000x64_1_0_0_1_n_n 3 rfl rfl).symm]
  refine Finset.sum_congr rfl fun k _ => ?_
  have hk := ValueIdx.contrEquiv1_symm_val dot_S10000x3_S3x64_S10000x64_1_0_0_1_n_n 3 rfl rfl k
  have el : dot_S10000x3_S3x64_S10000x64_1_0_0_1_n_n.lhsIdx (ix2 r q) ((ValueIdx.contrEquiv1 dot_S10000x3_S3x64_S10000x64_1_0_0_1_n_n 3 rfl rfl).symm k) = ix2 r k := funext fun a => Fin.ext (by
    match a with
    | ⟨0, _⟩ => exact mm0_lhs0 _ _
    | ⟨1, _⟩ => exact (mm0_lhs1 _ _).trans hk)
  have er : dot_S10000x3_S3x64_S10000x64_1_0_0_1_n_n.rhsIdx (ix2 r q) ((ValueIdx.contrEquiv1 dot_S10000x3_S3x64_S10000x64_1_0_0_1_n_n 3 rfl rfl).symm k) = ix2 k q := funext fun a => Fin.ext (by
    match a with
    | ⟨0, _⟩ => exact (mm0_rhs0 _ _).trans hk
    | ⟨1, _⟩ => exact mm0_rhs1 _ _)
  rw [el, er]

/-- The body's arithmetic at row `r`, column `q` of a tile: the affine map of the tile's rows. -/
theorem pay0_apply (v0 v3 : Vec Ideal S10000x3 .f32) (v5 v7 : Vec Ideal S3x64 .f32) (v10 : Vec Ideal S1x64 .f32)
    (r : Fin 10000) (q : Fin 64) :
    k0_pay1 (F := Ideal) v0 v3 v5 v7 v10 (ix2 r q)
      = ((∑ k : Fin 3, v0 (ix2 r k) * v5 (ix2 k q)) + v10 (ix2 (0 : Fin 1) q)) + ∑ k : Fin 3, v3 (ix2 r k) * v7 (ix2 k q) := by
  unfold k0_pay1
  simp only [shapeCast_self]
  rw [addf_apply, addf_apply, mm0_apply, mm0_apply, broadcastTo_1b_ab_apply]
  rfl

/-- A sum over axis 0 of a 10000 × 64 tile, read at column `q`: the sum of the column's 10000 entries. -/
theorem colsum0_apply (src : FVec Ideal S10000x64 .f32) (hφ : FKind.Formats .f32)
    (hacc : (0x00000000#32 : BitVec 32) = FKind.add.neutral .f32 hφ) (q : Fin 64) :
    multiReduction .add [0] S64 src 0x00000000#32 reduces_S10000x64_S64 hφ hacc (ix1 q) = ∑ r : Fin 10000, src (ix2 r q) := by
  refine (Ideal.multiReduction_add_single src 0x00000000#32 reduces_S10000x64_S64 hφ hacc (ix1 q)).trans ?_
  refine Finset.sum_congr rfl fun r _ => congrArg src ?_
  funext a
  apply Fin.ext
  match a with
  | ⟨0, _⟩ => rfl
  | ⟨1, _⟩ => rfl

/-- The tile's column sums as the body stores them (two unit axes added), at `(u, v, q)`. -/
theorem sum0_apply (v0 v3 : Vec Ideal S10000x3 .f32) (v5 v7 : Vec Ideal S3x64 .f32) (v10 : Vec Ideal S1x64 .f32)
    (u v : Fin 1) (q : Fin 64) :
    k0_pay2 (F := Ideal) v0 v3 v5 v7 v10 (ix3 u v q) = ∑ r : Fin 10000, k0_pay1 (F := Ideal) v0 v3 v5 v7 v10 (ix2 r q) := by
  unfold k0_pay2
  refine (shapeCast_ab_1ab_apply _ _ u v q).trans ?_
  refine (shapeCast_a_1a_apply _ _ v q).trans ?_
  exact colsum0_apply _ _ _ q

/-- The tile's column sums of squares as the body stores them, at `(u, v, q)`. -/
theorem sumsq0_apply (v0 v3 : Vec Ideal S10000x3 .f32) (v5 v7 : Vec Ideal S3x64 .f32) (v10 : Vec Ideal S1x64 .f32)
    (u v : Fin 1) (q : Fin 64) :
    k0_pay3 (F := Ideal) v0 v3 v5 v7 v10 (ix3 u v q)
      = ∑ r : Fin 10000, k0_pay1 (F := Ideal) v0 v3 v5 v7 v10 (ix2 r q) * k0_pay1 (F := Ideal) v0 v3 v5 v7 v10 (ix2 r q) := by
  unfold k0_pay3
  refine (shapeCast_ab_1ab_apply _ _ u v q).trans ?_
  refine (shapeCast_a_1a_apply _ _ v q).trans ?_
  exact colsum0_apply _ _ _ q

variable (V : (c : Dev nD) → (b : Ref sig .tc) → Buf (Elt Ideal) ((c : Thread nD τ).loc b))

theorem hz2_r0 : (![0, 0] : Fin 2 → Nat) = fun _ => 0 := funext fun a => by fin_cases a <;> rfl
theorem hz3_r0 : (![0, 0, 0] : Fin 3 → Nat) = fun _ => 0 := funext fun a => by fin_cases a <;> rfl

/-! The printed index maps over the grid: a row-tiled window's block at point `t` is tile `t`; a weight or bias
    window's block is the whole array at every point; a statistics window's block at point `t` is row `t`. -/
theorem idx_facts0_0 : ∀ t : Fin cfg0.N, win0_0.index t (0 : Fin 2) = t.val ∧ win0_0.index t (1 : Fin 2) = 0 :=
  (by decide +kernel : ∀ t : Fin grid0.N, _)
theorem idx_facts0_1 : ∀ t : Fin cfg0.N, win0_1.index t (0 : Fin 2) = t.val ∧ win0_1.index t (1 : Fin 2) = 0 :=
  (by decide +kernel : ∀ t : Fin grid0.N, _)
theorem idx_facts0_2 : ∀ t : Fin cfg0.N, win0_2.index t (0 : Fin 2) = 0 ∧ win0_2.index t (1 : Fin 2) = 0 :=
  (by decide +kernel : ∀ t : Fin grid0.N, _)
theorem idx_facts0_3 : ∀ t : Fin cfg0.N, win0_3.index t (0 : Fin 2) = 0 ∧ win0_3.index t (1 : Fin 2) = 0 :=
  (by decide +kernel : ∀ t : Fin grid0.N, _)
theorem idx_facts0_4 : ∀ t : Fin cfg0.N, win0_4.index t (0 : Fin 2) = 0 ∧ win0_4.index t (1 : Fin 2) = 0 :=
  (by decide +kernel : ∀ t : Fin grid0.N, _)
theorem idx_facts0_5 : ∀ t : Fin cfg0.N, win0_5.index t (0 : Fin 2) = t.val ∧ win0_5.index t (1 : Fin 2) = 0 :=
  (by decide +kernel : ∀ t : Fin grid0.N, _)
theorem idx_facts0_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_facts0_7 : ∀ t : Fin cfg0.N, win0_7.index t (0 : Fin 3) = t.val ∧ win0_7.index t (1 : Fin 3) = 0 ∧ win0_7.index t (2 : Fin 3) = 0 :=
  (by decide +kernel : ∀ t : Fin grid0.N, _)

/-- The grid point as a tile number. -/
def tile0 (t : Fin cfg0.N) : Fin 5 := ⟨t.val, by have h : t.val < grid0.N := t.isLt; rw [N_0] at h; exact h⟩

/-- Window 0's block at point `t`: rows `10000·t … 10000·t + 9999` of its array. -/
theorem iblk0_0_apply (c : Dev nD) (t : Fin cfg0.N) (r : Fin 10000) (k : Fin 3) :
    (iblk0 V c 0 t : Vec Ideal S10000x3 .f32) (ix2 r k)
      = (V c (Pipeline.arrRef spec0 0) : S50000x3.Idx → EReal) (ix2 (Cert.Spec.tileRow (tile0 t) r) k) := by
  have e0 : win0_0.index t (0 : Fin 2) = t.val := (idx_facts0_0 t).1
  have e1 : win0_0.index t (1 : Fin 2) = 0 := (idx_facts0_0 t).2
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * r.val = 10000 * t.val + r.val; rw [e0]; omega
  | ⟨1, _⟩ => show win0_0.index t (1 : Fin 2) * 3 + 1 * k.val = k.val; rw [e1]; omega

/-- Window 1's block at point `t`: rows `10000·t … 10000·t + 9999` of its array. -/
theorem iblk0_1_apply (c : Dev nD) (t : Fin cfg0.N) (r : Fin 10000) (k : Fin 3) :
    (iblk0 V c 1 t : Vec Ideal S10000x3 .f32) (ix2 r k)
      = (V c (Pipeline.arrRef spec0 1) : S50000x3.Idx → EReal) (ix2 (Cert.Spec.tileRow (tile0 t) r) k) := by
  have e0 : win0_1.index t (0 : Fin 2) = t.val := (idx_facts0_1 t).1
  have e1 : win0_1.index t (1 : Fin 2) = 0 := (idx_facts0_1 t).2
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 10000 + 1 * r.val = 10000 * t.val + r.val; rw [e0]; omega
  | ⟨1, _⟩ => show win0_1.index t (1 : Fin 2) * 3 + 1 * k.val = k.val; rw [e1]; omega

/-- Window 2's block at every point is its whole array. -/
theorem iblk0_2_eq (c : Dev nD) (t : Fin cfg0.N) :
    (iblk0 V c 2 t : Vec Ideal S3x64 .f32) = (V c (Pipeline.arrRef spec0 2) : S3x64.Idx → EReal) := by
  have e0 : win0_2.index t (0 : Fin 2) = 0 := (idx_facts0_2 t).1
  have e1 : win0_2.index t (1 : Fin 2) = 0 := (idx_facts0_2 t).2
  funext x
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 3 + 1 * (x 0).val = (x 0).val; rw [e0]; omega
  | ⟨1, _⟩ => show win0_2.index t (1 : Fin 2) * 64 + 1 * (x 1).val = (x 1).val; rw [e1]; omega

/-- Window 3's block at every point is its whole array. -/
theorem iblk0_3_eq (c : Dev nD) (t : Fin cfg0.N) :
    (iblk0 V c 3 t : Vec Ideal S1x64 .f32) = (V c (Pipeline.arrRef spec0 3) : S1x64.Idx → EReal) := by
  have e0 : win0_3.index t (0 : Fin 2) = 0 := (idx_facts0_3 t).1
  have e1 : win0_3.index t (1 : Fin 2) = 0 := (idx_facts0_3 t).2
  funext x
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

/-- Window 4's block at every point is its whole array. -/
theorem iblk0_4_eq (c : Dev nD) (t : Fin cfg0.N) :
    (iblk0 V c 4 t : Vec Ideal S3x64 .f32) = (V c (Pipeline.arrRef spec0 4) : S3x64.Idx → EReal) := by
  have e0 : win0_4.index t (0 : Fin 2) = 0 := (idx_facts0_4 t).1
  have e1 : win0_4.index t (1 : Fin 2) = 0 := (idx_facts0_4 t).2
  funext x
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 3 + 1 * (x 0).val = (x 0).val; rw [e0]; omega
  | ⟨1, _⟩ => show win0_4.index t (1 : Fin 2) * 64 + 1 * (x 1).val = (x 1).val; rw [e1]; omega

/-- The affine map of the region's entry arrays: what the first output array ends holding. -/
abbrev L0 (c : Dev nD) : Cert.Spec.Mat 50000 64 :=
  Cert.Spec.lin (n := 50000) (d := 3) (o := 64) (V c (Pipeline.arrRef spec0 0)) (V c (Pipeline.arrRef spec0 1))
    (V c (Pipeline.arrRef spec0 2)) (V c (Pipeline.arrRef spec0 3)) (V c (Pipeline.arrRef spec0 4))

/-- Tile `t` of the body's result is tile `t` of the affine map. -/
theorem tile0_eq (c : Dev nD) (t : Fin cfg0.N) (r : Fin 10000) (q : Fin 64) :
    k0_pay1 (F := Ideal) (iblk0 V c 0 t) (iblk0 V c 1 t) (iblk0 V c 2 t) (iblk0 V c 4 t) (iblk0 V c 3 t) (ix2 r q)
      = L0 V c (ix2 (Cert.Spec.tileRow (tile0 t) r) q) := by
  rw [pay0_apply]
  simp only [iblk0_0_apply V c t, iblk0_1_apply V c t, iblk0_2_eq V c t, iblk0_3_eq V c t, iblk0_4_eq V c t]
  rfl

/-- The same at an index of the tile and the index of the array it sits at. -/
theorem tile0_eq_at (c : Dev nD) (t : Fin cfg0.N) (y : S10000x64.Idx) (i : S50000x64.Idx)
    (h0 : (i 0).val = 10000 * t.val + (y 0).val) (h1 : (i 1).val = (y 1).val) :
    k0_pay1 (F := Ideal) (iblk0 V c 0 t) (iblk0 V c 1 t) (iblk0 V c 2 t) (iblk0 V c 4 t) (iblk0 V c 3 t) y = L0 V c i := by
  obtain ⟨r, q, rfl⟩ : ∃ (r : Fin 10000) (q : Fin 64), y = ix2 r q := ⟨y 0, y 1, eq_ix2 y⟩
  have hi : i = ix2 (Cert.Spec.tileRow (tile0 t) r) q := by
    funext a
    apply Fin.ext
    match a with
    | ⟨0, _⟩ => exact h0
    | ⟨1, _⟩ => exact h1
  rw [hi]
  exact tile0_eq V c t r q

/-- What point `t` writes back to the first output array is block `t` of the affine map. -/
theorem flushed0_5_eq (c : Dev nD) (t : Fin cfg0.N) :
    (dat0 (F := Ideal) V c).flushed 5 t = ((cfg0.win 5).blk t).view.read (Elt Ideal) (L0 V c) := by
  show (cfg0.win 5).cut (grid0.coords t) ((dat0 V c).after 5 t) = _
  rw [after0_5]
  unfold out0_5
  rw [View.canon_unit_zero hz2_r0]
  simp only [View.ld_unit_zero (S := S10000x3) hz2_r0, View.ld_unit_zero (S := S3x64) hz2_r0, View.ld_unit_zero (S := S1x64) hz2_r0]
  have e0 : win0_5.index t (0 : Fin 2) = t.val := (idx_facts0_5 t).1
  have e1 : win0_5.index t (1 : Fin 2) = 0 := (idx_facts0_5 t).2
  funext j
  refine tile0_eq_at V c t j _ ?_ ?_
  · show win0_5.index t (0 : Fin 2) * 10000 + 1 * (j 0).val = 10000 * t.val + (j 0).val
    rw [e0]; omega
  · show win0_5.index t (1 : Fin 2) * 64 + 1 * (j 1).val = (j 1).val
    rw [e1]; omega

/-- Every index of the first output array lies in the block of the point its row's tile names. -/
theorem covered0_5 (i : S50000x64.Idx) :
    ∃ t : Fin cfg0.N, (cfg0.win 5).flush t = true ∧ i ∈ ((cfg0.win 5).blk t).view.set := by
  have h0 : (i 0).val < 50000 := (i 0).isLt
  have h1 : (i 1).val < 64 := (i 1).isLt
  obtain ⟨t, ht⟩ : ∃ t : Fin cfg0.N, t.val = (i 0).val / 10000 :=
    ⟨⟨(i 0).val / 10000, by show _ < grid0.N; rw [N_0]; omega⟩, rfl⟩
  have e0 : win0_5.index t (0 : Fin 2) = t.val := (idx_facts0_5 t).1
  have e1 : win0_5.index t (1 : Fin 2) = 0 := (idx_facts0_5 t).2
  refine ⟨t, flush0_5 t, ?_⟩
  show i ∈ ((View.whole main_v24_0).slice (win0_5.rect t)).set
  rw [View.set_slice_whole, Rect.mem_set_unit]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 64 ≤ (i 1).val ∧ (i 1).val < win0_5.index t (1 : Fin 2) * 64 + 64
    rw [e1]; omega

/-- The first output array after the region: the affine map of the arrays the region was entered with. -/
theorem final0_5 (c : Dev nD) :
    (dat0 (F := Ideal) V c).arrAt 5 cfg0.N
      = Cert.Spec.lin (n := 50000) (d := 3) (o := 64) (V c (Pipeline.arrRef spec0 0)) (V c (Pipeline.arrRef spec0 1))
          (V c (Pipeline.arrRef spec0 2)) (V c (Pipeline.arrRef spec0 3)) (V c (Pipeline.arrRef spec0 4)) :=
  (dat0 (F := Ideal) V c).arrAt_eq_of_cover 5 (L0 V c) (fun t _ => flushed0_5_eq V c t) covered0_5

/-- The per-tile column sums: entry `(t, 0, q)` sums column `q` over tile `t`'s rows. -/
abbrev G0_6 (c : Dev nD) : S5x1x64.Idx → EReal :=
  fun i : S5x1x64.Idx => ∑ r : Fin 10000, L0 V c (ix2 (Cert.Spec.tileRow (i 0 : Fin 5) r) (i 2 : Fin 64))

/-- Point `t`'s statistics block, at an index of the block and the index of the array it sits at. -/
theorem stat0_6_at (c : Dev nD) (t : Fin cfg0.N) (y : S1x1x64.Idx) (i : S5x1x64.Idx)
    (h0 : (i 0).val = t.val) (h2 : (i 2).val = (y 2).val) :
    k0_pay2 (F := Ideal) (iblk0 V c 0 t) (iblk0 V c 1 t) (iblk0 V c 2 t) (iblk0 V c 4 t) (iblk0 V c 3 t) y = G0_6 V c i := by
  obtain ⟨u, v, q, rfl⟩ : ∃ (u v : Fin 1) (q : Fin 64), y = ix3 u v q := ⟨y 0, y 1, y 2, eq_ix3 y⟩
  obtain ⟨a, b, e, rfl⟩ : ∃ (a : Fin 5) (b : Fin 1) (e : Fin 64), i = ix3 a b e := ⟨i 0, i 1, i 2, eq_ix3 i⟩
  obtain rfl : a = tile0 t := Fin.ext h0
  obtain rfl : e = q := Fin.ext h2
  rw [sum0_apply]
  show _ = ∑ r : Fin 10000, L0 V c (ix2 (Cert.Spec.tileRow (tile0 t) r) e)
  refine Finset.sum_congr rfl fun r _ => ?_
  rw [tile0_eq V c t r e]

/-- What point `t` writes back to the statistics array is block `t` of the per-tile column sums. -/
theorem flushed0_6_eq (c : Dev nD) (t : Fin cfg0.N) :
    (dat0 (F := Ideal) V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz3_r0]
  simp only [View.ld_unit_zero (S := S10000x3) hz2_r0, View.ld_unit_zero (S := S3x64) hz2_r0, View.ld_unit_zero (S := S1x64) hz2_r0]
  have e0 : win0_6.index t (0 : Fin 3) = t.val := (idx_facts0_6 t).1
  have e2 : win0_6.index t (2 : Fin 3) = 0 := (idx_facts0_6 t).2.2
  funext j
  have hj0 : (j 0).val < 1 := (j 0).isLt
  refine stat0_6_at V c t j _ ?_ ?_
  · show win0_6.index t (0 : Fin 3) * 1 + 1 * (j 0).val = t.val
    rw [e0]; omega
  · show win0_6.index t (2 : Fin 3) * 64 + 1 * (j 2).val = (j 2).val
    rw [e2]; omega

/-- Every index of the statistics array lies in the block of the point its first coordinate names. -/
theorem covered0_6 (i : S5x1x64.Idx) :
    ∃ t : Fin cfg0.N, (cfg0.win 6).flush t = true ∧ i ∈ ((cfg0.win 6).blk t).view.set := by
  have h0 : (i 0).val < 5 := (i 0).isLt
  have h1 : (i 1).val < 1 := (i 1).isLt
  have h2 : (i 2).val < 64 := (i 2).isLt
  obtain ⟨t, ht⟩ : ∃ t : Fin cfg0.N, t.val = (i 0).val :=
    ⟨⟨(i 0).val, by show _ < grid0.N; rw [N_0]; omega⟩, rfl⟩
  have e0 : win0_6.index t (0 : Fin 3) = t.val := (idx_facts0_6 t).1
  have e1 : win0_6.index t (1 : Fin 3) = 0 := (idx_facts0_6 t).2.1
  have e2 : win0_6.index t (2 : Fin 3) = 0 := (idx_facts0_6 t).2.2
  refine ⟨t, flush0_6 t, ?_⟩
  show i ∈ ((View.whole main_v24_1).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    rw [e0, ht]; omega
  | ⟨1, _⟩ =>
    show win0_6.index t (1 : Fin 3) * 1 ≤ (i 1).val ∧ (i 1).val < win0_6.index t (1 : Fin 3) * 1 + 1
    rw [e1]; omega
  | ⟨2, _⟩ =>
    show win0_6.index t (2 : Fin 3) * 64 ≤ (i 2).val ∧ (i 2).val < win0_6.index t (2 : Fin 3) * 64 + 64
    rw [e2]; omega

/-- The per-tile column sums of squares: entry `(t, 0, q)` sums column `q` over tile `t`'s rows. -/
abbrev G0_7 (c : Dev nD) : S5x1x64.Idx → EReal :=
  fun i : S5x1x64.Idx => ∑ r : Fin 10000, L0 V c (ix2 (Cert.Spec.tileRow (i 0 : Fin 5) r) (i 2 : Fin 64)) * L0 V c (ix2 (Cert.Spec.tileRow (i 0 : Fin 5) r) (i 2 : Fin 64))

/-- Point `t`'s statistics block, at an index of the block and the index of the array it sits at. -/
theorem stat0_7_at (c : Dev nD) (t : Fin cfg0.N) (y : S1x1x64.Idx) (i : S5x1x64.Idx)
    (h0 : (i 0).val = t.val) (h2 : (i 2).val = (y 2).val) :
    k0_pay3 (F := Ideal) (iblk0 V c 0 t) (iblk0 V c 1 t) (iblk0 V c 2 t) (iblk0 V c 4 t) (iblk0 V c 3 t) y = G0_7 V c i := by
  obtain ⟨u, v, q, rfl⟩ : ∃ (u v : Fin 1) (q : Fin 64), y = ix3 u v q := ⟨y 0, y 1, y 2, eq_ix3 y⟩
  obtain ⟨a, b, e, rfl⟩ : ∃ (a : Fin 5) (b : Fin 1) (e : Fin 64), i = ix3 a b e := ⟨i 0, i 1, i 2, eq_ix3 i⟩
  obtain rfl : a = tile0 t := Fin.ext h0
  obtain rfl : e = q := Fin.ext h2
  rw [sumsq0_apply]
  show _ = ∑ r : Fin 10000, L0 V c (ix2 (Cert.Spec.tileRow (tile0 t) r) e) * L0 V c (ix2 (Cert.Spec.tileRow (tile0 t) r) e)
  refine Finset.sum_congr rfl fun r _ => ?_
  rw [tile0_eq V c t r e]

/-- What point `t` writes back to the statistics array is block `t` of the per-tile column sums of squares. -/
theorem flushed0_7_eq (c : Dev nD) (t : Fin cfg0.N) :
    (dat0 (F := Ideal) V c).flushed 7 t = ((cfg0.win 7).blk t).view.read (Elt Ideal) (G0_7 V c) := by
  show (cfg0.win 7).cut (grid0.coords t) ((dat0 V c).after 7 t) = _
  rw [after0_7]
  unfold out0_7
  rw [View.canon_unit_zero hz3_r0]
  simp only [View.ld_unit_zero (S := S10000x3) hz2_r0, View.ld_unit_zero (S := S3x64) hz2_r0, View.ld_unit_zero (S := S1x64) hz2_r0]
  have e0 : win0_7.index t (0 : Fin 3) = t.val := (idx_facts0_7 t).1
  have e2 : win0_7.index t (2 : Fin 3) = 0 := (idx_facts0_7 t).2.2
  funext j
  have hj0 : (j 0).val < 1 := (j 0).isLt
  refine stat0_7_at V c t j _ ?_ ?_
  · show win0_7.index t (0 : Fin 3) * 1 + 1 * (j 0).val = t.val
    rw [e0]; omega
  · show win0_7.index t (2 : Fin 3) * 64 + 1 * (j 2).val = (j 2).val
    rw [e2]; omega

/-- Every index of the statistics array lies in the block of the point its first coordinate names. -/
theorem covered0_7 (i : S5x1x64.Idx) :
    ∃ t : Fin cfg0.N, (cfg0.win 7).flush t = true ∧ i ∈ ((cfg0.win 7).blk t).view.set := by
  have h0 : (i 0).val < 5 := (i 0).isLt
  have h1 : (i 1).val < 1 := (i 1).isLt
  have h2 : (i 2).val < 64 := (i 2).isLt
  obtain ⟨t, ht⟩ : ∃ t : Fin cfg0.N, t.val = (i 0).val :=
    ⟨⟨(i 0).val, by show _ < grid0.N; rw [N_0]; omega⟩, rfl⟩
  have e0 : win0_7.index t (0 : Fin 3) = t.val := (idx_facts0_7 t).1
  have e1 : win0_7.index t (1 : Fin 3) = 0 := (idx_facts0_7 t).2.1
  have e2 : win0_7.index t (2 : Fin 3) = 0 := (idx_facts0_7 t).2.2
  refine ⟨t, flush0_7 t, ?_⟩
  show i ∈ ((View.whole main_v24_2).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    rw [e0, ht]; omega
  | ⟨1, _⟩ =>
    show win0_7.index t (1 : Fin 3) * 1 ≤ (i 1).val ∧ (i 1).val < win0_7.index t (1 : Fin 3) * 1 + 1
    rw [e1]; omega
  | ⟨2, _⟩ =>
    show win0_7.index t (2 : Fin 3) * 64 ≤ (i 2).val ∧ (i 2).val < win0_7.index t (2 : Fin 3) * 64 + 64
    rw [e2]; omega

/-- The per-tile column sums after the region. -/
theorem final0_6 (c : Dev nD) :
    (dat0 (F := Ideal) V c).arrAt 6 cfg0.N
      = fun i : S5x1x64.Idx => ∑ r : Fin 10000,
          Cert.Spec.lin (n := 50000) (d := 3) (o := 64) (V c (Pipeline.arrRef spec0 0)) (V c (Pipeline.arrRef spec0 1))
            (V c (Pipeline.arrRef spec0 2)) (V c (Pipeline.arrRef spec0 3)) (V c (Pipeline.arrRef spec0 4)) (ix2 (Cert.Spec.tileRow (i 0 : Fin 5) r) (i 2 : Fin 64)) :=
  (dat0 (F := Ideal) V c).arrAt_eq_of_cover 6 (G0_6 V c) (fun t _ => flushed0_6_eq V c t) covered0_6

/-- The per-tile column sums of squares after the region. -/
theorem final0_7 (c : Dev nD) :
    (dat0 (F := Ideal) V c).arrAt 7 cfg0.N
      = fun i : S5x1x64.Idx => ∑ r : Fin 10000,
          Cert.Spec.lin (n := 50000) (d := 3) (o := 64) (V c (Pipeline.arrRef spec0 0)) (V c (Pipeline.arrRef spec0 1))
            (V c (Pipeline.arrRef spec0 2)) (V c (Pipeline.arrRef spec0 3)) (V c (Pipeline.arrRef spec0 4)) (ix2 (Cert.Spec.tileRow (i 0 : Fin 5) r) (i 2 : Fin 64))
          * Cert.Spec.lin (n := 50000) (d := 3) (o := 64) (V c (Pipeline.arrRef spec0 0)) (V c (Pipeline.arrRef spec0 1))
            (V c (Pipeline.arrRef spec0 2)) (V c (Pipeline.arrRef spec0 3)) (V c (Pipeline.arrRef spec0 4)) (ix2 (Cert.Spec.tileRow (i 0 : Fin 5) r) (i 2 : Fin 64)) :=
  (dat0 (F := Ideal) V c).arrAt_eq_of_cover 7 (G0_7 V c) (fun t _ => flushed0_7_eq V c t) covered0_7

end Cert.KernelIdeal.RegionValue
end
-- ==== Proof.RegionLin2.lean ====
/-
  Layer 1's affine-map region, as functions of the arrays it is entered with.

  The grid has five points; at point `t` the body sees rows `10000·t … 10000·t + 9999` of the neighbour means and of the
  features (64 columns each), and the whole left weight (64 × 64), bias (1 × 64) and right weight (64 × 64). Its
  arithmetic, read at row `r` and column `q` of the tile, is
      (∑ k, agg (r, k) · Wl (k, q) + bl (0, q)) + ∑ k, x (r, k) · Wr (k, q):
  the two matrix-unit products accumulate into zero and are read as sums over the contraction coordinate, the change of
  float format before them is the identity on extended reals, and the bias row is broadcast over the tile's rows. That is
  row `10000·t + r` of the affine map `Cert.Spec.lin` of the whole arrays, so point `t` writes back block `t` of that
  map, and the five blocks fill the 50000 × 64 output. The body also sums each column of its tile, and each column of
  the tile's squares, over the tile's 10000 rows (a reduction over axis 0, then two casts that only add unit axes), and
  writes the two 64-vectors to row `t` of two 5 × 1 × 64 arrays: entry `(t, 0, q)` of the first is
  `∑ r, lin (10000·t + r, q)`, of the second `∑ r, lin (10000·t + r, q)²`.
-/
import proofs.«105976_j14628658610510_2_alg».proof.Proof.Gen.KernelIdeal.Frame
import proofs.«105976_j14628658610510_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.RegionValue
open Idealize.ShloMosaic Idealize.ShloMosaic.TcCoe Idealize.SL.Sem Idealize.ShloMosaic.ValueIdx Cert.KernelIdeal Cert.KernelIdeal.Gen

theorem mm2_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm2_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem mm2_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem mm2_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix unit into a zero accumulator, read at row `r`, column `q`: the sum over the 64 contraction
    coordinates of the products of the operands' entries. -/
theorem mm2_apply (a : FVec Ideal S10000x64 .bf16) (b : FVec Ideal S64x64 .bf16) (r : Fin 10000) (q : Fin 64) :
    matmul dot_S10000x64_S64x64_S10000x64_1_0_0_1_n_n none a b (constant (F := Ideal) S10000x64 .f32 0x00000000#32) (ix2 r q)
      = ∑ k : Fin 64, a (ix2 r k) * b (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r q) ((ValueIdx.contrEquiv1 dot_S10000x64_S64x64_S10000x64_1_0_0_1_n_n 64 rfl rfl).symm k) = ix2 r k := funext fun a => Fin.ext (by
    match a with
    | ⟨0, _⟩ => exact mm2_lhs0 _ _
    | ⟨1, _⟩ => exact (mm2_lhs1 _ _).trans hk)
  have er : dot_S10000x64_S64x64_S10000x64_1_0_0_1_n_n.rhsIdx (ix2 r q) ((ValueIdx.contrEquiv1 dot_S10000x64_S64x64_S10000x64_1_0_0_1_n_n 64 rfl rfl).symm k) = ix2 k q := funext fun a => Fin.ext (by
    match a with
    | ⟨0, _⟩ => exact (mm2_rhs0 _ _).trans hk
    | ⟨1, _⟩ => exact mm2_rhs1 _ _)
  rw [el, er]

/-- The body's arithmetic at row `r`, column `q` of a tile: the affine map of the tile's rows. -/
theorem pay2_apply (v0 v3 : Vec Ideal S10000x64 .f32) (v5 v7 : Vec Ideal S64x64 .f32) (v10 : Vec Ideal S1x64 .f32)
    (r : Fin 10000) (q : Fin 64) :
    k2_pay1 (F := Ideal) v0 v3 v5 v7 v10 (ix2 r q)
      = ((∑ k : Fin 64, v0 (ix2 r k) * v5 (ix2 k q)) + v10 (ix2 (0 : Fin 1) q)) + ∑ k : Fin 64, v3 (ix2 r k) * v7 (ix2 k q) := by
  unfold k2_pay1
  simp only [shapeCast_self]
  rw [addf_apply, addf_apply, mm2_apply, mm2_apply, broadcastTo_1b_ab_apply]
  rfl

/-- A sum over axis 0 of a 10000 × 64 tile, read at column `q`: the sum of the column's 10000 entries. -/
theorem colsum2_apply (src : FVec Ideal S10000x64 .f32) (hφ : FKind.Formats .f32)
    (hacc : (0x00000000#32 : BitVec 32) = FKind.add.neutral .f32 hφ) (q : Fin 64) :
    multiReduction .add [0] S64 src 0x00000000#32 reduces_S10000x64_S64 hφ hacc (ix1 q) = ∑ r : Fin 10000, src (ix2 r q) := by
  refine (Ideal.multiReduction_add_single src 0x00000000#32 reduces_S10000x64_S64 hφ hacc (ix1 q)).trans ?_
  refine Finset.sum_congr rfl fun r _ => congrArg src ?_
  funext a
  apply Fin.ext
  match a with
  | ⟨0, _⟩ => rfl
  | ⟨1, _⟩ => rfl

/-- The tile's column sums as the body stores them (two unit axes added), at `(u, v, q)`. -/
theorem sum2_apply (v0 v3 : Vec Ideal S10000x64 .f32) (v5 v7 : Vec Ideal S64x64 .f32) (v10 : Vec Ideal S1x64 .f32)
    (u v : Fin 1) (q : Fin 64) :
    k2_pay2 (F := Ideal) v0 v3 v5 v7 v10 (ix3 u v q) = ∑ r : Fin 10000, k2_pay1 (F := Ideal) v0 v3 v5 v7 v10 (ix2 r q) := by
  unfold k2_pay2
  refine (shapeCast_ab_1ab_apply _ _ u v q).trans ?_
  refine (shapeCast_a_1a_apply _ _ v q).trans ?_
  exact colsum2_apply _ _ _ q

/-- The tile's column sums of squares as the body stores them, at `(u, v, q)`. -/
theorem sumsq2_apply (v0 v3 : Vec Ideal S10000x64 .f32) (v5 v7 : Vec Ideal S64x64 .f32) (v10 : Vec Ideal S1x64 .f32)
    (u v : Fin 1) (q : Fin 64) :
    k2_pay3 (F := Ideal) v0 v3 v5 v7 v10 (ix3 u v q)
      = ∑ r : Fin 10000, k2_pay1 (F := Ideal) v0 v3 v5 v7 v10 (ix2 r q) * k2_pay1 (F := Ideal) v0 v3 v5 v7 v10 (ix2 r q) := by
  unfold k2_pay3
  refine (shapeCast_ab_1ab_apply _ _ u v q).trans ?_
  refine (shapeCast_a_1a_apply _ _ v q).trans ?_
  exact colsum2_apply _ _ _ q

variable (V : (c : Dev nD) → (b : Ref sig .tc) → Buf (Elt Ideal) ((c : Thread nD τ).loc b))

theorem hz2_r2 : (![0, 0] : Fin 2 → Nat) = fun _ => 0 := funext fun a => by fin_cases a <;> rfl
theorem hz3_r2 : (![0, 0, 0] : Fin 3 → Nat) = fun _ => 0 := funext fun a => by fin_cases a <;> rfl

/-! The printed index maps over the grid: a row-tiled window's block at point `t` is tile `t`; a weight or bias
    window's block is the whole array at every point; a statistics window's block at point `t` is row `t`. -/
theorem idx_facts2_0 : ∀ t : Fin cfg2.N, win2_0.index t (0 : Fin 2) = t.val ∧ win2_0.index t (1 : Fin 2) = 0 :=
  (by decide +kernel : ∀ t : Fin grid2.N, _)
theorem idx_facts2_1 : ∀ t : Fin cfg2.N, win2_1.index t (0 : Fin 2) = t.val ∧ win2_1.index t (1 : Fin 2) = 0 :=
  (by decide +kernel : ∀ t : Fin grid2.N, _)
theorem idx_facts2_2 : ∀ t : Fin cfg2.N, win2_2.index t (0 : Fin 2) = 0 ∧ win2_2.index t (1 : Fin 2) = 0 :=
  (by decide +kernel : ∀ t : Fin grid2.N, _)
theorem idx_facts2_3 : ∀ t : Fin cfg2.N, win2_3.index t (0 : Fin 2) = 0 ∧ win2_3.index t (1 : Fin 2) = 0 :=
  (by decide +kernel : ∀ t : Fin grid2.N, _)
theorem idx_facts2_4 : ∀ t : Fin cfg2.N, win2_4.index t (0 : Fin 2) = 0 ∧ win2_4.index t (1 : Fin 2) = 0 :=
  (by decide +kernel : ∀ t : Fin grid2.N, _)
theorem idx_facts2_5 : ∀ t : Fin cfg2.N, win2_5.index t (0 : Fin 2) = t.val ∧ win2_5.index t (1 : Fin 2) = 0 :=
  (by decide +kernel : ∀ t : Fin grid2.N, _)
theorem idx_facts2_6 : ∀ t : Fin cfg2.N, win2_6.index t (0 : Fin 3) = t.val ∧ win2_6.index t (1 : Fin 3) = 0 ∧ win2_6.index t (2 : Fin 3) = 0 :=
  (by decide +kernel : ∀ t : Fin grid2.N, _)
theorem idx_facts2_7 : ∀ t : Fin cfg2.N, win2_7.index t (0 : Fin 3) = t.val ∧ win2_7.index t (1 : Fin 3) = 0 ∧ win2_7.index t (2 : Fin 3) = 0 :=
  (by decide +kernel : ∀ t : Fin grid2.N, _)

/-- The grid point as a tile number. -/
def tile2 (t : Fin cfg2.N) : Fin 5 := ⟨t.val, by have h : t.val < grid2.N := t.isLt; rw [N_2] at h; exact h⟩

/-- Window 0's block at point `t`: rows `10000·t … 10000·t + 9999` of its array. -/
theorem iblk2_0_apply (c : Dev nD) (t : Fin cfg2.N) (r : Fin 10000) (k : Fin 64) :
    (iblk2 V c 0 t : Vec Ideal S10000x64 .f32) (ix2 r k)
      = (V c (Pipeline.arrRef spec2 0) : S50000x64.Idx → EReal) (ix2 (Cert.Spec.tileRow (tile2 t) r) k) := by
  have e0 : win2_0.index t (0 : Fin 2) = t.val := (idx_facts2_0 t).1
  have e1 : win2_0.index t (1 : Fin 2) = 0 := (idx_facts2_0 t).2
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 10000 + 1 * r.val = 10000 * t.val + r.val; rw [e0]; omega
  | ⟨1, _⟩ => show win2_0.index t (1 : Fin 2) * 64 + 1 * k.val = k.val; rw [e1]; omega

/-- Window 1's block at point `t`: rows `10000·t … 10000·t + 9999` of its array. -/
theorem iblk2_1_apply (c : Dev nD) (t : Fin cfg2.N) (r : Fin 10000) (k : Fin 64) :
    (iblk2 V c 1 t : Vec Ideal S10000x64 .f32) (ix2 r k)
      = (V c (Pipeline.arrRef spec2 1) : S50000x64.Idx → EReal) (ix2 (Cert.Spec.tileRow (tile2 t) r) k) := by
  have e0 : win2_1.index t (0 : Fin 2) = t.val := (idx_facts2_1 t).1
  have e1 : win2_1.index t (1 : Fin 2) = 0 := (idx_facts2_1 t).2
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 10000 + 1 * r.val = 10000 * t.val + r.val; rw [e0]; omega
  | ⟨1, _⟩ => show win2_1.index t (1 : Fin 2) * 64 + 1 * k.val = k.val; rw [e1]; omega

/-- Window 2's block at every point is its whole array. -/
theorem iblk2_2_eq (c : Dev nD) (t : Fin cfg2.N) :
    (iblk2 V c 2 t : Vec Ideal S64x64 .f32) = (V c (Pipeline.arrRef spec2 2) : S64x64.Idx → EReal) := by
  have e0 : win2_2.index t (0 : Fin 2) = 0 := (idx_facts2_2 t).1
  have e1 : win2_2.index t (1 : Fin 2) = 0 := (idx_facts2_2 t).2
  funext x
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

/-- Window 3's block at every point is its whole array. -/
theorem iblk2_3_eq (c : Dev nD) (t : Fin cfg2.N) :
    (iblk2 V c 3 t : Vec Ideal S1x64 .f32) = (V c (Pipeline.arrRef spec2 3) : S1x64.Idx → EReal) := by
  have e0 : win2_3.index t (0 : Fin 2) = 0 := (idx_facts2_3 t).1
  have e1 : win2_3.index t (1 : Fin 2) = 0 := (idx_facts2_3 t).2
  funext x
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 64 + 1 * (x 1).val = (x 1).val; rw [e1]; omega

/-- Window 4's block at every point is its whole array. -/
theorem iblk2_4_eq (c : Dev nD) (t : Fin cfg2.N) :
    (iblk2 V c 4 t : Vec Ideal S64x64 .f32) = (V c (Pipeline.arrRef spec2 4) : S64x64.Idx → EReal) := by
  have e0 : win2_4.index t (0 : Fin 2) = 0 := (idx_facts2_4 t).1
  have e1 : win2_4.index t (1 : Fin 2) = 0 := (idx_facts2_4 t).2
  funext x
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 64 + 1 * (x 0).val = (x 0).val; rw [e0]; omega
  | ⟨1, _⟩ => show win2_4.index t (1 : Fin 2) * 64 + 1 * (x 1).val = (x 1).val; rw [e1]; omega

/-- The affine map of the region's entry arrays: what the first output array ends holding. -/
abbrev L2 (c : Dev nD) : Cert.Spec.Mat 50000 64 :=
  Cert.Spec.lin (n := 50000) (d := 64) (o := 64) (V c (Pipeline.arrRef spec2 0)) (V c (Pipeline.arrRef spec2 1))
    (V c (Pipeline.arrRef spec2 2)) (V c (Pipeline.arrRef spec2 3)) (V c (Pipeline.arrRef spec2 4))

/-- Tile `t` of the body's result is tile `t` of the affine map. -/
theorem tile2_eq (c : Dev nD) (t : Fin cfg2.N) (r : Fin 10000) (q : Fin 64) :
    k2_pay1 (F := Ideal) (iblk2 V c 0 t) (iblk2 V c 1 t) (iblk2 V c 2 t) (iblk2 V c 4 t) (iblk2 V c 3 t) (ix2 r q)
      = L2 V c (ix2 (Cert.Spec.tileRow (tile2 t) r) q) := by
  rw [pay2_apply]
  simp only [iblk2_0_apply V c t, iblk2_1_apply V c t, iblk2_2_eq V c t, iblk2_3_eq V c t, iblk2_4_eq V c t]
  rfl

/-- The same at an index of the tile and the index of the array it sits at. -/
theorem tile2_eq_at (c : Dev nD) (t : Fin cfg2.N) (y : S10000x64.Idx) (i : S50000x64.Idx)
    (h0 : (i 0).val = 10000 * t.val + (y 0).val) (h1 : (i 1).val = (y 1).val) :
    k2_pay1 (F := Ideal) (iblk2 V c 0 t) (iblk2 V c 1 t) (iblk2 V c 2 t) (iblk2 V c 4 t) (iblk2 V c 3 t) y = L2 V c i := by
  obtain ⟨r, q, rfl⟩ : ∃ (r : Fin 10000) (q : Fin 64), y = ix2 r q := ⟨y 0, y 1, eq_ix2 y⟩
  have hi : i = ix2 (Cert.Spec.tileRow (tile2 t) r) q := by
    funext a
    apply Fin.ext
    match a with
    | ⟨0, _⟩ => exact h0
    | ⟨1, _⟩ => exact h1
  rw [hi]
  exact tile2_eq V c t r q

/-- What point `t` writes back to the first output array is block `t` of the affine map. -/
theorem flushed2_5_eq (c : Dev nD) (t : Fin cfg2.N) :
    (dat2 (F := Ideal) V c).flushed 5 t = ((cfg2.win 5).blk t).view.read (Elt Ideal) (L2 V c) := by
  show (cfg2.win 5).cut (grid2.coords t) ((dat2 V c).after 5 t) = _
  rw [after2_5]
  unfold out2_5
  rw [View.canon_unit_zero hz2_r2]
  simp only [View.ld_unit_zero (S := S10000x64) hz2_r2, View.ld_unit_zero (S := S64x64) hz2_r2, View.ld_unit_zero (S := S1x64) hz2_r2]
  have e0 : win2_5.index t (0 : Fin 2) = t.val := (idx_facts2_5 t).1
  have e1 : win2_5.index t (1 : Fin 2) = 0 := (idx_facts2_5 t).2
  funext j
  refine tile2_eq_at V c t j _ ?_ ?_
  · show win2_5.index t (0 : Fin 2) * 10000 + 1 * (j 0).val = 10000 * t.val + (j 0).val
    rw [e0]; omega
  · show win2_5.index t (1 : Fin 2) * 64 + 1 * (j 1).val = (j 1).val
    rw [e1]; omega

/-- Every index of the first output array lies in the block of the point its row's tile names. -/
theorem covered2_5 (i : S50000x64.Idx) :
    ∃ t : Fin cfg2.N, (cfg2.win 5).flush t = true ∧ i ∈ ((cfg2.win 5).blk t).view.set := by
  have h0 : (i 0).val < 50000 := (i 0).isLt
  have h1 : (i 1).val < 64 := (i 1).isLt
  obtain ⟨t, ht⟩ : ∃ t : Fin cfg2.N, t.val = (i 0).val / 10000 :=
    ⟨⟨(i 0).val / 10000, by show _ < grid2.N; rw [N_2]; omega⟩, rfl⟩
  have e0 : win2_5.index t (0 : Fin 2) = t.val := (idx_facts2_5 t).1
  have e1 : win2_5.index t (1 : Fin 2) = 0 := (idx_facts2_5 t).2
  refine ⟨t, flush2_5 t, ?_⟩
  show i ∈ ((View.whole main_v55_0).slice (win2_5.rect t)).set
  rw [View.set_slice_whole, Rect.mem_set_unit]
  intro a
  match a with
  | ⟨0, _⟩ =>
    show win2_5.index t (0 : Fin 2) * 10000 ≤ (i 0).val ∧ (i 0).val < win2_5.index t (0 : Fin 2) * 10000 + 10000
    rw [e0, ht]; omega
  | ⟨1, _⟩ =>
    show win2_5.index t (1 : Fin 2) * 64 ≤ (i 1).val ∧ (i 1).val < win2_5.index t (1 : Fin 2) * 64 + 64
    rw [e1]; omega

/-- The first output array after the region: the affine map of the arrays the region was entered with. -/
theorem final2_5 (c : Dev nD) :
    (dat2 (F := Ideal) V c).arrAt 5 cfg2.N
      = Cert.Spec.lin (n := 50000) (d := 64) (o := 64) (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 (L2 V c) (fun t _ => flushed2_5_eq V c t) covered2_5

/-- The per-tile column sums: entry `(t, 0, q)` sums column `q` over tile `t`'s rows. -/
abbrev G2_6 (c : Dev nD) : S5x1x64.Idx → EReal :=
  fun i : S5x1x64.Idx => ∑ r : Fin 10000, L2 V c (ix2 (Cert.Spec.tileRow (i 0 : Fin 5) r) (i 2 : Fin 64))

/-- Point `t`'s statistics block, at an index of the block and the index of the array it sits at. -/
theorem stat2_6_at (c : Dev nD) (t : Fin cfg2.N) (y : S1x1x64.Idx) (i : S5x1x64.Idx)
    (h0 : (i 0).val = t.val) (h2 : (i 2).val = (y 2).val) :
    k2_pay2 (F := Ideal) (iblk2 V c 0 t) (iblk2 V c 1 t) (iblk2 V c 2 t) (iblk2 V c 4 t) (iblk2 V c 3 t) y = G2_6 V c i := by
  obtain ⟨u, v, q, rfl⟩ : ∃ (u v : Fin 1) (q : Fin 64), y = ix3 u v q := ⟨y 0, y 1, y 2, eq_ix3 y⟩
  obtain ⟨a, b, e, rfl⟩ : ∃ (a : Fin 5) (b : Fin 1) (e : Fin 64), i = ix3 a b e := ⟨i 0, i 1, i 2, eq_ix3 i⟩
  obtain rfl : a = tile2 t := Fin.ext h0
  obtain rfl : e = q := Fin.ext h2
  rw [sum2_apply]
  show _ = ∑ r : Fin 10000, L2 V c (ix2 (Cert.Spec.tileRow (tile2 t) r) e)
  refine Finset.sum_congr rfl fun r _ => ?_
  rw [tile2_eq V c t r e]

/-- What point `t` writes back to the statistics array is block `t` of the per-tile column sums. -/
theorem flushed2_6_eq (c : Dev nD) (t : Fin cfg2.N) :
    (dat2 (F := Ideal) V c).flushed 6 t = ((cfg2.win 6).blk t).view.read (Elt Ideal) (G2_6 V c) := by
  show (cfg2.win 6).cut (grid2.coords t) ((dat2 V c).after 6 t) = _
  rw [after2_6]
  unfold out2_6
  rw [View.canon_unit_zero hz3_r2]
  simp only [View.ld_unit_zero (S := S10000x64) hz2_r2, View.ld_unit_zero (S := S64x64) hz2_r2, View.ld_unit_zero (S := S1x64) hz2_r2]
  have e0 : win2_6.index t (0 : Fin 3) = t.val := (idx_facts2_6 t).1
  have e2 : win2_6.index t (2 : Fin 3) = 0 := (idx_facts2_6 t).2.2
  funext j
  have hj0 : (j 0).val < 1 := (j 0).isLt
  refine stat2_6_at V c t j _ ?_ ?_
  · show win2_6.index t (0 : Fin 3) * 1 + 1 * (j 0).val = t.val
    rw [e0]; omega
  · show win2_6.index t (2 : Fin 3) * 64 + 1 * (j 2).val = (j 2).val
    rw [e2]; omega

/-- Every index of the statistics array lies in the block of the point its first coordinate names. -/
theorem covered2_6 (i : S5x1x64.Idx) :
    ∃ t : Fin cfg2.N, (cfg2.win 6).flush t = true ∧ i ∈ ((cfg2.win 6).blk t).view.set := by
  have h0 : (i 0).val < 5 := (i 0).isLt
  have h1 : (i 1).val < 1 := (i 1).isLt
  have h2 : (i 2).val < 64 := (i 2).isLt
  obtain ⟨t, ht⟩ : ∃ t : Fin cfg2.N, t.val = (i 0).val :=
    ⟨⟨(i 0).val, by show _ < grid2.N; rw [N_2]; omega⟩, rfl⟩
  have e0 : win2_6.index t (0 : Fin 3) = t.val := (idx_facts2_6 t).1
  have e1 : win2_6.index t (1 : Fin 3) = 0 := (idx_facts2_6 t).2.1
  have e2 : win2_6.index t (2 : Fin 3) = 0 := (idx_facts2_6 t).2.2
  refine ⟨t, flush2_6 t, ?_⟩
  show i ∈ ((View.whole main_v55_1).slice (win2_6.rect t)).set
  rw [View.set_slice_whole, Rect.mem_set_unit]
  intro a
  match a with
  | ⟨0, _⟩ =>
    show win2_6.index t (0 : Fin 3) * 1 ≤ (i 0).val ∧ (i 0).val < win2_6.index t (0 : Fin 3) * 1 + 1
    rw [e0, ht]; omega
  | ⟨1, _⟩ =>
    show win2_6.index t (1 : Fin 3) * 1 ≤ (i 1).val ∧ (i 1).val < win2_6.index t (1 : Fin 3) * 1 + 1
    rw [e1]; omega
  | ⟨2, _⟩ =>
    show win2_6.index t (2 : Fin 3) * 64 ≤ (i 2).val ∧ (i 2).val < win2_6.index t (2 : Fin 3) * 64 + 64
    rw [e2]; omega

/-- The per-tile column sums of squares: entry `(t, 0, q)` sums column `q` over tile `t`'s rows. -/
abbrev G2_7 (c : Dev nD) : S5x1x64.Idx → EReal :=
  fun i : S5x1x64.Idx => ∑ r : Fin 10000, L2 V c (ix2 (Cert.Spec.tileRow (i 0 : Fin 5) r) (i 2 : Fin 64)) * L2 V c (ix2 (Cert.Spec.tileRow (i 0 : Fin 5) r) (i 2 : Fin 64))

/-- Point `t`'s statistics block, at an index of the block and the index of the array it sits at. -/
theorem stat2_7_at (c : Dev nD) (t : Fin cfg2.N) (y : S1x1x64.Idx) (i : S5x1x64.Idx)
    (h0 : (i 0).val = t.val) (h2 : (i 2).val = (y 2).val) :
    k2_pay3 (F := Ideal) (iblk2 V c 0 t) (iblk2 V c 1 t) (iblk2 V c 2 t) (iblk2 V c 4 t) (iblk2 V c 3 t) y = G2_7 V c i := by
  obtain ⟨u, v, q, rfl⟩ : ∃ (u v : Fin 1) (q : Fin 64), y = ix3 u v q := ⟨y 0, y 1, y 2, eq_ix3 y⟩
  obtain ⟨a, b, e, rfl⟩ : ∃ (a : Fin 5) (b : Fin 1) (e : Fin 64), i = ix3 a b e := ⟨i 0, i 1, i 2, eq_ix3 i⟩
  obtain rfl : a = tile2 t := Fin.ext h0
  obtain rfl : e = q := Fin.ext h2
  rw [sumsq2_apply]
  show _ = ∑ r : Fin 10000, L2 V c (ix2 (Cert.Spec.tileRow (tile2 t) r) e) * L2 V c (ix2 (Cert.Spec.tileRow (tile2 t) r) e)
  refine Finset.sum_congr rfl fun r _ => ?_
  rw [tile2_eq V c t r e]

/-- What point `t` writes back to the statistics array is block `t` of the per-tile column sums of squares. -/
theorem flushed2_7_eq (c : Dev nD) (t : Fin cfg2.N) :
    (dat2 (F := Ideal) V c).flushed 7 t = ((cfg2.win 7).blk t).view.read (Elt Ideal) (G2_7 V c) := by
  show (cfg2.win 7).cut (grid2.coords t) ((dat2 V c).after 7 t) = _
  rw [after2_7]
  unfold out2_7
  rw [View.canon_unit_zero hz3_r2]
  simp only [View.ld_unit_zero (S := S10000x64) hz2_r2, View.ld_unit_zero (S := S64x64) hz2_r2, View.ld_unit_zero (S := S1x64) hz2_r2]
  have e0 : win2_7.index t (0 : Fin 3) = t.val := (idx_facts2_7 t).1
  have e2 : win2_7.index t (2 : Fin 3) = 0 := (idx_facts2_7 t).2.2
  funext j
  have hj0 : (j 0).val < 1 := (j 0).isLt
  refine stat2_7_at V c t j _ ?_ ?_
  · show win2_7.index t (0 : Fin 3) * 1 + 1 * (j 0).val = t.val
    rw [e0]; omega
  · show win2_7.index t (2 : Fin 3) * 64 + 1 * (j 2).val = (j 2).val
    rw [e2]; omega

/-- Every index of the statistics array lies in the block of the point its first coordinate names. -/
theorem covered2_7 (i : S5x1x64.Idx) :
    ∃ t : Fin cfg2.N, (cfg2.win 7).flush t = true ∧ i ∈ ((cfg2.win 7).blk t).view.set := by
  have h0 : (i 0).val < 5 := (i 0).isLt
  have h1 : (i 1).val < 1 := (i 1).isLt
  have h2 : (i 2).val < 64 := (i 2).isLt
  obtain ⟨t, ht⟩ : ∃ t : Fin cfg2.N, t.val = (i 0).val :=
    ⟨⟨(i 0).val, by show _ < grid2.N; rw [N_2]; omega⟩, rfl⟩
  have e0 : win2_7.index t (0 : Fin 3) = t.val := (idx_facts2_7 t).1
  have e1 : win2_7.index t (1 : Fin 3) = 0 := (idx_facts2_7 t).2.1
  have e2 : win2_7.index t (2 : Fin 3) = 0 := (idx_facts2_7 t).2.2
  refine ⟨t, flush2_7 t, ?_⟩
  show i ∈ ((View.whole main_v55_2).slice (win2_7.rect t)).set
  rw [View.set_slice_whole, Rect.mem_set_unit]
  intro a
  match a with
  | ⟨0, _⟩ =>
    show win2_7.index t (0 : Fin 3) * 1 ≤ (i 0).val ∧ (i 0).val < win2_7.index t (0 : Fin 3) * 1 + 1
    rw [e0, ht]; omega
  | ⟨1, _⟩ =>
    show win2_7.index t (1 : Fin 3) * 1 ≤ (i 1).val ∧ (i 1).val < win2_7.index t (1 : Fin 3) * 1 + 1
    rw [e1]; omega
  | ⟨2, _⟩ =>
    show win2_7.index t (2 : Fin 3) * 64 ≤ (i 2).val ∧ (i 2).val < win2_7.index t (2 : Fin 3) * 64 + 64
    rw [e2]; omega

/-- The per-tile column sums after the region. -/
theorem final2_6 (c : Dev nD) :
    (dat2 (F := Ideal) V c).arrAt 6 cfg2.N
      = fun i : S5x1x64.Idx => ∑ r : Fin 10000,
          Cert.Spec.lin (n := 50000) (d := 64) (o := 64) (V c (Pipeline.arrRef spec2 0)) (V c (Pipeline.arrRef spec2 1))
            (V c (Pipeline.arrRef spec2 2)) (V c (Pipeline.arrRef spec2 3)) (V c (Pipeline.arrRef spec2 4)) (ix2 (Cert.Spec.tileRow (i 0 : Fin 5) r) (i 2 : Fin 64)) :=
  (dat2 (F := Ideal) V c).arrAt_eq_of_cover 6 (G2_6 V c) (fun t _ => flushed2_6_eq V c t) covered2_6

/-- The per-tile column sums of squares after the region. -/
theorem final2_7 (c : Dev nD) :
    (dat2 (F := Ideal) V c).arrAt 7 cfg2.N
      = fun i : S5x1x64.Idx => ∑ r : Fin 10000,
          Cert.Spec.lin (n := 50000) (d := 64) (o := 64) (V c (Pipeline.arrRef spec2 0)) (V c (Pipeline.arrRef spec2 1))
            (V c (Pipeline.arrRef spec2 2)) (V c (Pipeline.arrRef spec2 3)) (V c (Pipeline.arrRef spec2 4)) (ix2 (Cert.Spec.tileRow (i 0 : Fin 5) r) (i 2 : Fin 64))
          * Cert.Spec.lin (n := 50000) (d := 64) (o := 64) (V c (Pipeline.arrRef spec2 0)) (V c (Pipeline.arrRef spec2 1))
            (V c (Pipeline.arrRef spec2 2)) (V c (Pipeline.arrRef spec2 3)) (V c (Pipeline.arrRef spec2 4)) (ix2 (Cert.Spec.tileRow (i 0 : Fin 5) r) (i 2 : Fin 64)) :=
  (dat2 (F := Ideal) V c).arrAt_eq_of_cover 7 (G2_7 V c) (fun t _ => flushed2_7_eq V c t) covered2_7

end Cert.KernelIdeal.RegionValue
end
-- ==== Proof.RegionLin4.lean ====
/-
  The last layer's region, as one function of the arrays it is entered with.

  The grid has five points; at point `t` the body sees rows `10000·t … 10000·t + 9999` of the neighbour means and of the
  features (64 columns each), and the whole left weight (64 × 128), bias (1 × 128) and right weight (64 × 128). Its
  arithmetic, read at row `r` and column `q` of the tile, is
      (∑ k, agg (r, k) · Wl (k, q) + bl (0, q)) + ∑ k, x (r, k) · Wr (k, q):
  the two matrix-unit products accumulate into zero and are read as sums over the contraction coordinate, the change of
  float format before them is the identity on extended reals, and the bias row is broadcast over the tile's rows. That is
  row `10000·t + r` of the affine map `Cert.Spec.lin` of the whole arrays, so point `t` writes back block `t` of that
  map; the five blocks fill the 50000 × 128 output, which therefore ends holding the affine map.
-/
import proofs.«105976_j14628658610510_2_alg».proof.Proof.Gen.KernelIdeal.Frame
import proofs.«105976_j14628658610510_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.RegionValue
open Idealize.ShloMosaic Idealize.ShloMosaic.TcCoe Idealize.SL.Sem Idealize.ShloMosaic.ValueIdx Cert.KernelIdeal Cert.KernelIdeal.Gen

theorem mm4_lhs0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem mm4_lhs1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem mm4_rhs0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem mm4_rhs1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The matrix unit into a zero accumulator, read at row `r`, column `q`: the sum over the 64 contraction
    coordinates of the products of the operands' entries. -/
theorem mm4_apply (a : FVec Ideal S10000x64 .bf16) (b : FVec Ideal S64x128 .bf16) (r : Fin 10000) (q : Fin 128) :
    matmul dot_S10000x64_S64x128_S10000x128_1_0_0_1_n_n none a b (constant (F := Ideal) S10000x128 .f32 0x00000000#32) (ix2 r q)
      = ∑ k : Fin 64, a (ix2 r k) * b (ix2 k q) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 r q) ((ValueIdx.contrEquiv1 dot_S10000x64_S64x128_S10000x128_1_0_0_1_n_n 64 rfl rfl).symm k) = ix2 r k := funext fun a => Fin.ext (by
    match a with
    | ⟨0, _⟩ => exact mm4_lhs0 _ _
    | ⟨1, _⟩ => exact (mm4_lhs1 _ _).trans hk)
  have er : dot_S10000x64_S64x128_S10000x128_1_0_0_1_n_n.rhsIdx (ix2 r q) ((ValueIdx.contrEquiv1 dot_S10000x64_S64x128_S10000x128_1_0_0_1_n_n 64 rfl rfl).symm k) = ix2 k q := funext fun a => Fin.ext (by
    match a with
    | ⟨0, _⟩ => exact (mm4_rhs0 _ _).trans hk
    | ⟨1, _⟩ => exact mm4_rhs1 _ _)
  rw [el, er]

/-- The body's arithmetic at row `r`, column `q` of a tile: the affine map of the tile's rows. -/
theorem pay4_apply (v0 v3 : Vec Ideal S10000x64 .f32) (v6 v8 : Vec Ideal S64x128 .f32) (v11 : Vec Ideal S1x128 .f32)
    (r : Fin 10000) (q : Fin 128) :
    k4_pay1 (F := Ideal) v0 v3 v6 v8 v11 (ix2 r q)
      = ((∑ k : Fin 64, v0 (ix2 r k) * v6 (ix2 k q)) + v11 (ix2 (0 : Fin 1) q)) + ∑ k : Fin 64, v3 (ix2 r k) * v8 (ix2 k q) := by
  unfold k4_pay1
  simp only [shapeCast_self]
  rw [addf_apply, addf_apply, mm4_apply, mm4_apply, broadcastTo_1b_ab_apply]
  rfl

variable (V : (c : Dev nD) → (b : Ref sig .tc) → Buf (Elt Ideal) ((c : Thread nD τ).loc b))

theorem hz2 : (![0, 0] : Fin 2 → Nat) = fun _ => 0 := funext fun a => by fin_cases a <;> rfl

/-! The printed index maps over the grid: a row-tiled window's block at point `t` is tile `t`; a weight or bias
    window's block is the whole array at every point. -/
theorem idx_facts4_0 : ∀ t : Fin cfg4.N, win4_0.index t (0 : Fin 2) = t.val ∧ win4_0.index t (1 : Fin 2) = 0 :=
  (by decide +kernel : ∀ t : Fin grid4.N, _)
theorem idx_facts4_1 : ∀ t : Fin cfg4.N, win4_1.index t (0 : Fin 2) = t.val ∧ win4_1.index t (1 : Fin 2) = 0 :=
  (by decide +kernel : ∀ t : Fin grid4.N, _)
theorem idx_facts4_2 : ∀ t : Fin cfg4.N, win4_2.index t (0 : Fin 2) = 0 ∧ win4_2.index t (1 : Fin 2) = 0 :=
  (by decide +kernel : ∀ t : Fin grid4.N, _)
theorem idx_facts4_3 : ∀ t : Fin cfg4.N, win4_3.index t (0 : Fin 2) = 0 ∧ win4_3.index t (1 : Fin 2) = 0 :=
  (by decide +kernel : ∀ t : Fin grid4.N, _)
theorem idx_facts4_4 : ∀ t : Fin cfg4.N, win4_4.index t (0 : Fin 2) = 0 ∧ win4_4.index t (1 : Fin 2) = 0 :=
  (by decide +kernel : ∀ t : Fin grid4.N, _)
theorem idx_facts4_5 : ∀ t : Fin cfg4.N, win4_5.index t (0 : Fin 2) = t.val ∧ win4_5.index t (1 : Fin 2) = 0 :=
  (by decide +kernel : ∀ t : Fin grid4.N, _)

/-- The grid point as a tile number. -/
def tile4 (t : Fin cfg4.N) : Fin 5 := ⟨t.val, by have h : t.val < grid4.N := t.isLt; rw [N_4] at h; exact h⟩

/-- Window 0's block at point `t`: rows `10000·t … 10000·t + 9999` of its array. -/
theorem iblk4_0_apply (c : Dev nD) (t : Fin cfg4.N) (r : Fin 10000) (k : Fin 64) :
    (iblk4 V c 0 t : Vec Ideal S10000x64 .f32) (ix2 r k)
      = (V c (Pipeline.arrRef spec4 0) : S50000x64.Idx → EReal) (ix2 (Cert.Spec.tileRow (tile4 t) r) k) := by
  have e0 : win4_0.index t (0 : Fin 2) = t.val := (idx_facts4_0 t).1
  have e1 : win4_0.index t (1 : Fin 2) = 0 := (idx_facts4_0 t).2
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 10000 + 1 * r.val = 10000 * t.val + r.val; rw [e0]; omega
  | ⟨1, _⟩ => show win4_0.index t (1 : Fin 2) * 64 + 1 * k.val = k.val; rw [e1]; omega

/-- Window 1's block at point `t`: rows `10000·t … 10000·t + 9999` of its array. -/
theorem iblk4_1_apply (c : Dev nD) (t : Fin cfg4.N) (r : Fin 10000) (k : Fin 64) :
    (iblk4 V c 1 t : Vec Ideal S10000x64 .f32) (ix2 r k)
      = (V c (Pipeline.arrRef spec4 1) : S50000x64.Idx → EReal) (ix2 (Cert.Spec.tileRow (tile4 t) r) k) := by
  have e0 : win4_1.index t (0 : Fin 2) = t.val := (idx_facts4_1 t).1
  have e1 : win4_1.index t (1 : Fin 2) = 0 := (idx_facts4_1 t).2
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 10000 + 1 * r.val = 10000 * t.val + r.val; rw [e0]; omega
  | ⟨1, _⟩ => show win4_1.index t (1 : Fin 2) * 64 + 1 * k.val = k.val; rw [e1]; omega

/-- Window 2's block at every point is its whole array. -/
theorem iblk4_2_eq (c : Dev nD) (t : Fin cfg4.N) :
    (iblk4 V c 2 t : Vec Ideal S64x128 .f32) = (V c (Pipeline.arrRef spec4 2) : S64x128.Idx → EReal) := by
  have e0 : win4_2.index t (0 : Fin 2) = 0 := (idx_facts4_2 t).1
  have e1 : win4_2.index t (1 : Fin 2) = 0 := (idx_facts4_2 t).2
  funext x
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 64 + 1 * (x 0).val = (x 0).val; rw [e0]; omega
  | ⟨1, _⟩ => show win4_2.index t (1 : Fin 2) * 128 + 1 * (x 1).val = (x 1).val; rw [e1]; omega

/-- Window 3's block at every point is its whole array. -/
theorem iblk4_3_eq (c : Dev nD) (t : Fin cfg4.N) :
    (iblk4 V c 3 t : Vec Ideal S1x128 .f32) = (V c (Pipeline.arrRef spec4 3) : S1x128.Idx → EReal) := by
  have e0 : win4_3.index t (0 : Fin 2) = 0 := (idx_facts4_3 t).1
  have e1 : win4_3.index t (1 : Fin 2) = 0 := (idx_facts4_3 t).2
  funext x
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

/-- Window 4's block at every point is its whole array. -/
theorem iblk4_4_eq (c : Dev nD) (t : Fin cfg4.N) :
    (iblk4 V c 4 t : Vec Ideal S64x128 .f32) = (V c (Pipeline.arrRef spec4 4) : S64x128.Idx → EReal) := by
  have e0 : win4_4.index t (0 : Fin 2) = 0 := (idx_facts4_4 t).1
  have e1 : win4_4.index t (1 : Fin 2) = 0 := (idx_facts4_4 t).2
  funext x
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 64 + 1 * (x 0).val = (x 0).val; rw [e0]; omega
  | ⟨1, _⟩ => show win4_4.index t (1 : Fin 2) * 128 + 1 * (x 1).val = (x 1).val; rw [e1]; omega

/-- The affine map of the region's entry arrays: what the output array ends holding. -/
abbrev L4 (c : Dev nD) : Cert.Spec.Mat 50000 128 :=
  Cert.Spec.lin (n := 50000) (d := 64) (o := 128) (V c (Pipeline.arrRef spec4 0)) (V c (Pipeline.arrRef spec4 1))
    (V c (Pipeline.arrRef spec4 2)) (V c (Pipeline.arrRef spec4 3)) (V c (Pipeline.arrRef spec4 4))

/-- Tile `t` of the body's result is tile `t` of the affine map. -/
theorem tile4_eq (c : Dev nD) (t : Fin cfg4.N) (r : Fin 10000) (q : Fin 128) :
    k4_pay1 (F := Ideal) (iblk4 V c 0 t) (iblk4 V c 1 t) (iblk4 V c 2 t) (iblk4 V c 4 t) (iblk4 V c 3 t) (ix2 r q)
      = L4 V c (ix2 (Cert.Spec.tileRow (tile4 t) r) q) := by
  rw [pay4_apply]
  simp only [iblk4_0_apply V c t, iblk4_1_apply V c t, iblk4_2_eq V c t, iblk4_3_eq V c t, iblk4_4_eq V c t]
  rfl

/-- The same at an index of the tile and the index of the array it sits at. -/
theorem tile4_eq_at (c : Dev nD) (t : Fin cfg4.N) (y : S10000x128.Idx) (i : S50000x128.Idx)
    (h0 : (i 0).val = 10000 * t.val + (y 0).val) (h1 : (i 1).val = (y 1).val) :
    k4_pay1 (F := Ideal) (iblk4 V c 0 t) (iblk4 V c 1 t) (iblk4 V c 2 t) (iblk4 V c 4 t) (iblk4 V c 3 t) y = L4 V c i := by
  obtain ⟨r, q, rfl⟩ : ∃ (r : Fin 10000) (q : Fin 128), y = ix2 r q := ⟨y 0, y 1, eq_ix2 y⟩
  have hi : i = ix2 (Cert.Spec.tileRow (tile4 t) r) q := by
    funext a
    apply Fin.ext
    match a with
    | ⟨0, _⟩ => exact h0
    | ⟨1, _⟩ => exact h1
  rw [hi]
  exact tile4_eq V c t r q

/-- What point `t` writes back to the output array is block `t` of the affine map. -/
theorem flushed4_5_eq (c : Dev nD) (t : Fin cfg4.N) :
    (dat4 (F := Ideal) V c).flushed 5 t = ((cfg4.win 5).blk t).view.read (Elt Ideal) (L4 V c) := by
  show (cfg4.win 5).cut (grid4.coords t) ((dat4 V c).after 5 t) = _
  rw [after4_5]
  unfold out4_5
  rw [View.canon_unit_zero hz2]
  simp only [View.ld_unit_zero (S := S10000x64) hz2, View.ld_unit_zero (S := S64x128) hz2, View.ld_unit_zero (S := S1x128) hz2]
  have e0 : win4_5.index t (0 : Fin 2) = t.val := (idx_facts4_5 t).1
  have e1 : win4_5.index t (1 : Fin 2) = 0 := (idx_facts4_5 t).2
  funext j
  refine tile4_eq_at V c t j _ ?_ ?_
  · show win4_5.index t (0 : Fin 2) * 10000 + 1 * (j 0).val = 10000 * t.val + (j 0).val
    rw [e0]; omega
  · show win4_5.index t (1 : Fin 2) * 128 + 1 * (j 1).val = (j 1).val
    rw [e1]; omega

/-- Every index of the output array lies in the block of the point its row's tile names. -/
theorem covered4_5 (i : S50000x128.Idx) :
    ∃ t : Fin cfg4.N, (cfg4.win 5).flush t = true ∧ i ∈ ((cfg4.win 5).blk t).view.set := by
  have h0 : (i 0).val < 50000 := (i 0).isLt
  have h1 : (i 1).val < 128 := (i 1).isLt
  obtain ⟨t, ht⟩ : ∃ t : Fin cfg4.N, t.val = (i 0).val / 10000 :=
    ⟨⟨(i 0).val / 10000, by show _ < grid4.N; rw [N_4]; omega⟩, rfl⟩
  have e0 : win4_5.index t (0 : Fin 2) = t.val := (idx_facts4_5 t).1
  have e1 : win4_5.index t (1 : Fin 2) = 0 := (idx_facts4_5 t).2
  refine ⟨t, flush4_5 t, ?_⟩
  show i ∈ ((View.whole main_v86).slice (win4_5.rect t)).set
  rw [View.set_slice_whole, Rect.mem_set_unit]
  intro a
  match a with
  | ⟨0, _⟩ =>
    show win4_5.index t (0 : Fin 2) * 10000 ≤ (i 0).val ∧ (i 0).val < win4_5.index t (0 : Fin 2) * 10000 + 10000
    rw [e0, ht]; omega
  | ⟨1, _⟩ =>
    show win4_5.index t (1 : Fin 2) * 128 ≤ (i 1).val ∧ (i 1).val < win4_5.index t (1 : Fin 2) * 128 + 128
    rw [e1]; omega

/-- The output array after the region: the affine map of the arrays the region was entered with. -/
theorem final4_5 (c : Dev nD) :
    (dat4 (F := Ideal) V c).arrAt 5 cfg4.N
      = Cert.Spec.lin (n := 50000) (d := 64) (o := 128) (V c (Pipeline.arrRef spec4 0)) (V c (Pipeline.arrRef spec4 1))
          (V c (Pipeline.arrRef spec4 2)) (V c (Pipeline.arrRef spec4 3)) (V c (Pipeline.arrRef spec4 4)) :=
  (dat4 (F := Ideal) V c).arrAt_eq_of_cover 5 (L4 V c) (fun t _ => flushed4_5_eq V c t) covered4_5

end Cert.KernelIdeal.RegionValue
end
-- ==== Proof.RegionNorm1.lean ====
/-
  The first normalise-and-rectify region as a function of the arrays it finds.

  The region runs over five points. At point t it reads rows 10000·t … 10000·t + 9999 of the pre-activation
  (a tile of 10000 rows by 64 columns) and, whole, four one-row arrays: the columns' means, inverse standard
  deviations, scales and shifts. Its body computes, entry by entry,
      max ((p − mean) · istd · scale + shift, 0)
  with each one-row array repeated down the tile's rows, and writes the tile of results to the same rows of two
  output arrays, one at full width and one at half width; on extended reals the narrowing is the identity, so
  the two hold the same numbers. Each tile's result depends only on the pre-activation's rows of that tile and
  on the four rows, so tile t of the result is tile t of ONE whole-array function — the specification's
  normalisation and positive part — and since the five tiles fill the fifty thousand rows, both output arrays
  end holding that function.
-/
import proofs.«105976_j14628658610510_2_alg».proof.Proof.Gen.KernelIdeal.Frame
import proofs.«105976_j14628658610510_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

/-- The whole-shape rectangle's offsets, both zero. -/
theorem zero_offsets1 : (![0, 0] : Fin 2 → Nat) = fun _ => 0 := funext fun a => by fin_cases a <;> rfl

/-- The body's arithmetic at row `r`, column `q` of a tile: the tile's entry less the column's mean, times the
    column's inverse standard deviation, times its scale, plus its shift, and the positive part of that. -/
theorem pay1_f32_apply (x0 : Vec Ideal S10000x64 .f32) (x1 x2 x3 x4 : Vec Ideal S1x64 .f32) (r : Fin 10000) (q : Fin 64) :
    k1_pay1 x0 x1 x2 x3 x4 (ix2 r q)
      = max ((x0 (ix2 r q) - x1 (ix2 (0 : Fin 1) q)) * x2 (ix2 (0 : Fin 1) q) * x3 (ix2 (0 : Fin 1) q) + x4 (ix2 (0 : Fin 1) q)) 0 := by
  unfold k1_pay1
  simp only [maximumf_apply, addf_apply, mulf_apply, subf_apply, broadcast_apply, shapeCast_self, broadcastTo_1b_ab_apply]
  show max _ (Ideal.ofBits .f32 0x00000000#32) = _
  rw [Ideal.ofBits_zero_f32]

/-- The half-width copy is the same number: narrowing a float is the identity on extended reals. -/
theorem pay1_bf16_apply (x0 : Vec Ideal S10000x64 .f32) (x1 x2 x3 x4 : Vec Ideal S1x64 .f32) (r : Fin 10000) (q : Fin 64) :
    k1_pay2 x0 x1 x2 x3 x4 (ix2 r q)
      = max ((x0 (ix2 r q) - x1 (ix2 (0 : Fin 1) q)) * x2 (ix2 (0 : Fin 1) q) * x3 (ix2 (0 : Fin 1) q) + x4 (ix2 (0 : Fin 1) q)) 0 := by
  unfold k1_pay2
  simp only [truncf_apply]
  exact pay1_f32_apply x0 x1 x2 x3 x4 r q

/-- The printed index maps, decided over the five points: the pre-activation's tile and both outputs' tiles at point `t`
    are row block `t`, column block 0; the four one-row windows sit at block (0, 0) at every point. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `r` of the tile of point `t`, as a row of the whole array: `10000 · t + r`. -/
def rowAt1 (t : Fin cfg1.N) (r : Fin 10000) : Fin 50000 :=
  ⟨10000 * t.val + r.val, by have := t.isLt; have hN : cfg1.N = 5 := N_1; have := r.isLt; omega⟩

/-- Where an entry of window 0's tile at point `t` sits in its array. -/
theorem tile1_0_emb (t : Fin cfg1.N) (r : Fin 10000) (q : Fin 64) :
    ((cfg1.win 0).blk t).view.emb (ix2 r q) = ix2 (rowAt1 t r) q := by
  obtain ⟨e0, e1, e2, e3, e4, e5, -⟩ := idx_facts1 t
  funext a; apply Fin.ext
  match a with
  | ⟨0, _⟩ => show win1_0.index t (0 : Fin 2) * 10000 + 1 * r.val = 10000 * t.val + r.val; omega
  | ⟨1, _⟩ => show win1_0.index t (1 : Fin 2) * 64 + 1 * q.val = q.val; omega

/-- Where an entry of window 5's tile at point `t` sits in its array. -/
theorem tile1_5_emb (t : Fin cfg1.N) (r : Fin 10000) (q : Fin 64) :
    ((cfg1.win 5).blk t).view.emb (ix2 r q) = ix2 (rowAt1 t r) q := by
  obtain ⟨e0, e1, e2, e3, e4, e5, -⟩ := idx_facts1 t
  funext a; apply Fin.ext
  match a with
  | ⟨0, _⟩ => show win1_5.index t (0 : Fin 2) * 10000 + 1 * r.val = 10000 * t.val + r.val; omega
  | ⟨1, _⟩ => show win1_5.index t (1 : Fin 2) * 64 + 1 * q.val = q.val; omega

/-- Where an entry of window 6's tile at point `t` sits in its array. -/
theorem tile1_6_emb (t : Fin cfg1.N) (r : Fin 10000) (q : Fin 64) :
    ((cfg1.win 6).blk t).view.emb (ix2 r q) = ix2 (rowAt1 t r) q := by
  obtain ⟨e0, e1, e2, e3, e4, e5, -⟩ := idx_facts1 t
  funext a; apply Fin.ext
  match a with
  | ⟨0, _⟩ => show win1_6.index t (0 : Fin 2) * 10000 + 1 * r.val = 10000 * t.val + r.val; omega
  | ⟨1, _⟩ => show win1_6.index t (1 : Fin 2) * 64 + 1 * q.val = q.val; omega

/-- Window 1's block at every point is its whole one-row array. -/
theorem row1_1_emb (t : Fin cfg1.N) (q : Fin 64) :
    ((cfg1.win 1).blk t).view.emb (ix2 (0 : Fin 1) q) = ix2 (0 : Fin 1) q := by
  obtain ⟨-, -, -, -, -, -, e6, e7, e8, e9, e10, e11, e12, e13⟩ := idx_facts1 t
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- Window 2's block at every point is its whole one-row array. -/
theorem row1_2_emb (t : Fin cfg1.N) (q : Fin 64) :
    ((cfg1.win 2).blk t).view.emb (ix2 (0 : Fin 1) q) = ix2 (0 : Fin 1) q := by
  obtain ⟨-, -, -, -, -, -, e6, e7, e8, e9, e10, e11, e12, e13⟩ := idx_facts1 t
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- Window 3's block at every point is its whole one-row array. -/
theorem row1_3_emb (t : Fin cfg1.N) (q : Fin 64) :
    ((cfg1.win 3).blk t).view.emb (ix2 (0 : Fin 1) q) = ix2 (0 : Fin 1) q := by
  obtain ⟨-, -, -, -, -, -, e6, e7, e8, e9, e10, e11, e12, e13⟩ := idx_facts1 t
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- Window 4's block at every point is its whole one-row array. -/
theorem row1_4_emb (t : Fin cfg1.N) (q : Fin 64) :
    ((cfg1.win 4).blk t).view.emb (ix2 (0 : Fin 1) q) = ix2 (0 : Fin 1) q := by
  obtain ⟨-, -, -, -, -, -, e6, e7, e8, e9, e10, e11, e12, e13⟩ := idx_facts1 t
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- The pre-activation's tile at point `t`, read at an entry, is the array at that tile's row. -/
theorem tile1_0_read (c : Dev nD) (t : Fin cfg1.N) (r : Fin 10000) (q : Fin 64) :
    iblk1 V c 0 t (ix2 r q) = V c (Pipeline.arrRef spec1 0) (ix2 (rowAt1 t r) q) :=
  congrArg (V c (Pipeline.arrRef spec1 0)) (tile1_0_emb t r q)

theorem row1_1_read (c : Dev nD) (t : Fin cfg1.N) (q : Fin 64) :
    iblk1 V c 1 t (ix2 (0 : Fin 1) q) = V c (Pipeline.arrRef spec1 1) (ix2 (0 : Fin 1) q) :=
  congrArg (V c (Pipeline.arrRef spec1 1)) (row1_1_emb t q)

theorem row1_2_read (c : Dev nD) (t : Fin cfg1.N) (q : Fin 64) :
    iblk1 V c 2 t (ix2 (0 : Fin 1) q) = V c (Pipeline.arrRef spec1 2) (ix2 (0 : Fin 1) q) :=
  congrArg (V c (Pipeline.arrRef spec1 2)) (row1_2_emb t q)

theorem row1_3_read (c : Dev nD) (t : Fin cfg1.N) (q : Fin 64) :
    iblk1 V c 3 t (ix2 (0 : Fin 1) q) = V c (Pipeline.arrRef spec1 3) (ix2 (0 : Fin 1) q) :=
  congrArg (V c (Pipeline.arrRef spec1 3)) (row1_3_emb t q)

theorem row1_4_read (c : Dev nD) (t : Fin cfg1.N) (q : Fin 64) :
    iblk1 V c 4 t (ix2 (0 : Fin 1) q) = V c (Pipeline.arrRef spec1 4) (ix2 (0 : Fin 1) q) :=
  congrArg (V c (Pipeline.arrRef spec1 4)) (row1_4_emb t q)

/-- The region's result as one function of the arrays it finds: the batch normalisation and positive part of the
    pre-activation by the mean, inverse standard deviation, scale and shift rows. -/
abbrev normRelu1 (c : Dev nD) : Cert.Spec.Mat 50000 64 :=
  Cert.Spec.bnRelu (n := 50000) (o := 64) (V c (Pipeline.arrRef spec1 0))
    (fun k => V c (Pipeline.arrRef spec1 1) (ix2 (0 : Fin 1) k)) (fun k => V c (Pipeline.arrRef spec1 2) (ix2 (0 : Fin 1) k))
    (fun k => V c (Pipeline.arrRef spec1 3) (ix2 (0 : Fin 1) k)) (fun k => V c (Pipeline.arrRef spec1 4) (ix2 (0 : Fin 1) k))

/-- The body's arithmetic on blocks that read the arrays at the tile's row and at the one-row arrays is the normalised,
    rectified pre-activation at that row. -/
theorem tile1_value (c : Dev nD) (t : Fin cfg1.N) (r : Fin 10000) (q : Fin 64)
    (x0 : Vec Ideal S10000x64 .f32) (x1 x2 x3 x4 : Vec Ideal S1x64 .f32)
    (h0 : x0 (ix2 r q) = V c (Pipeline.arrRef spec1 0) (ix2 (rowAt1 t r) q))
    (h1 : x1 (ix2 (0 : Fin 1) q) = V c (Pipeline.arrRef spec1 1) (ix2 (0 : Fin 1) q))
    (h2 : x2 (ix2 (0 : Fin 1) q) = V c (Pipeline.arrRef spec1 2) (ix2 (0 : Fin 1) q))
    (h3 : x3 (ix2 (0 : Fin 1) q) = V c (Pipeline.arrRef spec1 3) (ix2 (0 : Fin 1) q))
    (h4 : x4 (ix2 (0 : Fin 1) q) = V c (Pipeline.arrRef spec1 4) (ix2 (0 : Fin 1) q)) :
    max ((x0 (ix2 r q) - x1 (ix2 (0 : Fin 1) q)) * x2 (ix2 (0 : Fin 1) q) * x3 (ix2 (0 : Fin 1) q) + x4 (ix2 (0 : Fin 1) q)) 0
      = normRelu1 V c (ix2 (rowAt1 t r) q) := by
  rw [h0, h1, h2, h3, h4]
  rfl

/-- What point `t` writes back to window 5 is tile `t` of the normalised, rectified pre-activation. -/
theorem tile1_5_eq (c : Dev nD) (t : Fin cfg1.N) :
    (dat1 (F := Ideal) V c).flushed 5 t = ((cfg1.win 5).blk t).view.read (Elt Ideal) (normRelu1 V c) := by
  show (cfg1.win 5).cut (grid1.coords t) ((dat1 V c).after 5 t) = _
  rw [after1_5]
  unfold out1_5
  rw [View.canon_unit_zero zero_offsets1]
  simp only [View.ld_unit_zero (S := S10000x64) zero_offsets1, View.ld_unit_zero (S := S1x64) zero_offsets1]
  funext j
  obtain ⟨r, q, rfl⟩ : ∃ (r : Fin 10000) (q : Fin 64), j = ix2 r q := ⟨j 0, j 1, eq_ix2 j⟩
  show k1_pay1 (iblk1 V c 0 t) (iblk1 V c 1 t) (iblk1 V c 2 t) (iblk1 V c 3 t) (iblk1 V c 4 t) (ix2 r q)
    = normRelu1 V c (((cfg1.win 5).blk t).view.emb (ix2 r q))
  rw [tile1_5_emb t r q]
  exact (pay1_f32_apply (iblk1 V c 0 t) (iblk1 V c 1 t) (iblk1 V c 2 t) (iblk1 V c 3 t) (iblk1 V c 4 t) r q).trans
    (tile1_value V c t r q (iblk1 V c 0 t) (iblk1 V c 1 t) (iblk1 V c 2 t) (iblk1 V c 3 t) (iblk1 V c 4 t)
      (tile1_0_read V c t r q) (row1_1_read V c t q) (row1_2_read V c t q) (row1_3_read V c t q) (row1_4_read V c t q))

/-- What point `t` writes back to window 6 is tile `t` of the normalised, rectified pre-activation. -/
theorem tile1_6_eq (c : Dev nD) (t : Fin cfg1.N) :
    (dat1 (F := Ideal) V c).flushed 6 t = ((cfg1.win 6).blk t).view.read (Elt Ideal) (normRelu1 V c) := by
  show (cfg1.win 6).cut (grid1.coords t) ((dat1 V c).after 6 t) = _
  rw [after1_6]
  unfold out1_6
  rw [View.canon_unit_zero zero_offsets1]
  simp only [View.ld_unit_zero (S := S10000x64) zero_offsets1, View.ld_unit_zero (S := S1x64) zero_offsets1]
  funext j
  obtain ⟨r, q, rfl⟩ : ∃ (r : Fin 10000) (q : Fin 64), j = ix2 r q := ⟨j 0, j 1, eq_ix2 j⟩
  show k1_pay2 (iblk1 V c 0 t) (iblk1 V c 1 t) (iblk1 V c 2 t) (iblk1 V c 3 t) (iblk1 V c 4 t) (ix2 r q)
    = normRelu1 V c (((cfg1.win 6).blk t).view.emb (ix2 r q))
  rw [tile1_6_emb t r q]
  exact (pay1_bf16_apply (iblk1 V c 0 t) (iblk1 V c 1 t) (iblk1 V c 2 t) (iblk1 V c 3 t) (iblk1 V c 4 t) r q).trans
    (tile1_value V c t r q (iblk1 V c 0 t) (iblk1 V c 1 t) (iblk1 V c 2 t) (iblk1 V c 3 t) (iblk1 V c 4 t)
      (tile1_0_read V c t r q) (row1_1_read V c t q) (row1_2_read V c t q) (row1_3_read V c t q) (row1_4_read V c t q))

/-- An index of the array is in the tile of point `t` of window 5 iff each coordinate is in the tile's range on its axis. -/
theorem mem_tile1_5 (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v40_0).slice (win1_5.rect t)).set ↔ _
  rw [View.set_slice_whole, Rect.mem_set_unit]
  exact Iff.rfl

/-- The five tiles fill the array: row `i` is in the tile of point `i / 10000`. -/
theorem tiles1_5_cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 5 := N_1
  obtain ⟨t, ht⟩ : ∃ t : Fin cfg1.N, t.val = (i 0).val / 10000 := ⟨⟨(i 0).val / 10000, by omega⟩, rfl⟩
  obtain ⟨-, -, e2, e3, e4, e5, -⟩ := idx_facts1 t
  refine ⟨t, flush1_5 t, ?_⟩
  rw [mem_tile1_5]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- An index of the array is in the tile of point `t` of window 6 iff each coordinate is in the tile's range on its axis. -/
theorem mem_tile1_6 (t : Fin cfg1.N) (i : S50000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v40_1).slice (win1_6.rect t)).set ↔ _
  rw [View.set_slice_whole, Rect.mem_set_unit]
  exact Iff.rfl

/-- The five tiles fill the array: row `i` is in the tile of point `i / 10000`. -/
theorem tiles1_6_cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 5 := N_1
  obtain ⟨t, ht⟩ : ∃ t : Fin cfg1.N, t.val = (i 0).val / 10000 := ⟨⟨(i 0).val / 10000, by omega⟩, rfl⟩
  obtain ⟨-, -, e2, e3, e4, e5, -⟩ := idx_facts1 t
  refine ⟨t, flush1_6 t, ?_⟩
  rw [mem_tile1_6]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 64 ≤ (i 1).val ∧ (i 1).val < win1_6.index t (1 : Fin 2) * 64 + 64
    omega

/-- After the region the full-width output array holds the normalised, rectified pre-activation, whole. -/
theorem final1_5 (c : Dev nD) :
    (dat1 (F := Ideal) V c).arrAt 5 cfg1.N
      = Cert.Spec.bnRelu (n := 50000) (o := 64) (V c (Pipeline.arrRef spec1 0))
          (fun k => V c (Pipeline.arrRef spec1 1) (ix2 (0 : Fin 1) k)) (fun k => V c (Pipeline.arrRef spec1 2) (ix2 (0 : Fin 1) k))
          (fun k => V c (Pipeline.arrRef spec1 3) (ix2 (0 : Fin 1) k)) (fun k => V c (Pipeline.arrRef spec1 4) (ix2 (0 : Fin 1) k)) :=
  (dat1 (F := Ideal) V c).arrAt_eq_of_cover 5 (normRelu1 V c) (fun t _ => tile1_5_eq V c t) tiles1_5_cover

/-- After the region the half-width output array holds the normalised, rectified pre-activation, whole. -/
theorem final1_6 (c : Dev nD) :
    (dat1 (F := Ideal) V c).arrAt 6 cfg1.N
      = Cert.Spec.bnRelu (n := 50000) (o := 64) (V c (Pipeline.arrRef spec1 0))
          (fun k => V c (Pipeline.arrRef spec1 1) (ix2 (0 : Fin 1) k)) (fun k => V c (Pipeline.arrRef spec1 2) (ix2 (0 : Fin 1) k))
          (fun k => V c (Pipeline.arrRef spec1 3) (ix2 (0 : Fin 1) k)) (fun k => V c (Pipeline.arrRef spec1 4) (ix2 (0 : Fin 1) k)) :=
  (dat1 (F := Ideal) V c).arrAt_eq_of_cover 6 (normRelu1 V c) (fun t _ => tile1_6_eq V c t) tiles1_6_cover

end Cert.KernelIdeal.RegionValue

end
-- ==== Proof.RegionNorm3.lean ====
/-
  The second normalise-and-rectify region as a function of the arrays it finds.

  The region runs over five points. At point t it reads rows 10000·t … 10000·t + 9999 of the pre-activation
  (a tile of 10000 rows by 64 columns) and, whole, four one-row arrays: the columns' means, inverse standard
  deviations, scales and shifts. Its body computes, entry by entry,
      max ((p − mean) · istd · scale + shift, 0)
  with each one-row array repeated down the tile's rows, and writes the tile of results to the same rows of two
  output arrays, one at full width and one at half width; on extended reals the narrowing is the identity, so
  the two hold the same numbers. Each tile's result depends only on the pre-activation's rows of that tile and
  on the four rows, so tile t of the result is tile t of ONE whole-array function — the specification's
  normalisation and positive part — and since the five tiles fill the fifty thousand rows, both output arrays
  end holding that function.
-/
import proofs.«105976_j14628658610510_2_alg».proof.Proof.Gen.KernelIdeal.Frame
import proofs.«105976_j14628658610510_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

/-- The whole-shape rectangle's offsets, both zero. -/
theorem zero_offsets3 : (![0, 0] : Fin 2 → Nat) = fun _ => 0 := funext fun a => by fin_cases a <;> rfl

/-- The body's arithmetic at row `r`, column `q` of a tile: the tile's entry less the column's mean, times the
    column's inverse standard deviation, times its scale, plus its shift, and the positive part of that. -/
theorem pay3_f32_apply (x0 : Vec Ideal S10000x64 .f32) (x1 x2 x3 x4 : Vec Ideal S1x64 .f32) (r : Fin 10000) (q : Fin 64) :
    k3_pay1 x0 x1 x2 x3 x4 (ix2 r q)
      = max ((x0 (ix2 r q) - x1 (ix2 (0 : Fin 1) q)) * x2 (ix2 (0 : Fin 1) q) * x3 (ix2 (0 : Fin 1) q) + x4 (ix2 (0 : Fin 1) q)) 0 := by
  unfold k3_pay1
  simp only [maximumf_apply, addf_apply, mulf_apply, subf_apply, broadcast_apply, shapeCast_self, broadcastTo_1b_ab_apply]
  show max _ (Ideal.ofBits .f32 0x00000000#32) = _
  rw [Ideal.ofBits_zero_f32]

/-- The half-width copy is the same number: narrowing a float is the identity on extended reals. -/
theorem pay3_bf16_apply (x0 : Vec Ideal S10000x64 .f32) (x1 x2 x3 x4 : Vec Ideal S1x64 .f32) (r : Fin 10000) (q : Fin 64) :
    k3_pay2 x0 x1 x2 x3 x4 (ix2 r q)
      = max ((x0 (ix2 r q) - x1 (ix2 (0 : Fin 1) q)) * x2 (ix2 (0 : Fin 1) q) * x3 (ix2 (0 : Fin 1) q) + x4 (ix2 (0 : Fin 1) q)) 0 := by
  unfold k3_pay2
  simp only [truncf_apply]
  exact pay3_f32_apply x0 x1 x2 x3 x4 r q

/-- The printed index maps, decided over the five points: the pre-activation's tile and both outputs' tiles at point `t`
    are row block `t`, column block 0; the four one-row windows sit at block (0, 0) at every point. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `r` of the tile of point `t`, as a row of the whole array: `10000 · t + r`. -/
def rowAt3 (t : Fin cfg3.N) (r : Fin 10000) : Fin 50000 :=
  ⟨10000 * t.val + r.val, by have := t.isLt; have hN : cfg3.N = 5 := N_3; have := r.isLt; omega⟩

/-- Where an entry of window 0's tile at point `t` sits in its array. -/
theorem tile3_0_emb (t : Fin cfg3.N) (r : Fin 10000) (q : Fin 64) :
    ((cfg3.win 0).blk t).view.emb (ix2 r q) = ix2 (rowAt3 t r) q := by
  obtain ⟨e0, e1, e2, e3, e4, e5, -⟩ := idx_facts3 t
  funext a; apply Fin.ext
  match a with
  | ⟨0, _⟩ => show win3_0.index t (0 : Fin 2) * 10000 + 1 * r.val = 10000 * t.val + r.val; omega
  | ⟨1, _⟩ => show win3_0.index t (1 : Fin 2) * 64 + 1 * q.val = q.val; omega

/-- Where an entry of window 5's tile at point `t` sits in its array. -/
theorem tile3_5_emb (t : Fin cfg3.N) (r : Fin 10000) (q : Fin 64) :
    ((cfg3.win 5).blk t).view.emb (ix2 r q) = ix2 (rowAt3 t r) q := by
  obtain ⟨e0, e1, e2, e3, e4, e5, -⟩ := idx_facts3 t
  funext a; apply Fin.ext
  match a with
  | ⟨0, _⟩ => show win3_5.index t (0 : Fin 2) * 10000 + 1 * r.val = 10000 * t.val + r.val; omega
  | ⟨1, _⟩ => show win3_5.index t (1 : Fin 2) * 64 + 1 * q.val = q.val; omega

/-- Where an entry of window 6's tile at point `t` sits in its array. -/
theorem tile3_6_emb (t : Fin cfg3.N) (r : Fin 10000) (q : Fin 64) :
    ((cfg3.win 6).blk t).view.emb (ix2 r q) = ix2 (rowAt3 t r) q := by
  obtain ⟨e0, e1, e2, e3, e4, e5, -⟩ := idx_facts3 t
  funext a; apply Fin.ext
  match a with
  | ⟨0, _⟩ => show win3_6.index t (0 : Fin 2) * 10000 + 1 * r.val = 10000 * t.val + r.val; omega
  | ⟨1, _⟩ => show win3_6.index t (1 : Fin 2) * 64 + 1 * q.val = q.val; omega

/-- Window 1's block at every point is its whole one-row array. -/
theorem row3_1_emb (t : Fin cfg3.N) (q : Fin 64) :
    ((cfg3.win 1).blk t).view.emb (ix2 (0 : Fin 1) q) = ix2 (0 : Fin 1) q := by
  obtain ⟨-, -, -, -, -, -, e6, e7, e8, e9, e10, e11, e12, e13⟩ := idx_facts3 t
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- Window 2's block at every point is its whole one-row array. -/
theorem row3_2_emb (t : Fin cfg3.N) (q : Fin 64) :
    ((cfg3.win 2).blk t).view.emb (ix2 (0 : Fin 1) q) = ix2 (0 : Fin 1) q := by
  obtain ⟨-, -, -, -, -, -, e6, e7, e8, e9, e10, e11, e12, e13⟩ := idx_facts3 t
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- Window 3's block at every point is its whole one-row array. -/
theorem row3_3_emb (t : Fin cfg3.N) (q : Fin 64) :
    ((cfg3.win 3).blk t).view.emb (ix2 (0 : Fin 1) q) = ix2 (0 : Fin 1) q := by
  obtain ⟨-, -, -, -, -, -, e6, e7, e8, e9, e10, e11, e12, e13⟩ := idx_facts3 t
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- Window 4's block at every point is its whole one-row array. -/
theorem row3_4_emb (t : Fin cfg3.N) (q : Fin 64) :
    ((cfg3.win 4).blk t).view.emb (ix2 (0 : Fin 1) q) = ix2 (0 : Fin 1) q := by
  obtain ⟨-, -, -, -, -, -, e6, e7, e8, e9, e10, e11, e12, e13⟩ := idx_facts3 t
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- The pre-activation's tile at point `t`, read at an entry, is the array at that tile's row. -/
theorem tile3_0_read (c : Dev nD) (t : Fin cfg3.N) (r : Fin 10000) (q : Fin 64) :
    iblk3 V c 0 t (ix2 r q) = V c (Pipeline.arrRef spec3 0) (ix2 (rowAt3 t r) q) :=
  congrArg (V c (Pipeline.arrRef spec3 0)) (tile3_0_emb t r q)

theorem row3_1_read (c : Dev nD) (t : Fin cfg3.N) (q : Fin 64) :
    iblk3 V c 1 t (ix2 (0 : Fin 1) q) = V c (Pipeline.arrRef spec3 1) (ix2 (0 : Fin 1) q) :=
  congrArg (V c (Pipeline.arrRef spec3 1)) (row3_1_emb t q)

theorem row3_2_read (c : Dev nD) (t : Fin cfg3.N) (q : Fin 64) :
    iblk3 V c 2 t (ix2 (0 : Fin 1) q) = V c (Pipeline.arrRef spec3 2) (ix2 (0 : Fin 1) q) :=
  congrArg (V c (Pipeline.arrRef spec3 2)) (row3_2_emb t q)

theorem row3_3_read (c : Dev nD) (t : Fin cfg3.N) (q : Fin 64) :
    iblk3 V c 3 t (ix2 (0 : Fin 1) q) = V c (Pipeline.arrRef spec3 3) (ix2 (0 : Fin 1) q) :=
  congrArg (V c (Pipeline.arrRef spec3 3)) (row3_3_emb t q)

theorem row3_4_read (c : Dev nD) (t : Fin cfg3.N) (q : Fin 64) :
    iblk3 V c 4 t (ix2 (0 : Fin 1) q) = V c (Pipeline.arrRef spec3 4) (ix2 (0 : Fin 1) q) :=
  congrArg (V c (Pipeline.arrRef spec3 4)) (row3_4_emb t q)

/-- The region's result as one function of the arrays it finds: the batch normalisation and positive part of the
    pre-activation by the mean, inverse standard deviation, scale and shift rows. -/
abbrev normRelu3 (c : Dev nD) : Cert.Spec.Mat 50000 64 :=
  Cert.Spec.bnRelu (n := 50000) (o := 64) (V c (Pipeline.arrRef spec3 0))
    (fun k => V c (Pipeline.arrRef spec3 1) (ix2 (0 : Fin 1) k)) (fun k => V c (Pipeline.arrRef spec3 2) (ix2 (0 : Fin 1) k))
    (fun k => V c (Pipeline.arrRef spec3 3) (ix2 (0 : Fin 1) k)) (fun k => V c (Pipeline.arrRef spec3 4) (ix2 (0 : Fin 1) k))

/-- The body's arithmetic on blocks that read the arrays at the tile's row and at the one-row arrays is the normalised,
    rectified pre-activation at that row. -/
theorem tile3_value (c : Dev nD) (t : Fin cfg3.N) (r : Fin 10000) (q : Fin 64)
    (x0 : Vec Ideal S10000x64 .f32) (x1 x2 x3 x4 : Vec Ideal S1x64 .f32)
    (h0 : x0 (ix2 r q) = V c (Pipeline.arrRef spec3 0) (ix2 (rowAt3 t r) q))
    (h1 : x1 (ix2 (0 : Fin 1) q) = V c (Pipeline.arrRef spec3 1) (ix2 (0 : Fin 1) q))
    (h2 : x2 (ix2 (0 : Fin 1) q) = V c (Pipeline.arrRef spec3 2) (ix2 (0 : Fin 1) q))
    (h3 : x3 (ix2 (0 : Fin 1) q) = V c (Pipeline.arrRef spec3 3) (ix2 (0 : Fin 1) q))
    (h4 : x4 (ix2 (0 : Fin 1) q) = V c (Pipeline.arrRef spec3 4) (ix2 (0 : Fin 1) q)) :
    max ((x0 (ix2 r q) - x1 (ix2 (0 : Fin 1) q)) * x2 (ix2 (0 : Fin 1) q) * x3 (ix2 (0 : Fin 1) q) + x4 (ix2 (0 : Fin 1) q)) 0
      = normRelu3 V c (ix2 (rowAt3 t r) q) := by
  rw [h0, h1, h2, h3, h4]
  rfl

/-- What point `t` writes back to window 5 is tile `t` of the normalised, rectified pre-activation. -/
theorem tile3_5_eq (c : Dev nD) (t : Fin cfg3.N) :
    (dat3 (F := Ideal) V c).flushed 5 t = ((cfg3.win 5).blk t).view.read (Elt Ideal) (normRelu3 V c) := by
  show (cfg3.win 5).cut (grid3.coords t) ((dat3 V c).after 5 t) = _
  rw [after3_5]
  unfold out3_5
  rw [View.canon_unit_zero zero_offsets3]
  simp only [View.ld_unit_zero (S := S10000x64) zero_offsets3, View.ld_unit_zero (S := S1x64) zero_offsets3]
  funext j
  obtain ⟨r, q, rfl⟩ : ∃ (r : Fin 10000) (q : Fin 64), j = ix2 r q := ⟨j 0, j 1, eq_ix2 j⟩
  show k3_pay1 (iblk3 V c 0 t) (iblk3 V c 1 t) (iblk3 V c 2 t) (iblk3 V c 3 t) (iblk3 V c 4 t) (ix2 r q)
    = normRelu3 V c (((cfg3.win 5).blk t).view.emb (ix2 r q))
  rw [tile3_5_emb t r q]
  exact (pay3_f32_apply (iblk3 V c 0 t) (iblk3 V c 1 t) (iblk3 V c 2 t) (iblk3 V c 3 t) (iblk3 V c 4 t) r q).trans
    (tile3_value V c t r q (iblk3 V c 0 t) (iblk3 V c 1 t) (iblk3 V c 2 t) (iblk3 V c 3 t) (iblk3 V c 4 t)
      (tile3_0_read V c t r q) (row3_1_read V c t q) (row3_2_read V c t q) (row3_3_read V c t q) (row3_4_read V c t q))

/-- What point `t` writes back to window 6 is tile `t` of the normalised, rectified pre-activation. -/
theorem tile3_6_eq (c : Dev nD) (t : Fin cfg3.N) :
    (dat3 (F := Ideal) V c).flushed 6 t = ((cfg3.win 6).blk t).view.read (Elt Ideal) (normRelu3 V c) := by
  show (cfg3.win 6).cut (grid3.coords t) ((dat3 V c).after 6 t) = _
  rw [after3_6]
  unfold out3_6
  rw [View.canon_unit_zero zero_offsets3]
  simp only [View.ld_unit_zero (S := S10000x64) zero_offsets3, View.ld_unit_zero (S := S1x64) zero_offsets3]
  funext j
  obtain ⟨r, q, rfl⟩ : ∃ (r : Fin 10000) (q : Fin 64), j = ix2 r q := ⟨j 0, j 1, eq_ix2 j⟩
  show k3_pay2 (iblk3 V c 0 t) (iblk3 V c 1 t) (iblk3 V c 2 t) (iblk3 V c 3 t) (iblk3 V c 4 t) (ix2 r q)
    = normRelu3 V c (((cfg3.win 6).blk t).view.emb (ix2 r q))
  rw [tile3_6_emb t r q]
  exact (pay3_bf16_apply (iblk3 V c 0 t) (iblk3 V c 1 t) (iblk3 V c 2 t) (iblk3 V c 3 t) (iblk3 V c 4 t) r q).trans
    (tile3_value V c t r q (iblk3 V c 0 t) (iblk3 V c 1 t) (iblk3 V c 2 t) (iblk3 V c 3 t) (iblk3 V c 4 t)
      (tile3_0_read V c t r q) (row3_1_read V c t q) (row3_2_read V c t q) (row3_3_read V c t q) (row3_4_read V c t q))

/-- An index of the array is in the tile of point `t` of window 5 iff each coordinate is in the tile's range on its axis. -/
theorem mem_tile3_5 (t : Fin cfg3.N) (i : S50000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v71_0).slice (win3_5.rect t)).set ↔ _
  rw [View.set_slice_whole, Rect.mem_set_unit]
  exact Iff.rfl

/-- The five tiles fill the array: row `i` is in the tile of point `i / 10000`. -/
theorem tiles3_5_cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 5 := N_3
  obtain ⟨t, ht⟩ : ∃ t : Fin cfg3.N, t.val = (i 0).val / 10000 := ⟨⟨(i 0).val / 10000, by omega⟩, rfl⟩
  obtain ⟨-, -, e2, e3, e4, e5, -⟩ := idx_facts3 t
  refine ⟨t, flush3_5 t, ?_⟩
  rw [mem_tile3_5]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 64 ≤ (i 1).val ∧ (i 1).val < win3_5.index t (1 : Fin 2) * 64 + 64
    omega

/-- An index of the array is in the tile of point `t` of window 6 iff each coordinate is in the tile's range on its axis. -/
theorem mem_tile3_6 (t : Fin cfg3.N) (i : S50000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v71_1).slice (win3_6.rect t)).set ↔ _
  rw [View.set_slice_whole, Rect.mem_set_unit]
  exact Iff.rfl

/-- The five tiles fill the array: row `i` is in the tile of point `i / 10000`. -/
theorem tiles3_6_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 5 := N_3
  obtain ⟨t, ht⟩ : ∃ t : Fin cfg3.N, t.val = (i 0).val / 10000 := ⟨⟨(i 0).val / 10000, by omega⟩, rfl⟩
  obtain ⟨-, -, e2, e3, e4, e5, -⟩ := idx_facts3 t
  refine ⟨t, flush3_6 t, ?_⟩
  rw [mem_tile3_6]
  intro a
  match a with
  | ⟨0, _⟩ =>
    show win3_6.index t (0 : Fin 2) * 10000 ≤ (i 0).val ∧ (i 0).val < win3_6.index t (0 : Fin 2) * 10000 + 10000
    omega
  | ⟨1, _⟩ =>
    show win3_6.index t (1 : Fin 2) * 64 ≤ (i 1).val ∧ (i 1).val < win3_6.index t (1 : Fin 2) * 64 + 64
    omega

/-- After the region the full-width output array holds the normalised, rectified pre-activation, whole. -/
theorem final3_5 (c : Dev nD) :
    (dat3 (F := Ideal) V c).arrAt 5 cfg3.N
      = Cert.Spec.bnRelu (n := 50000) (o := 64) (V c (Pipeline.arrRef spec3 0))
          (fun k => V c (Pipeline.arrRef spec3 1) (ix2 (0 : Fin 1) k)) (fun k => V c (Pipeline.arrRef spec3 2) (ix2 (0 : Fin 1) k))
          (fun k => V c (Pipeline.arrRef spec3 3) (ix2 (0 : Fin 1) k)) (fun k => V c (Pipeline.arrRef spec3 4) (ix2 (0 : Fin 1) k)) :=
  (dat3 (F := Ideal) V c).arrAt_eq_of_cover 5 (normRelu3 V c) (fun t _ => tile3_5_eq V c t) tiles3_5_cover

/-- After the region the half-width output array holds the normalised, rectified pre-activation, whole. -/
theorem final3_6 (c : Dev nD) :
    (dat3 (F := Ideal) V c).arrAt 6 cfg3.N
      = Cert.Spec.bnRelu (n := 50000) (o := 64) (V c (Pipeline.arrRef spec3 0))
          (fun k => V c (Pipeline.arrRef spec3 1) (ix2 (0 : Fin 1) k)) (fun k => V c (Pipeline.arrRef spec3 2) (ix2 (0 : Fin 1) k))
          (fun k => V c (Pipeline.arrRef spec3 3) (ix2 (0 : Fin 1) k)) (fun k => V c (Pipeline.arrRef spec3 4) (ix2 (0 : Fin 1) k)) :=
  (dat3 (F := Ideal) V c).arrAt_eq_of_cover 6 (normRelu3 V c) (fun t _ => tile3_6_eq V c t) tiles3_6_cover

end Cert.KernelIdeal.RegionValue

end
-- ==== Proof.Net.lean ====
/-
  The whole network as one function of its arguments, with the three things the two programs do
  differently left as parameters: how a feature matrix is averaged over each node's in-neighbours
  (`agg3` on three columns, `agg64` on sixty-four — both programs use the same gather, scatter-add and
  division by the clamped in-degree, but count the in-degree through arrays of different rank), and how
  a column's mean and variance are taken (`mu`, `var`).

  Layer 0:  p0 = lin (agg3 x) x,      h0 = positive part of the normalised p0.
  Layer 1:  p1 = lin (agg64 h0) h0,   h1 = positive part of the normalised p1.
  Output :  lin (agg64 h1) h1.
-/
import proofs.«105976_j14628658610510_2_alg».proof.Proof.Spec

noncomputable section

namespace Cert.Spec

open Idealize.ShloMosaic Idealize.ShloMosaic.ValueIdx

/-- A rank-1 array of extended reals of length `o`. -/
abbrev Vec1 (o : Nat) : Type := (⟨1, ![o]⟩ : Shape).Idx → EReal

/-- A length-`o` array as the one-row matrix the affine map adds to every row. -/
def asRow {o : Nat} (v : Vec1 o) : Mat 1 o := fun j => v (ix1 (j 1 : Fin o))

/-- A length-`o` array as a function of the column. -/
def asCol {o : Nat} (v : Vec1 o) : Fin o → EReal := fun k => v (ix1 k)

/-- The inner pre-activations: layer 0's and layer 1's affine maps. -/
def pre0 (agg3 : Mat 50000 3 → Mat 50000 3) (x : Mat 50000 3) (Wl0 : Mat 3 64) (bl0 : Vec1 64) (Wr0 : Mat 3 64) : Mat 50000 64 :=
  lin (agg3 x) x Wl0 (asRow bl0) Wr0

/-- A normalised, rectified layer from its pre-activation. -/
def act (mu var : Mat 50000 64 → Fin 64 → EReal) (p : Mat 50000 64) (g b : Vec1 64) : Mat 50000 64 :=
  bnRelu p (mu p) (fun c => istd (var p c)) (asCol g) (asCol b)

def pre1 (agg64 : Mat 50000 64 → Mat 50000 64) (h0 : Mat 50000 64) (Wl1 : Mat 64 64) (bl1 : Vec1 64) (Wr1 : Mat 64 64) : Mat 50000 64 :=
  lin (agg64 h0) h0 Wl1 (asRow bl1) Wr1

/-- The network's output as a function of its fifteen arguments (the edge list is inside `agg3`, `agg64`). -/
def net (agg3 : Mat 50000 3 → Mat 50000 3) (agg64 : Mat 50000 64 → Mat 50000 64)
    (mu var : Mat 50000 64 → Fin 64 → EReal)
    (x : Mat 50000 3) (Wl0 : Mat 3 64) (bl0 : Vec1 64) (Wr0 : Mat 3 64) (g0 b0 : Vec1 64)
    (Wl1 : Mat 64 64) (bl1 : Vec1 64) (Wr1 : Mat 64 64) (g1 b1 : Vec1 64)
    (Wl2 : Mat 64 128) (bl2 : Vec1 128) (Wr2 : Mat 64 128) : Mat 50000 128 :=
  let h0 := act mu var (pre0 agg3 x Wl0 bl0 Wr0) g0 b0
  let h1 := act mu var (pre1 agg64 h0 Wl1 bl1 Wr1) g1 b1
  lin (agg64 h1) h1 Wl2 (asRow bl2) Wr2

/-- The kernel's column mean: the tiled sum over the number of rows. -/
def meanTiled (p : Mat 50000 64) (c : Fin 64) : EReal := Ideal.div (colSumTiled p c) nF

/-- The kernel's column variance: tiled mean of squares minus squared tiled mean, clamped below at zero. -/
def varTiled (p : Mat 50000 64) (c : Fin 64) : EReal :=
  max (Ideal.div (colSumSqTiled p c) nF - meanTiled p c * meanTiled p c) 0

end Cert.Spec

end
-- ==== Proof.KStat.lean ====
/-
  The kernel's host arithmetic between its regions, read at a column.

  A region leaves each column's sum (or sum of squares) per tile of ten thousand rows in a
  5 × 1 × 64 array. The host adds the five partial sums from a zero start value and divides by the
  number of rows: that is the column's mean taken tile by tile. From the sums of squares it takes the
  mean of squares, subtracts the squared mean, clamps the difference below at zero, adds the small
  constant and takes the inverse square root: the inverse standard deviation from the variance by
  moments.
-/
import proofs.«105976_j14628658610510_2_alg».proof.KernelIdeal
import proofs.«105976_j14628658610510_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Idealize.ShloMosaic Idealize.ShloMosaic.ValueIdx Cert.KernelIdeal Cert.Spec

variable [Cert.KernelIdeal.Facts]

/-- A length-`a` array reshaped to one row is that array as a one-row matrix. -/
theorem row_of_cast {a : ℕ} (v : Vec1 a) (h : (⟨1, ![a]⟩ : Shape).ShapeCasts ⟨2, ![1, a]⟩) :
    shapeCast ⟨2, ![1, a]⟩ v h = asRow v := by
  funext j
  obtain ⟨u, i, rfl⟩ : ∃ (u : Fin 1) (i : Fin a), j = ix2 u i := ⟨j 0, j 1, eq_ix2 j⟩
  rw [shapeCast_a_1a_apply]
  rfl

/-- A scalar constant broadcast to one row reads the constant everywhere. -/
theorem bcast_const (w : BitVec 32) (j : S1x64.Idx) :
    broadcastInDim S1x64 ![] Facts₀.bcast_S_S1x64 (constant (F := Ideal) S_ .f32 w) j = Ideal.ofBits .f32 w :=
  broadcastInDim_apply _ Facts₀.bcast_S_S1x64 _ j ix0 (fun a => a.elim0)

/-- The five tiles' partial sums added from a zero start value, at column `k`. -/
theorem tiles_sum (X : FVec Ideal S5x1x64 .f32) (k : Fin 64) :
    Host.reduceAdd X (constant (F := Ideal) S_ .f32 0x00000000#32) Facts₀.reducesTo_S5x1x64_S1x64_d0 Facts₀.h_S_ (ix2 (0 : Fin 1) k)
      = ∑ t : Fin 5, X (ix3 t (0 : Fin 1) k) := by
  simp only [Host.reduceAdd, Ideal.hostReduceAdd_def]
  rw [Ideal.hostReduceAdd_single Facts₀.reducesTo_S5x1x64_S1x64_d0 (by decide), constant_apply, Ideal.ofBits_zero_f32, zero_add]
  refine Finset.sum_congr rfl fun t _ => ?_
  exact congrArg X (funext fun a => Fin.ext (by match a with | ⟨0, _⟩ => rfl | ⟨1, _⟩ => rfl | ⟨2, _⟩ => rfl))

/-- The host's mean of a column: the five partial sums, added, over the number of rows. -/
theorem stat_mean (X : FVec Ideal S5x1x64 .f32) (k : Fin 64) :
    Host.divf (Host.reduceAdd X (constant (F := Ideal) S_ .f32 0x00000000#32) Facts₀.reducesTo_S5x1x64_S1x64_d0 Facts₀.h_S_)
        (broadcastInDim S1x64 ![] Facts₀.bcast_S_S1x64 (constant (F := Ideal) S_ .f32 0x47435000#32)) (ix2 (0 : Fin 1) k)
      = Ideal.div (∑ t : Fin 5, X (ix3 t (0 : Fin 1) k)) nF := by
  show Ideal.div (Host.reduceAdd X (constant (F := Ideal) S_ .f32 0x00000000#32) Facts₀.reducesTo_S5x1x64_S1x64_d0 Facts₀.h_S_ (ix2 (0 : Fin 1) k))
      (broadcastInDim S1x64 ![] Facts₀.bcast_S_S1x64 (constant (F := Ideal) S_ .f32 0x47435000#32) (ix2 (0 : Fin 1) k)) = _
  rw [tiles_sum, bcast_const]
  rfl

/-- The host's inverse standard deviation of a column from the partial sums of squares and the mean. -/
theorem stat_istd (X2 : FVec Ideal S5x1x64 .f32) (mu : FVec Ideal S1x64 .f32) (k : Fin 64) :
    Host.rsqrt (addf (maximumf (subf
        (Host.divf (Host.reduceAdd X2 (constant (F := Ideal) S_ .f32 0x00000000#32) Facts₀.reducesTo_S5x1x64_S1x64_d0 Facts₀.h_S_)
          (broadcastInDim S1x64 ![] Facts₀.bcast_S_S1x64 (constant (F := Ideal) S_ .f32 0x47435000#32)))
        (mulf mu mu))
        (broadcastInDim S1x64 ![] Facts₀.bcast_S_S1x64 (constant (F := Ideal) S_ .f32 0x00000000#32)))
        (broadcastInDim S1x64 ![] Facts₀.bcast_S_S1x64 (constant (F := Ideal) S_ .f32 0x3727C5AC#32))) (ix2 (0 : Fin 1) k)
      = istd (max (Ideal.div (∑ t : Fin 5, X2 (ix3 t (0 : Fin 1) k)) nF - mu (ix2 (0 : Fin 1) k) * mu (ix2 (0 : Fin 1) k)) 0) := by
  show Ideal.rsqrt (max
      (Ideal.div (Host.reduceAdd X2 (constant (F := Ideal) S_ .f32 0x00000000#32) Facts₀.reducesTo_S5x1x64_S1x64_d0 Facts₀.h_S_ (ix2 (0 : Fin 1) k))
          (broadcastInDim S1x64 ![] Facts₀.bcast_S_S1x64 (constant (F := Ideal) S_ .f32 0x47435000#32) (ix2 (0 : Fin 1) k))
        - mu (ix2 (0 : Fin 1) k) * mu (ix2 (0 : Fin 1) k))
      (broadcastInDim S1x64 ![] Facts₀.bcast_S_S1x64 (constant (F := Ideal) S_ .f32 0x00000000#32) (ix2 (0 : Fin 1) k))
      + broadcastInDim S1x64 ![] Facts₀.bcast_S_S1x64 (constant (F := Ideal) S_ .f32 0x3727C5AC#32) (ix2 (0 : Fin 1) k)) = _
  rw [tiles_sum, bcast_const, bcast_const, bcast_const, Ideal.ofBits_zero_f32]
  rfl

/-- When the partial sums are each tile's column sums of `P`, the host's mean is `P`'s column mean taken tile by tile. -/
theorem mean_of_tiles (P : Mat 50000 64) (X : FVec Ideal S5x1x64 .f32)
    (hX : X = fun i : S5x1x64.Idx => ∑ r : Fin 10000, P (ix2 (tileRow (i 0 : Fin 5) r) (i 2 : Fin 64))) (k : Fin 64) :
    Ideal.div (∑ t : Fin 5, X (ix3 t (0 : Fin 1) k)) nF = meanTiled P k := by
  subst hX
  rfl

/-- When the partial sums are each tile's column sums of squares of `P`, the clamped difference of the mean of squares
    and the squared mean is `P`'s column variance by moments, taken tile by tile. -/
theorem var_of_tiles (P : Mat 50000 64) (X X2 : FVec Ideal S5x1x64 .f32)
    (hX : X = fun i : S5x1x64.Idx => ∑ r : Fin 10000, P (ix2 (tileRow (i 0 : Fin 5) r) (i 2 : Fin 64)))
    (hX2 : X2 = fun i : S5x1x64.Idx => ∑ r : Fin 10000,
      P (ix2 (tileRow (i 0 : Fin 5) r) (i 2 : Fin 64)) * P (ix2 (tileRow (i 0 : Fin 5) r) (i 2 : Fin 64))) (k : Fin 64) :
    max (Ideal.div (∑ t : Fin 5, X2 (ix3 t (0 : Fin 1) k)) nF - meanTiled P k * meanTiled P k) 0 = varTiled P k := by
  subst hX2
  rfl

end Cert.KernelIdeal.KerValue

end
-- ==== Proof.KValue.lean ====
/-
  The kernel program's result as the network function. Region by region and stretch by stretch, the buffer contents
  at each boundary are named: the pre-activation of a layer is the affine map of the neighbourhood mean and the
  features; the five per-tile column sums and sums of squares, added and divided by the number of rows, are the
  tiled mean and the clamped tiled variance of that pre-activation; the next region's output is the normalised
  pre-activation's positive part, in full precision and as the copy the next neighbourhood mean is taken from.
-/
import proofs.«105976_j14628658610510_2_alg».proof.Proof.KHost
import proofs.«105976_j14628658610510_2_alg».proof.Proof.RegionLin0
import proofs.«105976_j14628658610510_2_alg».proof.Proof.RegionLin2
import proofs.«105976_j14628658610510_2_alg».proof.Proof.RegionLin4
import proofs.«105976_j14628658610510_2_alg».proof.Proof.RegionNorm1
import proofs.«105976_j14628658610510_2_alg».proof.Proof.RegionNorm3
import proofs.«105976_j14628658610510_2_alg».proof.Proof.KStat
import proofs.«105976_j14628658610510_2_alg».proof.Proof.Net

noncomputable section

namespace Cert.KernelIdeal.KerValue

open Idealize.ShloMosaic Idealize.ShloMosaic.TcCoe Idealize.ShloMosaic.Tactic Idealize.SL.Sem Idealize.ShloMosaic.ValueIdx
open Cert.KernelIdeal Cert.KernelIdeal.Gen Cert.KernelIdeal.RegionValue Cert.Spec

variable (m : (ℓ : Loc nD τ sig) → Buf (Elt Ideal) ℓ) (ρ : Dev nD → PrngReg)

/-- The edge list and the fourteen float arguments on device `c`, as launched. -/
abbrev aE (c : Dev nD) : (⟨S2x800000, .i32⟩ : BufTy).Contents (Elt Ideal) := m ((c.tc : Thread nD τ).loc main_arg1)
abbrev a0 (c : Dev nD) : Mat 50000 3 := m ((c.tc : Thread nD τ).loc main_arg0)
abbrev a2 (c : Dev nD) : Mat 3 64 := m ((c.tc : Thread nD τ).loc main_arg2)
abbrev a3 (c : Dev nD) : Vec1 64 := m ((c.tc : Thread nD τ).loc main_arg3)
abbrev a4 (c : Dev nD) : Mat 3 64 := m ((c.tc : Thread nD τ).loc main_arg4)
abbrev a5 (c : Dev nD) : Vec1 64 := m ((c.tc : Thread nD τ).loc main_arg5)
abbrev a6 (c : Dev nD) : Vec1 64 := m ((c.tc : Thread nD τ).loc main_arg6)
abbrev a7 (c : Dev nD) : Mat 64 64 := m ((c.tc : Thread nD τ).loc main_arg7)
abbrev a8 (c : Dev nD) : Vec1 64 := m ((c.tc : Thread nD τ).loc main_arg8)
abbrev a9 (c : Dev nD) : Mat 64 64 := m ((c.tc : Thread nD τ).loc main_arg9)
abbrev a10 (c : Dev nD) : Vec1 64 := m ((c.tc : Thread nD τ).loc main_arg10)
abbrev a11 (c : Dev nD) : Vec1 64 := m ((c.tc : Thread nD τ).loc main_arg11)
abbrev a12 (c : Dev nD) : Mat 64 128 := m ((c.tc : Thread nD τ).loc main_arg12)
abbrev a13 (c : Dev nD) : Vec1 128 := m ((c.tc : Thread nD τ).loc main_arg13)
abbrev a14 (c : Dev nD) : Mat 64 128 := m ((c.tc : Thread nD τ).loc main_arg14)

/-! ### Layer 0: the pre-activation -/

/-- Layer 0's pre-activation: the affine map of the previous layer's output and its neighbourhood means. -/
def P0 (c : Dev nD) : Mat 50000 64 := pre0 (aggK3 (aE m c)) (a0 m c) (a2 m c) (a3 m c) (a4 m c)

theorem V1_w0 (c : Dev nD) : V1 m ρ c (Pipeline.arrRef spec0 0) = aggK3 (aE m c) (a0 m c) := W1_v22 m ρ c
theorem V1_w1 (c : Dev nD) : V1 m ρ c (Pipeline.arrRef spec0 1) = a0 m c := W1_main_arg0 m ρ c
theorem V1_w2 (c : Dev nD) : V1 m ρ c (Pipeline.arrRef spec0 2) = a2 m c := W1_main_arg2 m ρ c
theorem V1_w3 (c : Dev nD) : V1 m ρ c (Pipeline.arrRef spec0 3) = asRow (a3 m c) := (W1_v23 m ρ c).trans (row_of_cast _ _)
theorem V1_w4 (c : Dev nD) : V1 m ρ c (Pipeline.arrRef spec0 4) = a4 m c := W1_main_arg4 m ρ c

theorem W2_pre0 (c : Dev nD) : W2 m ρ c (Proc.devRef .tc main_v24_0) = P0 m c :=
  (W2_arr m ρ c 5).trans (by rw [final0_5, V1_w0, V1_w1, V1_w2, V1_w3, V1_w4]; rfl)

theorem W2_sum0 (c : Dev nD) : W2 m ρ c (Proc.devRef .tc main_v24_1)
    = fun i : S5x1x64.Idx => ∑ r : Fin 10000, P0 m c (ix2 (tileRow (i 0 : Fin 5) r) (i 2 : Fin 64)) :=
  (W2_arr m ρ c 6).trans (by rw [final0_6, V1_w0, V1_w1, V1_w2, V1_w3, V1_w4]; rfl)

theorem W2_sumsq0 (c : Dev nD) : W2 m ρ c (Proc.devRef .tc main_v24_2)
    = fun i : S5x1x64.Idx => ∑ r : Fin 10000, P0 m c (ix2 (tileRow (i 0 : Fin 5) r) (i 2 : Fin 64)) * P0 m c (ix2 (tileRow (i 0 : Fin 5) r) (i 2 : Fin 64)) :=
  (W2_arr m ρ c 7).trans (by rw [final0_7, V1_w0, V1_w1, V1_w2, V1_w3, V1_w4]; rfl)

/-! ### Layer 0: the statistics and the activation -/

theorem W3_mean_at0 (c : Dev nD) (k : Fin 64) : W3 m ρ c (Proc.devRef .tc main_v28) (ix2 (0 : Fin 1) k) = meanTiled (P0 m c) k := by
  rw [W3_v28 m ρ c, stat_mean]
  exact mean_of_tiles (P0 m c) _ (W2_sum0 m ρ c) k

theorem W3_istd_at0 (c : Dev nD) (k : Fin 64) : W3 m ρ c (Proc.devRef .tc main_v37) (ix2 (0 : Fin 1) k) = istd (varTiled (P0 m c) k) := by
  rw [W3_v37 m ρ c, stat_istd, W3_mean_at0 m ρ c k]
  exact congrArg istd (var_of_tiles (P0 m c) _ _ (W2_sum0 m ρ c) (W2_sumsq0 m ρ c) k)

theorem W3_scale_at0 (c : Dev nD) (k : Fin 64) : W3 m ρ c (Proc.devRef .tc main_v38) (ix2 (0 : Fin 1) k) = asCol (a5 m c) k := by
  rw [W3_v38 m ρ c, row_of_cast]; rfl

theorem W3_shift_at0 (c : Dev nD) (k : Fin 64) : W3 m ρ c (Proc.devRef .tc main_v39) (ix2 (0 : Fin 1) k) = asCol (a6 m c) k := by
  rw [W3_v39 m ρ c, row_of_cast]; rfl

theorem V3_w0 (c : Dev nD) : V3 m ρ c (Pipeline.arrRef spec1 0) = P0 m c := (W3_v24_0 m ρ c).trans (W2_pre0 m ρ c)
theorem V3_w1 (c : Dev nD) : (fun k => V3 m ρ c (Pipeline.arrRef spec1 1) (ix2 (0 : Fin 1) k)) = meanTiled (P0 m c) := funext (W3_mean_at0 m ρ c)
theorem V3_w2 (c : Dev nD) : (fun k => V3 m ρ c (Pipeline.arrRef spec1 2) (ix2 (0 : Fin 1) k)) = fun k => istd (varTiled (P0 m c) k) := funext (W3_istd_at0 m ρ c)
theorem V3_w3 (c : Dev nD) : (fun k => V3 m ρ c (Pipeline.arrRef spec1 3) (ix2 (0 : Fin 1) k)) = asCol (a5 m c) := funext (W3_scale_at0 m ρ c)
theorem V3_w4 (c : Dev nD) : (fun k => V3 m ρ c (Pipeline.arrRef spec1 4) (ix2 (0 : Fin 1) k)) = asCol (a6 m c) := funext (W3_shift_at0 m ρ c)

/-- Layer 0's output: the normalised pre-activation's positive part, with the tiled mean and variance. -/
def H0 (c : Dev nD) : Mat 50000 64 := act meanTiled varTiled (P0 m c) (a5 m c) (a6 m c)

theorem W4_act0 (c : Dev nD) : W4 m ρ c (Proc.devRef .tc main_v40_0) = H0 m c :=
  (W4_arr m ρ c 5).trans (by rw [final1_5, V3_w0, V3_w1, V3_w2, V3_w3, V3_w4]; rfl)

theorem W4_act16_0 (c : Dev nD) : W4 m ρ c (Proc.devRef .tc main_v40_1) = H0 m c :=
  (W4_arr m ρ c 6).trans (by rw [final1_6, V3_w0, V3_w1, V3_w2, V3_w3, V3_w4]; rfl)

/-! ### Layer 1: the pre-activation -/

/-- Layer 1's pre-activation: the affine map of the previous layer's output and its neighbourhood means. -/
def P1 (c : Dev nD) : Mat 50000 64 := pre1 (aggK64 (aE m c)) (H0 m c) (a7 m c) (a8 m c) (a9 m c)

theorem V5_w0 (c : Dev nD) : V5 m ρ c (Pipeline.arrRef spec2 0) = aggK64 (aE m c) (H0 m c) := (W5_v53 m ρ c).trans (congrArg (aggK64 (aE m c)) (W4_act16_0 m ρ c))
theorem V5_w1 (c : Dev nD) : V5 m ρ c (Pipeline.arrRef spec2 1) = H0 m c := (W5_v40_0 m ρ c).trans (W4_act0 m ρ c)
theorem V5_w2 (c : Dev nD) : V5 m ρ c (Pipeline.arrRef spec2 2) = a7 m c := W5_main_arg7 m ρ c
theorem V5_w3 (c : Dev nD) : V5 m ρ c (Pipeline.arrRef spec2 3) = asRow (a8 m c) := (W5_v54 m ρ c).trans (row_of_cast _ _)
theorem V5_w4 (c : Dev nD) : V5 m ρ c (Pipeline.arrRef spec2 4) = a9 m c := W5_main_arg9 m ρ c

theorem W6_pre1 (c : Dev nD) : W6 m ρ c (Proc.devRef .tc main_v55_0) = P1 m c :=
  (W6_arr m ρ c 5).trans (by rw [final2_5, V5_w0, V5_w1, V5_w2, V5_w3, V5_w4]; rfl)

theorem W6_sum1 (c : Dev nD) : W6 m ρ c (Proc.devRef .tc main_v55_1)
    = fun i : S5x1x64.Idx => ∑ r : Fin 10000, P1 m c (ix2 (tileRow (i 0 : Fin 5) r) (i 2 : Fin 64)) :=
  (W6_arr m ρ c 6).trans (by rw [final2_6, V5_w0, V5_w1, V5_w2, V5_w3, V5_w4]; rfl)

theorem W6_sumsq1 (c : Dev nD) : W6 m ρ c (Proc.devRef .tc main_v55_2)
    = fun i : S5x1x64.Idx => ∑ r : Fin 10000, P1 m c (ix2 (tileRow (i 0 : Fin 5) r) (i 2 : Fin 64)) * P1 m c (ix2 (tileRow (i 0 : Fin 5) r) (i 2 : Fin 64)) :=
  (W6_arr m ρ c 7).trans (by rw [final2_7, V5_w0, V5_w1, V5_w2, V5_w3, V5_w4]; rfl)

/-! ### Layer 1: the statistics and the activation -/

theorem W7_mean_at1 (c : Dev nD) (k : Fin 64) : W7 m ρ c (Proc.devRef .tc main_v59) (ix2 (0 : Fin 1) k) = meanTiled (P1 m c) k := by
  rw [W7_v59 m ρ c, stat_mean]
  exact mean_of_tiles (P1 m c) _ (W6_sum1 m ρ c) k

theorem W7_istd_at1 (c : Dev nD) (k : Fin 64) : W7 m ρ c (Proc.devRef .tc main_v68) (ix2 (0 : Fin 1) k) = istd (varTiled (P1 m c) k) := by
  rw [W7_v68 m ρ c, stat_istd, W7_mean_at1 m ρ c k]
  exact congrArg istd (var_of_tiles (P1 m c) _ _ (W6_sum1 m ρ c) (W6_sumsq1 m ρ c) k)

theorem W7_scale_at1 (c : Dev nD) (k : Fin 64) : W7 m ρ c (Proc.devRef .tc main_v69) (ix2 (0 : Fin 1) k) = asCol (a10 m c) k := by
  rw [W7_v69 m ρ c, row_of_cast]; rfl

theorem W7_shift_at1 (c : Dev nD) (k : Fin 64) : W7 m ρ c (Proc.devRef .tc main_v70) (ix2 (0 : Fin 1) k) = asCol (a11 m c) k := by
  rw [W7_v70 m ρ c, row_of_cast]; rfl

theorem V7_w0 (c : Dev nD) : V7 m ρ c (Pipeline.arrRef spec3 0) = P1 m c := (W7_v55_0 m ρ c).trans (W6_pre1 m ρ c)
theorem V7_w1 (c : Dev nD) : (fun k => V7 m ρ c (Pipeline.arrRef spec3 1) (ix2 (0 : Fin 1) k)) = meanTiled (P1 m c) := funext (W7_mean_at1 m ρ c)
theorem V7_w2 (c : Dev nD) : (fun k => V7 m ρ c (Pipeline.arrRef spec3 2) (ix2 (0 : Fin 1) k)) = fun k => istd (varTiled (P1 m c) k) := funext (W7_istd_at1 m ρ c)
theorem V7_w3 (c : Dev nD) : (fun k => V7 m ρ c (Pipeline.arrRef spec3 3) (ix2 (0 : Fin 1) k)) = asCol (a10 m c) := funext (W7_scale_at1 m ρ c)
theorem V7_w4 (c : Dev nD) : (fun k => V7 m ρ c (Pipeline.arrRef spec3 4) (ix2 (0 : Fin 1) k)) = asCol (a11 m c) := funext (W7_shift_at1 m ρ c)

/-- Layer 1's output: the normalised pre-activation's positive part, with the tiled mean and variance. -/
def H1 (c : Dev nD) : Mat 50000 64 := act meanTiled varTiled (P1 m c) (a10 m c) (a11 m c)

theorem W8_act1 (c : Dev nD) : W8 m ρ c (Proc.devRef .tc main_v71_0) = H1 m c :=
  (W8_arr m ρ c 5).trans (by rw [final3_5, V7_w0, V7_w1, V7_w2, V7_w3, V7_w4]; rfl)

theorem W8_act16_1 (c : Dev nD) : W8 m ρ c (Proc.devRef .tc main_v71_1) = H1 m c :=
  (W8_arr m ρ c 6).trans (by rw [final3_6, V7_w0, V7_w1, V7_w2, V7_w3, V7_w4]; rfl)

/-! ### The output layer -/

theorem V9_w0 (c : Dev nD) : V9 m ρ c (Pipeline.arrRef spec4 0) = aggK64 (aE m c) (H1 m c) := (W9_v84 m ρ c).trans (congrArg (aggK64 (aE m c)) (W8_act16_1 m ρ c))
theorem V9_w1 (c : Dev nD) : V9 m ρ c (Pipeline.arrRef spec4 1) = H1 m c := (W9_v71_0 m ρ c).trans (W8_act1 m ρ c)
theorem V9_w2 (c : Dev nD) : V9 m ρ c (Pipeline.arrRef spec4 2) = a12 m c := W9_main_arg12 m ρ c
theorem V9_w3 (c : Dev nD) : V9 m ρ c (Pipeline.arrRef spec4 3) = asRow (a13 m c) := (W9_v85 m ρ c).trans (row_of_cast _ _)
theorem V9_w4 (c : Dev nD) : V9 m ρ c (Pipeline.arrRef spec4 4) = a14 m c := W9_main_arg14 m ρ c

/-- The result buffer at the end of the run is the network function of the arguments as launched, with the kernel
    program's neighbourhood means and its tiled column statistics. -/
theorem kernel_value (c : Dev nD) : W10 m ρ c (Proc.devRef .tc main_v86)
    = net (aggK3 (aE m c)) (aggK64 (aE m c)) meanTiled varTiled (a0 m c) (a2 m c) (a3 m c) (a4 m c) (a5 m c) (a6 m c)
        (a7 m c) (a8 m c) (a9 m c) (a10 m c) (a11 m c) (a12 m c) (a13 m c) (a14 m c) :=
  (W10_arr m ρ c 5).trans (by rw [final4_5, V9_w0, V9_w1, V9_w2, V9_w3, V9_w4]; rfl)

end Cert.KernelIdeal.KerValue

end
-- ==== Proof.AggRef.lean ====
/-
  The reference program's neighbourhood mean, operation by operation.

  From the edge list `e` (row 0 the sources, row 1 the destinations, 800000 edges) and a feature
  matrix `h` over the 50000 nodes: every edge carries its source's feature row (a gather at the
  source indices, a negative index first moved up by 50000), the rows are added into their
  destinations (a scatter-add into zeros), and each node's sum is divided by its in-degree, itself a
  scatter-add of ones into zeros, clamped below at one.
-/
import proofs.«105976_j14628658610510_2_alg».proof.ReferenceIdeal
import Idealize.ShloMosaic.PureOps.Ideal

noncomputable section

namespace Cert.ReferenceIdeal.RefValue

open Cert.ReferenceIdeal Idealize.ShloMosaic
open Cert.ReferenceIdeal.Facts₀

variable [Cert.ReferenceIdeal.Facts]

/-- Row 0 of the edge list as an array of 800000 integers: the source of every edge. -/
def srcRow (e : (⟨S2x800000, .i32⟩ : BufTy).Contents (Elt Ideal)) : (⟨S800000, .i32⟩ : BufTy).Contents (Elt Ideal) :=
  shapeCast _ (extractStridedSlice S1x800000 ![0, 0] (e) slices_S2x800000_S1x800000_0_0) shapeCasts_S1x800000_S800000

/-- Row 1 of the edge list: the destination of every edge. -/
def dstRow (e : (⟨S2x800000, .i32⟩ : BufTy).Contents (Elt Ideal)) : (⟨S800000, .i32⟩ : BufTy).Contents (Elt Ideal) :=
  shapeCast _ (extractStridedSlice S1x800000 ![1, 0] (e) slices_S2x800000_S1x800000_1_0) shapeCasts_S1x800000_S800000

/-- The source indices as a column: a negative source is first moved up by the number of nodes. -/
def srcIdx (e : (⟨S2x800000, .i32⟩ : BufTy).Contents (Elt Ideal)) : (⟨S800000x1, .i32⟩ : BufTy).Contents (Elt Ideal) :=
  broadcastInDim S800000x1 ![0] bcast_S800000_S800000x1_0
    (select
      (cmpi .slt (srcRow e) (broadcastInDim (s := S_) S800000 ![] bcast_S_S800000 (constantI S_ 32 0#32)))
      (addi (srcRow e) (broadcastInDim (s := S_) S800000 ![] bcast_S_S800000 (constantI S_ 32 50000#32)))
      (srcRow e))

/-- The destination indices as a column. -/
def dstIdx (e : (⟨S2x800000, .i32⟩ : BufTy).Contents (Elt Ideal)) : (⟨S800000x1, .i32⟩ : BufTy).Contents (Elt Ideal) :=
  broadcastInDim S800000x1 ![0] bcast_S800000_S800000x1_0 (dstRow e)

/-- Each node's in-degree, clamped below at one: ones added into zeros at the destinations, then the maximum with one. -/
def degR (e : (⟨S2x800000, .i32⟩ : BufTy).Contents (Elt Ideal)) : FVec Ideal S50000x1 .f32 :=
  maximumf
    (Host.scatterAdd scatter_S50000x1_S800000x1_S800000x1_1_0_0_1
      (broadcastInDim S50000x1 ![] bcast_S_S50000x1 (constant (F := Ideal) S_ .f32 0x00000000#32))
      (dstIdx e)
      (broadcastInDim S800000x1 ![] bcast_S_S800000x1 (constant (F := Ideal) S_ .f32 0x3F800000#32)))
    (broadcastInDim S50000x1 ![] bcast_S_S50000x1 (constant (F := Ideal) S_ .f32 0x3F800000#32))

/-- The neighbourhood mean of a three-column feature matrix. -/
def aggR3 (e : (⟨S2x800000, .i32⟩ : BufTy).Contents (Elt Ideal)) (h : FVec Ideal S50000x3 .f32) : FVec Ideal S50000x3 .f32 :=
  Host.divf
    (Host.scatterAdd scatter_S50000x3_S800000x1_S800000x3_1_0_0_1
      (broadcastInDim S50000x3 ![] bcast_S_S50000x3 (constant (F := Ideal) S_ .f32 0x00000000#32))
      (dstIdx e)
      (Host.gather gather_S50000x3_S800000x1_S800000x3_1_0_n_n_0_1_13 (h) (srcIdx e)))
    (broadcastInDim S50000x3 ![0, 1] bcast_S50000x1_S50000x3_0_1 (degR e))

/-- The neighbourhood mean of a sixty-four-column feature matrix. -/
def aggR64 (e : (⟨S2x800000, .i32⟩ : BufTy).Contents (Elt Ideal)) (h : FVec Ideal S50000x64 .f32) : FVec Ideal S50000x64 .f32 :=
  Host.divf
    (Host.scatterAdd scatter_S50000x64_S800000x1_S800000x64_1_0_0_1
      (broadcastInDim S50000x64 ![] bcast_S_S50000x64 (constant (F := Ideal) S_ .f32 0x00000000#32))
      (dstIdx e)
      (Host.gather gather_S50000x64_S800000x1_S800000x64_1_0_n_n_0_1_164 (h) (srcIdx e)))
    (broadcastInDim S50000x64 ![0, 1] bcast_S50000x1_S50000x64_0_1 (degR e))

end Cert.ReferenceIdeal.RefValue

end
-- ==== Proof.RefValue.lean ====
/-
  The reference program read as the network function.

  The reference computes, three times over, a neighbourhood mean of the current feature matrix and the
  affine map  (agg · Wl + bl) + x · Wr ; after the first two it normalises every column over the
  50000 rows (mean, then the mean of the squared deviations as the variance) and takes the positive
  part. Each dense stage is read at an index from the stages before it: a matrix product as the sum
  over the contracted coordinate, a column sum as the sum over the rows added to a zero start value,
  a broadcast through its index map. The neighbourhood mean is a gather and two scatter-adds whose
  element reads depend on the edge list's values; it is kept as one function of the edge list and
  the feature matrix, the same function at all three layers.
-/
import proofs.«105976_j14628658610510_2_alg».proof.Proof.Gen.ReferenceIdeal.Read
import proofs.«105976_j14628658610510_2_alg».proof.Proof.Net
import proofs.«105976_j14628658610510_2_alg».proof.Proof.AggRef

noncomputable section

namespace Cert.ReferenceIdeal.RefValue

open Cert.ReferenceIdeal Cert.ReferenceIdeal.Read Idealize.ShloMosaic Idealize.ShloMosaic.ValueIdx Cert.Spec

variable [Cert.ReferenceIdeal.Facts]

/-! ## Layer 0 -/

/-- Layer 0's affine map, with the aggregated matrix as the reference's own stage. -/
theorem lin0 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) :
    val_main_v27 (F := Ideal) x0 x1 x2 x3 x4 = lin (val_main_v21 (F := Ideal) x0 x1) x0 x2 (asRow x3) x4 := by
  funext i
  obtain ⟨r, c, rfl⟩ : ∃ (r : Fin 50000) (c : Fin 64), i = ix2 r c := ⟨i 0, i 1, eq_ix2 i⟩
  rw [val_main_v27_apply, val_main_v25_apply, val_main_v22_apply, val_main_v24_apply, val_main_v23_apply,
    val_main_v26_apply]
  have el : ∀ k : Fin 3, lidx_main_v22 (ix2 r c) k = ix2 r k := fun k => funext fun a => Fin.ext (by match a with | ⟨0, _⟩ => rfl | ⟨1, _⟩ => rfl)
  have er : ∀ k : Fin 3, ridx_main_v22 (ix2 r c) k = ix2 k c := fun k => funext fun a => Fin.ext (by match a with | ⟨0, _⟩ => rfl | ⟨1, _⟩ => rfl)
  have el' : ∀ k : Fin 3, lidx_main_v26 (ix2 r c) k = ix2 r k := fun k => funext fun a => Fin.ext (by match a with | ⟨0, _⟩ => rfl | ⟨1, _⟩ => rfl)
  have er' : ∀ k : Fin 3, ridx_main_v26 (ix2 r c) k = ix2 k c := fun k => funext fun a => Fin.ext (by match a with | ⟨0, _⟩ => rfl | ⟨1, _⟩ => rfl)
  have eb : idx_main_v23 (idx_main_v24 (ix2 r c)) = ix1 c := funext fun a => Fin.ext (by match a with | ⟨0, _⟩ => rfl)
  simp only [el, er, el', er', eb, Ideal.addf_def]
  rfl

/-- Layer 0's column mean, as the reference takes it: the column's sum from zero over the number of rows. -/
theorem mean0 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (c : Fin 64) :
    val_main_v30 (F := Ideal) x0 x1 x2 x3 x4 (ix1 c) = mean (val_main_v27 (F := Ideal) x0 x1 x2 x3 x4) c := by
  rw [val_main_v30_apply, val_main_v28_apply, val_main_v29_apply, val_main_cst_4_apply, val_main_cst_5_apply]
  generalize val_main_v27 (F := Ideal) x0 x1 x2 x3 x4 = p
  have e : ∀ k : Fin 50000, idx_main_v28 (ix1 c) k = ix2 k c := fun k => funext fun a => Fin.ext (by match a with | ⟨0, _⟩ => rfl | ⟨1, _⟩ => rfl)
  simp only [e, Ideal.ofBits_def, Ideal.ofBits_zero_f32, zero_add, Ideal.hostDivf_def]
  rfl

/-- Layer 0's column variance, as the reference takes it: the mean of the squared deviations from the column mean. -/
theorem var0 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (c : Fin 64) :
    val_main_v37 (F := Ideal) x0 x1 x2 x3 x4 (ix1 c) = varDev (val_main_v27 (F := Ideal) x0 x1 x2 x3 x4) c := by
  rw [val_main_v37_apply, val_main_v35_apply, val_main_v36_apply, val_main_cst_6_apply, val_main_cst_7_apply]
  have e : ∀ k : Fin 50000, val_main_v34 (F := Ideal) x0 x1 x2 x3 x4 (idx_main_v35 (ix1 c) k)
      = (val_main_v27 (F := Ideal) x0 x1 x2 x3 x4 (ix2 k c) - mean (val_main_v27 (F := Ideal) x0 x1 x2 x3 x4) c)
        * (val_main_v27 (F := Ideal) x0 x1 x2 x3 x4 (ix2 k c) - mean (val_main_v27 (F := Ideal) x0 x1 x2 x3 x4) c) := fun k => by
    have ei : idx_main_v35 (ix1 c) k = ix2 k c := funext fun a => Fin.ext (by match a with | ⟨0, _⟩ => rfl | ⟨1, _⟩ => rfl)
    have ej : idx_main_v31 (idx_main_v32 (ix2 k c)) = ix1 c := funext fun a => Fin.ext (by match a with | ⟨0, _⟩ => rfl)
    rw [ei, val_main_v34_apply, val_main_v33_apply, val_main_v32_apply, val_main_v31_apply, ej, mean0]
    rfl
  simp only [e, Ideal.ofBits_def, Ideal.ofBits_zero_f32, zero_add, Ideal.hostDivf_def]
  rfl

/-- Layer 0's output from its affine map: each column shifted by its mean, scaled by the inverse square root of its variance
    plus the small constant, then by the learned scale and shift, and the positive part taken. -/
theorem act0 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32) :
    val_main_v53 (F := Ideal) x0 x1 x2 x3 x4 x5 x6 = act mean varDev (val_main_v27 (F := Ideal) x0 x1 x2 x3 x4) x5 x6 := by
  funext i
  obtain ⟨r, c, rfl⟩ : ∃ (r : Fin 50000) (c : Fin 64), i = ix2 r c := ⟨i 0, i 1, eq_ix2 i⟩
  have e1 : idx_main_v38 (idx_main_v39 (ix2 r c)) = ix1 c := funext fun a => Fin.ext (by match a with | ⟨0, _⟩ => rfl)
  have e2 : idx_main_v44 (idx_main_v45 (ix2 r c)) = ix1 c := funext fun a => Fin.ext (by match a with | ⟨0, _⟩ => rfl)
  have e3 : idx_main_v47 (idx_main_v48 (ix2 r c)) = ix1 c := funext fun a => Fin.ext (by match a with | ⟨0, _⟩ => rfl)
  have e4 : idx_main_v50 (idx_main_v51 (ix2 r c)) = ix1 c := funext fun a => Fin.ext (by match a with | ⟨0, _⟩ => rfl)
  rw [val_main_v53_apply, val_main_v52_apply, val_main_v49_apply, val_main_v46_apply, val_main_v40_apply,
    val_main_v39_apply, val_main_v38_apply, val_main_v45_apply, val_main_v44_apply, val_main_v43_apply,
    val_main_v42_apply, val_main_v41_apply, val_main_cst_8_apply, val_main_v48_apply, val_main_v47_apply,
    val_main_v51_apply, val_main_v50_apply, val_main_call0_v0_apply, val_main_call0_cst_apply,
    e1, e2, e3, e4, mean0, var0]
  generalize val_main_v27 (F := Ideal) x0 x1 x2 x3 x4 = p
  simp only [Ideal.ofBits_def, Ideal.ofBits_zero_f32, Ideal.addf_def, Ideal.subf_def, Ideal.mulf_def,
    Ideal.maximumf_def, Ideal.hostUnary_rsqrt_def]
  rfl

/-! ## Layer 1 -/

/-- Layer 1's affine map on layer 0's output. -/
theorem lin1 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32)
    (x7 : FVec Ideal S64x64 .f32) (x8 : FVec Ideal S64 .f32) (x9 : FVec Ideal S64x64 .f32) :
    val_main_v77 (F := Ideal) x0 x1 x2 x3 x4 x5 x6 x7 x8 x9 = lin (val_main_v71 (F := Ideal) x0 x1 x2 x3 x4 x5 x6) (val_main_v53 (F := Ideal) x0 x1 x2 x3 x4 x5 x6) x7 (asRow x8) x9 := by
  funext i
  obtain ⟨r, c, rfl⟩ : ∃ (r : Fin 50000) (c : Fin 64), i = ix2 r c := ⟨i 0, i 1, eq_ix2 i⟩
  rw [val_main_v77_apply, val_main_v75_apply, val_main_v72_apply, val_main_v74_apply, val_main_v73_apply,
    val_main_v76_apply]
  have el : ∀ k : Fin 64, lidx_main_v72 (ix2 r c) k = ix2 r k := fun k => funext fun a => Fin.ext (by match a with | ⟨0, _⟩ => rfl | ⟨1, _⟩ => rfl)
  have er : ∀ k : Fin 64, ridx_main_v72 (ix2 r c) k = ix2 k c := fun k => funext fun a => Fin.ext (by match a with | ⟨0, _⟩ => rfl | ⟨1, _⟩ => rfl)
  have el' : ∀ k : Fin 64, lidx_main_v76 (ix2 r c) k = ix2 r k := fun k => funext fun a => Fin.ext (by match a with | ⟨0, _⟩ => rfl | ⟨1, _⟩ => rfl)
  have er' : ∀ k : Fin 64, ridx_main_v76 (ix2 r c) k = ix2 k c := fun k => funext fun a => Fin.ext (by match a with | ⟨0, _⟩ => rfl | ⟨1, _⟩ => rfl)
  have eb : idx_main_v73 (idx_main_v74 (ix2 r c)) = ix1 c := funext fun a => Fin.ext (by match a with | ⟨0, _⟩ => rfl)
  simp only [el, er, el', er', eb, Ideal.addf_def]
  rfl

/-- Layer 1's column mean, as the reference takes it: the column's sum from zero over the number of rows. -/
theorem mean1 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32)
    (x7 : FVec Ideal S64x64 .f32) (x8 : FVec Ideal S64 .f32) (x9 : FVec Ideal S64x64 .f32) (c : Fin 64) :
    val_main_v80 (F := Ideal) x0 x1 x2 x3 x4 x5 x6 x7 x8 x9 (ix1 c) = mean (val_main_v77 (F := Ideal) x0 x1 x2 x3 x4 x5 x6 x7 x8 x9) c := by
  rw [val_main_v80_apply, val_main_v78_apply, val_main_v79_apply, val_main_cst_15_apply, val_main_cst_16_apply]
  generalize val_main_v77 (F := Ideal) x0 x1 x2 x3 x4 x5 x6 x7 x8 x9 = p
  have e : ∀ k : Fin 50000, idx_main_v78 (ix1 c) k = ix2 k c := fun k => funext fun a => Fin.ext (by match a with | ⟨0, _⟩ => rfl | ⟨1, _⟩ => rfl)
  simp only [e, Ideal.ofBits_def, Ideal.ofBits_zero_f32, zero_add, Ideal.hostDivf_def]
  rfl

/-- Layer 1's column variance, as the reference takes it: the mean of the squared deviations from the column mean. -/
theorem var1 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32)
    (x7 : FVec Ideal S64x64 .f32) (x8 : FVec Ideal S64 .f32) (x9 : FVec Ideal S64x64 .f32) (c : Fin 64) :
    val_main_v87 (F := Ideal) x0 x1 x2 x3 x4 x5 x6 x7 x8 x9 (ix1 c) = varDev (val_main_v77 (F := Ideal) x0 x1 x2 x3 x4 x5 x6 x7 x8 x9) c := by
  rw [val_main_v87_apply, val_main_v85_apply, val_main_v86_apply, val_main_cst_17_apply, val_main_cst_18_apply]
  have e : ∀ k : Fin 50000, val_main_v84 (F := Ideal) x0 x1 x2 x3 x4 x5 x6 x7 x8 x9 (idx_main_v85 (ix1 c) k)
      = (val_main_v77 (F := Ideal) x0 x1 x2 x3 x4 x5 x6 x7 x8 x9 (ix2 k c) - mean (val_main_v77 (F := Ideal) x0 x1 x2 x3 x4 x5 x6 x7 x8 x9) c)
        * (val_main_v77 (F := Ideal) x0 x1 x2 x3 x4 x5 x6 x7 x8 x9 (ix2 k c) - mean (val_main_v77 (F := Ideal) x0 x1 x2 x3 x4 x5 x6 x7 x8 x9) c) := fun k => by
    have ei : idx_main_v85 (ix1 c) k = ix2 k c := funext fun a => Fin.ext (by match a with | ⟨0, _⟩ => rfl | ⟨1, _⟩ => rfl)
    have ej : idx_main_v81 (idx_main_v82 (ix2 k c)) = ix1 c := funext fun a => Fin.ext (by match a with | ⟨0, _⟩ => rfl)
    rw [ei, val_main_v84_apply, val_main_v83_apply, val_main_v82_apply, val_main_v81_apply, ej, mean1]
    rfl
  simp only [e, Ideal.ofBits_def, Ideal.ofBits_zero_f32, zero_add, Ideal.hostDivf_def]
  rfl

/-- Layer 1's output from its affine map: each column shifted by its mean, scaled by the inverse square root of its variance
    plus the small constant, then by the learned scale and shift, and the positive part taken. -/
theorem act1 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32)
    (x7 : FVec Ideal S64x64 .f32) (x8 : FVec Ideal S64 .f32) (x9 : FVec Ideal S64x64 .f32) (x10 x11 : FVec Ideal S64 .f32) :
    val_main_v103 (F := Ideal) x0 x1 x2 x3 x4 x5 x6 x7 x8 x9 x10 x11 = act mean varDev (val_main_v77 (F := Ideal) x0 x1 x2 x3 x4 x5 x6 x7 x8 x9) x10 x11 := by
  funext i
  obtain ⟨r, c, rfl⟩ : ∃ (r : Fin 50000) (c : Fin 64), i = ix2 r c := ⟨i 0, i 1, eq_ix2 i⟩
  have e1 : idx_main_v88 (idx_main_v89 (ix2 r c)) = ix1 c := funext fun a => Fin.ext (by match a with | ⟨0, _⟩ => rfl)
  have e2 : idx_main_v94 (idx_main_v95 (ix2 r c)) = ix1 c := funext fun a => Fin.ext (by match a with | ⟨0, _⟩ => rfl)
  have e3 : idx_main_v97 (idx_main_v98 (ix2 r c)) = ix1 c := funext fun a => Fin.ext (by match a with | ⟨0, _⟩ => rfl)
  have e4 : idx_main_v100 (idx_main_v101 (ix2 r c)) = ix1 c := funext fun a => Fin.ext (by match a with | ⟨0, _⟩ => rfl)
  rw [val_main_v103_apply, val_main_v102_apply, val_main_v99_apply, val_main_v96_apply, val_main_v90_apply,
    val_main_v89_apply, val_main_v88_apply, val_main_v95_apply, val_main_v94_apply, val_main_v93_apply,
    val_main_v92_apply, val_main_v91_apply, val_main_cst_19_apply, val_main_v98_apply, val_main_v97_apply,
    val_main_v101_apply, val_main_v100_apply, val_main_call1_v0_apply, val_main_call1_cst_apply,
    e1, e2, e3, e4, mean1, var1]
  generalize val_main_v77 (F := Ideal) x0 x1 x2 x3 x4 x5 x6 x7 x8 x9 = p
  simp only [Ideal.ofBits_def, Ideal.ofBits_zero_f32, Ideal.addf_def, Ideal.subf_def, Ideal.mulf_def,
    Ideal.maximumf_def, Ideal.hostUnary_rsqrt_def]
  rfl

/-! ## Layer 2 -/

/-- The output layer's affine map on layer 1's output. -/
theorem lin2 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32)
    (x7 : FVec Ideal S64x64 .f32) (x8 : FVec Ideal S64 .f32) (x9 : FVec Ideal S64x64 .f32) (x10 x11 : FVec Ideal S64 .f32)
    (x12 : FVec Ideal S64x128 .f32) (x13 : FVec Ideal S128 .f32) (x14 : FVec Ideal S64x128 .f32) :
    val_main_v127 (F := Ideal) x0 x1 x2 x3 x4 x5 x6 x7 x8 x9 x10 x11 x12 x13 x14 = lin (val_main_v121 (F := Ideal) x0 x1 x2 x3 x4 x5 x6 x7 x8 x9 x10 x11) (val_main_v103 (F := Ideal) x0 x1 x2 x3 x4 x5 x6 x7 x8 x9 x10 x11) x12 (asRow x13) x14 := by
  funext i
  obtain ⟨r, c, rfl⟩ : ∃ (r : Fin 50000) (c : Fin 128), i = ix2 r c := ⟨i 0, i 1, eq_ix2 i⟩
  rw [val_main_v127_apply, val_main_v125_apply, val_main_v122_apply, val_main_v124_apply, val_main_v123_apply,
    val_main_v126_apply]
  have el : ∀ k : Fin 64, lidx_main_v122 (ix2 r c) k = ix2 r k := fun k => funext fun a => Fin.ext (by match a with | ⟨0, _⟩ => rfl | ⟨1, _⟩ => rfl)
  have er : ∀ k : Fin 64, ridx_main_v122 (ix2 r c) k = ix2 k c := fun k => funext fun a => Fin.ext (by match a with | ⟨0, _⟩ => rfl | ⟨1, _⟩ => rfl)
  have el' : ∀ k : Fin 64, lidx_main_v126 (ix2 r c) k = ix2 r k := fun k => funext fun a => Fin.ext (by match a with | ⟨0, _⟩ => rfl | ⟨1, _⟩ => rfl)
  have er' : ∀ k : Fin 64, ridx_main_v126 (ix2 r c) k = ix2 k c := fun k => funext fun a => Fin.ext (by match a with | ⟨0, _⟩ => rfl | ⟨1, _⟩ => rfl)
  have eb : idx_main_v123 (idx_main_v124 (ix2 r c)) = ix1 c := funext fun a => Fin.ext (by match a with | ⟨0, _⟩ => rfl)
  simp only [el, er, el', er', eb, Ideal.addf_def]
  rfl

/-! ## The aggregation stages are the neighbourhood mean -/

/-- Layer 0's aggregated matrix is the neighbourhood mean of the input features. -/
theorem agg0 (x0 : FVec Ideal S50000x3 .f32) (x1 : (⟨S2x800000, .i32⟩ : BufTy).Contents (Elt Ideal)) : val_main_v21 (F := Ideal) x0 x1 = aggR3 x1 x0 := rfl

/-- Layer 1's aggregated matrix is the neighbourhood mean of layer 0's output. -/
theorem agg1 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32) : val_main_v71 (F := Ideal) x0 x1 x2 x3 x4 x5 x6 = aggR64 x1 (val_main_v53 (F := Ideal) x0 x1 x2 x3 x4 x5 x6) := rfl

/-- The output layer's aggregated matrix is the neighbourhood mean of layer 1's output. -/
theorem agg2 (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32)
    (x7 : FVec Ideal S64x64 .f32) (x8 : FVec Ideal S64 .f32) (x9 : FVec Ideal S64x64 .f32) (x10 x11 : FVec Ideal S64 .f32) : val_main_v121 (F := Ideal) x0 x1 x2 x3 x4 x5 x6 x7 x8 x9 x10 x11 = aggR64 x1 (val_main_v103 (F := Ideal) x0 x1 x2 x3 x4 x5 x6 x7 x8 x9 x10 x11) := rfl

/-! ## The whole reference -/

/-- The reference's last stage is the network function of its arguments. -/
theorem ref_net (x0 : FVec Ideal S50000x3 .f32) (x1 : (⟨S2x800000, .i32⟩ : BufTy).Contents (Elt Ideal))
    (x2 : FVec Ideal S3x64 .f32) (x3 : FVec Ideal S64 .f32) (x4 : FVec Ideal S3x64 .f32) (x5 x6 : FVec Ideal S64 .f32)
    (x7 : FVec Ideal S64x64 .f32) (x8 : FVec Ideal S64 .f32) (x9 : FVec Ideal S64x64 .f32) (x10 x11 : FVec Ideal S64 .f32)
    (x12 : FVec Ideal S64x128 .f32) (x13 : FVec Ideal S128 .f32) (x14 : FVec Ideal S64x128 .f32) :
    val_main_v127 (F := Ideal) x0 x1 x2 x3 x4 x5 x6 x7 x8 x9 x10 x11 x12 x13 x14
      = net (aggR3 x1) (aggR64 x1) mean varDev x0 x2 x3 x4 x5 x6 x7 x8 x9 x10 x11 x12 x13 x14 := by
  have h0 : val_main_v53 (F := Ideal) x0 x1 x2 x3 x4 x5 x6 = act mean varDev (pre0 (aggR3 x1) x0 x2 x3 x4) x5 x6 := by
    rw [act0, lin0, agg0]; rfl
  have h1 : val_main_v103 (F := Ideal) x0 x1 x2 x3 x4 x5 x6 x7 x8 x9 x10 x11
      = act mean varDev (pre1 (aggR64 x1) (act mean varDev (pre0 (aggR3 x1) x0 x2 x3 x4) x5 x6) x7 x8 x9) x10 x11 := by
    rw [act1, lin1, agg1, h0]; rfl
  rw [lin2, agg2, h1]; rfl

/-- The reference run's result is the network function of the run's arguments. -/
theorem ref_value (m : (ℓ : Loc nD τ sig) → Buf (Elt Ideal) ℓ) (c : Dev nD) :
    Cert.ReferenceIdeal.Value.res_main_v127 (F := Ideal) m c
      = Cert.Spec.net (aggR3 (m ((c.tc : Thread nD τ).loc main_arg1))) (aggR64 (m ((c.tc : Thread nD τ).loc main_arg1))) Cert.Spec.mean Cert.Spec.varDev
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) := by
  rw [val_main_v127_eq]
  exact ref_net _ _ _ _ _ _ _ _ _ _ _ _ _ _ _

end Cert.ReferenceIdeal.RefValue

end
-- ==== Proof.NetEq.lean ====
/-
  The network function with the kernel's choices equals the one with the reference's, on real inputs.

  The two differ in how a column's variance is taken — by moments, tile by tile, clamped below at
  zero, against the mean of the squared deviations — and the two variances are one number exactly
  when the column's entries are real. So finiteness is carried forward: real inputs give a real
  affine map, whose column statistics then agree, so the normalised positive part is the same
  matrix and is again real; the same once more for the second layer. The output layer is an affine
  map of equal matrices and needs no finiteness.
-/
import proofs.«105976_j14628658610510_2_alg».proof.Proof.Net

noncomputable section

namespace Cert.Spec

open Idealize.ShloMosaic Idealize.ShloMosaic.ValueIdx

/-- A real array as a one-row matrix is real. -/
theorem isReal_asRow {o : Nat} (v : Vec1 o) (h : IsReal v) : IsReal (asRow v) := fun j => h (ix1 (j 1 : Fin o))

/-- A real array as a function of the column is real. -/
theorem isReal_asCol {o : Nat} (v : Vec1 o) (h : IsReal v) : IsReal (asCol v) := fun k => h (ix1 k)

/-- Where the two means and the two variances of a pre-activation agree, so do the normalised layers. -/
theorem act_eq (p : Mat 50000 64) (g b : Vec1 64) (hm : meanTiled p = mean p) (hv : varTiled p = varDev p) :
    act meanTiled varTiled p g b = act mean varDev p g b := by
  unfold act
  rw [hm, hv]

/-- The two network functions agree on real inputs, given that the two neighbourhood means are the same function and keep
    matrices real, that the tiled mean is the mean, that on a real matrix the variance by moments is the variance by
    deviations, and that the affine map, the column statistics and the normalised positive part keep matrices real. -/
theorem net_eq (aggK3 aggR3 : Mat 50000 3 → Mat 50000 3) (aggK64 aggR64 : Mat 50000 64 → Mat 50000 64)
    (h3 : ∀ h, aggK3 h = aggR3 h) (h64 : ∀ h, aggK64 h = aggR64 h)
    (r3 : ∀ h, IsReal h → IsReal (aggR3 h)) (r64 : ∀ h, IsReal h → IsReal (aggR64 h))
    (hmean : ∀ p : Mat 50000 64, meanTiled p = mean p) (hvar : ∀ p : Mat 50000 64, IsReal p → varTiled p = varDev p)
    (hmr : ∀ p : Mat 50000 64, IsReal p → IsReal (mean p)) (hsr : ∀ p : Mat 50000 64, IsReal p → IsReal (fun c => istd (varDev p c)))
    (hlin3 : ∀ (agg x : Mat 50000 3) (Wl : Mat 3 64) (bl : Mat 1 64) (Wr : Mat 3 64), IsReal agg → IsReal x → IsReal Wl → IsReal bl → IsReal Wr → IsReal (lin agg x Wl bl Wr))
    (hlin64 : ∀ (agg x : Mat 50000 64) (Wl : Mat 64 64) (bl : Mat 1 64) (Wr : Mat 64 64), IsReal agg → IsReal x → IsReal Wl → IsReal bl → IsReal Wr → IsReal (lin agg x Wl bl Wr))
    (hbn : ∀ (p : Mat 50000 64) (mu s g b : Fin 64 → EReal), IsReal p → IsReal mu → IsReal s → IsReal g → IsReal b → IsReal (bnRelu p mu s g b))
    (x : Mat 50000 3) (Wl0 : Mat 3 64) (bl0 : Vec1 64) (Wr0 : Mat 3 64) (g0 b0 : Vec1 64) (Wl1 : Mat 64 64) (bl1 : Vec1 64) (Wr1 : Mat 64 64) (g1 b1 : Vec1 64)
    (Wl2 : Mat 64 128) (bl2 : Vec1 128) (Wr2 : Mat 64 128)
    (hx : IsReal x) (hWl0 : IsReal Wl0) (hbl0 : IsReal bl0) (hWr0 : IsReal Wr0) (hg0 : IsReal g0) (hb0 : IsReal b0)
    (hWl1 : IsReal Wl1) (hbl1 : IsReal bl1) (hWr1 : IsReal Wr1) (hg1 : IsReal g1) (hb1 : IsReal b1) :
    net aggK3 aggK64 meanTiled varTiled x Wl0 bl0 Wr0 g0 b0 Wl1 bl1 Wr1 g1 b1 Wl2 bl2 Wr2
      = net aggR3 aggR64 mean varDev x Wl0 bl0 Wr0 g0 b0 Wl1 bl1 Wr1 g1 b1 Wl2 bl2 Wr2 := by
  have e3 : aggK3 = aggR3 := funext h3
  have e64 : aggK64 = aggR64 := funext h64
  rw [e3, e64]
  -- layer 0: the affine map of real matrices is real, so its column statistics agree
  have hp0 : IsReal (pre0 aggR3 x Wl0 bl0 Wr0) :=
    hlin3 _ _ _ _ _ (r3 x hx) hx hWl0 (isReal_asRow bl0 hbl0) hWr0
  have e0 : act meanTiled varTiled (pre0 aggR3 x Wl0 bl0 Wr0) g0 b0 = act mean varDev (pre0 aggR3 x Wl0 bl0 Wr0) g0 b0 :=
    act_eq _ _ _ (hmean _) (hvar _ hp0)
  have hh0 : IsReal (act mean varDev (pre0 aggR3 x Wl0 bl0 Wr0) g0 b0) :=
    hbn _ _ _ _ _ hp0 (hmr _ hp0) (hsr _ hp0) (isReal_asCol g0 hg0) (isReal_asCol b0 hb0)
  -- layer 1: the same on layer 0's output
  have hp1 : IsReal (pre1 aggR64 (act mean varDev (pre0 aggR3 x Wl0 bl0 Wr0) g0 b0) Wl1 bl1 Wr1) :=
    hlin64 _ _ _ _ _ (r64 _ hh0) hh0 hWl1 (isReal_asRow bl1 hbl1) hWr1
  have e1 : act meanTiled varTiled (pre1 aggR64 (act mean varDev (pre0 aggR3 x Wl0 bl0 Wr0) g0 b0) Wl1 bl1 Wr1) g1 b1
      = act mean varDev (pre1 aggR64 (act mean varDev (pre0 aggR3 x Wl0 bl0 Wr0) g0 b0) Wl1 bl1 Wr1) g1 b1 :=
    act_eq _ _ _ (hmean _) (hvar _ hp1)
  unfold net
  dsimp only
  rw [e0, e1]

end Cert.Spec

end
-- ==== Proof.Moments.lean ====
/-
  The real-number mathematics of column means and variances.

  A column's sum over the fifty thousand rows is the same number whether the rows are added in one sweep or tile
  by tile (five tiles of ten thousand), because addition of extended reals is commutative and associative: no
  finiteness is needed. The two forms of the variance — the mean of the squared deviations, and the mean of the
  squares less the squared mean, clamped below at zero — are one number when every entry is real:
  Σ(x − μ)²/n = Σx²/n − μ², and the left side is not negative. With an infinite entry they differ, so that
  statement carries the hypothesis that the entries are real.
-/
import proofs.«105976_j14628658610510_2_alg».proof.Proof.Net
import Mathlib.Tactic.Ring
import Mathlib.Tactic.FieldSimp
import Mathlib.Tactic.Positivity
import Mathlib.Tactic.Linarith
import Mathlib.Algebra.BigOperators.Fin
import Mathlib.Algebra.Order.BigOperators.Ring.Finset

noncomputable section

namespace Cert.Spec

open Idealize.ShloMosaic Idealize.ShloMosaic.ValueIdx

/-! ## The two float constants -/

/-- The divisor is the real number fifty thousand. -/
theorem nF_eq : nF = ((50000 : ℝ) : EReal) := by
  unfold nF
  simp [Ideal.ofBits, Ideal.ieee, -EReal.coe_mul]; norm_num

/-- The constant added to a variance is a positive real. -/
theorem epsF_pos : ∃ e : ℝ, 0 < e ∧ epsF = (e : EReal) := by
  unfold epsF
  simp [Ideal.ofBits, Ideal.ieee, -EReal.coe_mul]

/-! ## Sums tile by tile -/

namespace Moments

/-- A row of the fifty thousand as its tile and its place in the tile. -/
def tileEquiv : Fin 5 × Fin 10000 ≃ Fin 50000 where
  toFun x := tileRow x.1 x.2
  invFun i := (⟨i.val / 10000, by have := i.isLt; omega⟩, ⟨i.val % 10000, by omega⟩)
  left_inv x := by
    obtain ⟨t, r⟩ := x
    have ht := t.isLt
    have hr := r.isLt
    refine Prod.ext (Fin.ext ?_) (Fin.ext ?_)
    · show (10000 * t.val + r.val) / 10000 = t.val; omega
    · show (10000 * t.val + r.val) % 10000 = r.val; omega
  right_inv i := by
    apply Fin.ext
    show 10000 * (i.val / 10000) + i.val % 10000 = i.val; omega

/-- Adding over the rows tile by tile is adding over all the rows: a regrouping of a finite sum in a commutative
    monoid, so it holds of extended reals with no finiteness assumed. -/
theorem sum_tiles {M : Type} [AddCommMonoid M] (f : Fin 50000 → M) :
    ∑ t : Fin 5, ∑ r : Fin 10000, f (tileRow t r) = ∑ i : Fin 50000, f i :=
  (Fintype.sum_prod_type' (fun t r => f (tileRow t r))).symm.trans
    (Fintype.sum_equiv tileEquiv (fun x => f (tileRow x.1 x.2)) f (fun _ => rfl))

end Moments

theorem colSumTiled_eq {o : Nat} (p : Mat 50000 o) (c : Fin o) : colSumTiled p c = colSum p c :=
  Moments.sum_tiles (fun r => p (ix2 r c))

theorem colSumSqTiled_eq {o : Nat} (p : Mat 50000 o) (c : Fin o) : colSumSqTiled p c = colSumSq p c :=
  Moments.sum_tiles (fun r => p (ix2 r c) * p (ix2 r c))

theorem meanTiled_eq (p : Mat 50000 64) : meanTiled p = mean p := by
  funext c
  unfold meanTiled mean
  rw [colSumTiled_eq]

/-! ## Real numbers among the extended reals -/

namespace Moments

/-- A family of extended reals is real exactly when it is the image of a family of reals. -/
theorem isReal_iff {ι : Type} (f : ι → EReal) : IsReal f ↔ ∃ g : ι → ℝ, f = fun i => (g i : EReal) := by
  constructor
  · intro h
    exact ⟨fun i => (f i).toReal, funext fun i => (EReal.coe_toReal (h i).1 (h i).2).symm⟩
  · rintro ⟨g, rfl⟩ i
    exact ⟨EReal.coe_ne_top _, EReal.coe_ne_bot _⟩

/-- The inclusion of the reals commutes with the maximum of two. -/
theorem coe_max (a b : ℝ) : ((max a b : ℝ) : EReal) = max (a : EReal) (b : EReal) :=
  EReal.coe_strictMono.monotone.map_max

/-- The inclusion of the reals commutes with finite sums. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Division of a real by a nonzero real, among the extended reals, is the real quotient. -/
theorem div_real (a n : ℝ) (hn : n ≠ 0) : Ideal.div (a : EReal) (n : EReal) = ((a / n : ℝ) : EReal) := by
  rw [Ideal.div_coe hn, ← EReal.coe_mul, mul_one_div]

/-! ## Means and variances of a real column -/

section Column
variable {ι : Type} [Fintype ι] (x : ι → ℝ) (n : ℝ)

/-- The mean of a real column is the real mean. -/
theorem mean_real (hn0 : n ≠ 0) :
    Ideal.div (∑ r, (x r : EReal)) (n : EReal) = (((∑ r, x r) / n : ℝ) : EReal) := by
  rw [← coe_sum, div_real _ _ hn0]

/-- The mean of the squares of a real column is the real one. -/
theorem meanSq_real (hn0 : n ≠ 0) :
    Ideal.div (∑ r, (x r : EReal) * (x r : EReal)) (n : EReal) = (((∑ r, x r * x r) / n : ℝ) : EReal) := by
  have hQ : (∑ r, (x r : EReal) * (x r : EReal)) = ((∑ r, x r * x r : ℝ) : EReal) := by
    rw [coe_sum]; exact Finset.sum_congr rfl (fun r _ => (EReal.coe_mul _ _).symm)
  rw [hQ, div_real _ _ hn0]

/-- The mean of the squared deviations of a real column from its mean is the real one. -/
theorem varDev_real (hn0 : n ≠ 0) :
    Ideal.div (∑ r, ((x r : EReal) - Ideal.div (∑ r, (x r : EReal)) (n : EReal))
        * ((x r : EReal) - Ideal.div (∑ r, (x r : EReal)) (n : EReal))) (n : EReal)
      = (((∑ r, (x r - (∑ r, x r) / n) * (x r - (∑ r, x r) / n)) / n : ℝ) : EReal) := by
  have hD : (∑ r, ((x r : EReal) - (((∑ r, x r) / n : ℝ) : EReal)) * ((x r : EReal) - (((∑ r, x r) / n : ℝ) : EReal)))
      = ((∑ r, (x r - (∑ r, x r) / n) * (x r - (∑ r, x r) / n) : ℝ) : EReal) := by
    rw [coe_sum]; exact Finset.sum_congr rfl (fun r _ => by rw [← EReal.coe_sub, ← EReal.coe_mul])
  rw [mean_real x n hn0, hD, div_real _ _ hn0]

/-- Over the reals: the mean of the squared deviations from the mean is the mean of the squares less the squared mean. -/
theorem real_var_identity (hn : (Fintype.card ι : ℝ) = n) (hn0 : n ≠ 0) :
    (∑ r, (x r - (∑ r, x r) / n) * (x r - (∑ r, x r) / n)) / n
      = (∑ r, x r * x r) / n - ((∑ r, x r) / n) * ((∑ r, x r) / n) := by
  have h1 : ∑ r, (x r - (∑ r, x r) / n) * (x r - (∑ r, x r) / n)
      = (∑ r, x r * x r) - 2 * ((∑ r, x r) / n) * (∑ r, x r) + n * (((∑ r, x r) / n) * ((∑ r, x r) / n)) := by
    have e : ∀ r, (x r - (∑ r, x r) / n) * (x r - (∑ r, x r) / n)
        = x r * x r - 2 * ((∑ r, x r) / n) * x r + ((∑ r, x r) / n) * ((∑ r, x r) / n) := fun r => by ring
    rw [Finset.sum_congr rfl (fun r _ => e r), Finset.sum_add_distrib, Finset.sum_sub_distrib, ← Finset.mul_sum,
      Finset.sum_const, Finset.card_univ, nsmul_eq_mul, hn]
  rw [h1]
  field_simp
  ring

/-- That variance is not negative: a sum of squares over a positive number. -/
theorem real_var_nonneg (hpos : 0 < n) : 0 ≤ (∑ r, (x r - (∑ r, x r) / n) * (x r - (∑ r, x r) / n)) / n :=
  div_nonneg (Finset.sum_nonneg fun r _ => mul_self_nonneg _) hpos.le

/-- The two forms of the variance of a real column agree: the clamp at zero does nothing. -/
theorem var_forms_agree (hn : (Fintype.card ι : ℝ) = n) (hpos : 0 < n) :
    max (Ideal.div (∑ r, (x r : EReal) * (x r : EReal)) (n : EReal)
          - Ideal.div (∑ r, (x r : EReal)) (n : EReal) * Ideal.div (∑ r, (x r : EReal)) (n : EReal)) 0
      = Ideal.div (∑ r, ((x r : EReal) - Ideal.div (∑ r, (x r : EReal)) (n : EReal))
          * ((x r : EReal) - Ideal.div (∑ r, (x r : EReal)) (n : EReal))) (n : EReal) := by
  have hn0 : n ≠ 0 := hpos.ne'
  rw [varDev_real x n hn0, meanSq_real x n hn0, mean_real x n hn0, ← EReal.coe_mul, ← EReal.coe_sub,
    ← EReal.coe_zero, ← coe_max, ← real_var_identity x n hn hn0, max_eq_left (real_var_nonneg x n hpos)]

end Column

theorem card_rows : (Fintype.card (Fin 50000) : ℝ) = 50000 := by
  rw [Fintype.card_fin]; norm_num

theorem fifty_thousand_pos : (0 : ℝ) < 50000 := by norm_num

end Moments

/-! ## The kernel's variance is the reference's on real entries -/

open Moments in
/-- The tiled mean of squares less the squared tiled mean, clamped at zero, is the mean of the squared deviations,
    for a matrix of real entries. -/
theorem varTiled_eq_varDev (p : Mat 50000 64) (hp : IsReal p) : varTiled p = varDev p := by
  obtain ⟨g, rfl⟩ := (isReal_iff p).1 hp
  funext c
  unfold varTiled
  rw [colSumSqTiled_eq, meanTiled_eq]
  show max (Ideal.div (∑ r : Fin 50000, ((g (ix2 r c) : ℝ) : EReal) * ((g (ix2 r c) : ℝ) : EReal)) nF
      - Ideal.div (∑ r : Fin 50000, ((g (ix2 r c) : ℝ) : EReal)) nF
        * Ideal.div (∑ r : Fin 50000, ((g (ix2 r c) : ℝ) : EReal)) nF) 0
    = Ideal.div (∑ r : Fin 50000, (((g (ix2 r c) : ℝ) : EReal) - Ideal.div (∑ r : Fin 50000, ((g (ix2 r c) : ℝ) : EReal)) nF)
        * (((g (ix2 r c) : ℝ) : EReal) - Ideal.div (∑ r : Fin 50000, ((g (ix2 r c) : ℝ) : EReal)) nF)) nF
  rw [nF_eq]
  exact var_forms_agree (fun r => g (ix2 r c)) 50000 card_rows fifty_thousand_pos

end Cert.Spec

end
-- ==== Proof.Reals.lean ====
/-
  Real entries stay real through the network's layers.

  An extended real that is neither infinity is a real number, and sums, products, differences and
  maxima of real numbers are real. So an affine map of real matrices is real, and so is the
  normalised positive part of a real matrix with real statistics. The number of rows is the real
  50000, so a column mean of a real matrix is real; the variance by deviations of a real matrix is a
  sum of squares over 50000, a nonnegative real, and adding the small positive constant gives a
  positive real, whose inverse square root is a real.
-/
import proofs.«105976_j14628658610510_2_alg».proof.Proof.Net

noncomputable section

namespace Cert.Spec

open Idealize.ShloMosaic Idealize.ShloMosaic.ValueIdx

/-- The number of rows, as the float both programs divide by, is the real 50000. -/
theorem nF_real : nF = ((50000 : ℝ) : EReal) := by
  unfold nF
  simp [Ideal.ofBits, Ideal.ieee, -EReal.coe_mul]; norm_num

/-- The small constant added to a variance is a positive real. -/
theorem epsF_real_pos : ∃ e : ℝ, 0 < e ∧ epsF = (e : EReal) :=
  ⟨10995116 * (2 ^ 40)⁻¹, by positivity, by unfold epsF; simp [Ideal.ofBits, Ideal.ieee, -EReal.coe_mul]⟩

namespace Reals

/-- Neither infinity: the value is a real number. -/
theorem iff_coe (x : EReal) : (x ≠ ⊤ ∧ x ≠ ⊥) ↔ ∃ r : ℝ, x = (r : EReal) := by
  constructor
  · rintro ⟨h1, h2⟩
    exact ⟨x.toReal, (EReal.coe_toReal h1 h2).symm⟩
  · rintro ⟨r, rfl⟩
    exact ⟨EReal.coe_ne_top r, EReal.coe_ne_bot r⟩

theorem of_coe (r : ℝ) : (r : EReal) ≠ ⊤ ∧ (r : EReal) ≠ ⊥ := ⟨EReal.coe_ne_top r, EReal.coe_ne_bot r⟩

theorem zero : (0 : EReal) ≠ ⊤ ∧ (0 : EReal) ≠ ⊥ := by
  rw [← EReal.coe_zero]; exact of_coe 0

theorem add {x y : EReal} (hx : x ≠ ⊤ ∧ x ≠ ⊥) (hy : y ≠ ⊤ ∧ y ≠ ⊥) : x + y ≠ ⊤ ∧ x + y ≠ ⊥ := by
  obtain ⟨a, rfl⟩ := (iff_coe x).1 hx
  obtain ⟨b, rfl⟩ := (iff_coe y).1 hy
  rw [← EReal.coe_add]; exact of_coe _

theorem mul {x y : EReal} (hx : x ≠ ⊤ ∧ x ≠ ⊥) (hy : y ≠ ⊤ ∧ y ≠ ⊥) : x * y ≠ ⊤ ∧ x * y ≠ ⊥ := by
  obtain ⟨a, rfl⟩ := (iff_coe x).1 hx
  obtain ⟨b, rfl⟩ := (iff_coe y).1 hy
  rw [← EReal.coe_mul]; exact of_coe _

theorem sub {x y : EReal} (hx : x ≠ ⊤ ∧ x ≠ ⊥) (hy : y ≠ ⊤ ∧ y ≠ ⊥) : x - y ≠ ⊤ ∧ x - y ≠ ⊥ := by
  obtain ⟨a, rfl⟩ := (iff_coe x).1 hx
  obtain ⟨b, rfl⟩ := (iff_coe y).1 hy
  rw [← EReal.coe_sub]; exact of_coe _

theorem max {x y : EReal} (hx : x ≠ ⊤ ∧ x ≠ ⊥) (hy : y ≠ ⊤ ∧ y ≠ ⊥) : Max.max x y ≠ ⊤ ∧ Max.max x y ≠ ⊥ := by
  rcases max_choice x y with h | h <;> rw [h] <;> assumption

theorem sum {ι : Type} (s : Finset ι) (f : ι → EReal) (h : ∀ i ∈ s, f i ≠ ⊤ ∧ f i ≠ ⊥) :
    (∑ i ∈ s, f i) ≠ ⊤ ∧ (∑ i ∈ s, f i) ≠ ⊥ :=
  Finset.sum_induction f (fun x => x ≠ ⊤ ∧ x ≠ ⊥) (fun _ _ => add) zero h

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real over the number of rows is the real quotient by 50000. -/
theorem div_nF_coe (a : ℝ) : Ideal.div (a : EReal) nF = ((a / 50000 : ℝ) : EReal) := by
  rw [nF_real]
  unfold Ideal.div
  rw [if_neg (by rw [EReal.coe_eq_zero]; norm_num), ← EReal.coe_inv, ← EReal.coe_mul, ← div_eq_mul_inv]

theorem div_nF {x : EReal} (hx : x ≠ ⊤ ∧ x ≠ ⊥) : Ideal.div x nF ≠ ⊤ ∧ Ideal.div x nF ≠ ⊥ := by
  obtain ⟨a, rfl⟩ := (iff_coe x).1 hx
  rw [div_nF_coe]; exact of_coe _

/-- The inverse square root of a positive real is the real inverse of its square root. -/
theorem rsqrt_pos (r : ℝ) (hr : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 hr.le), if_neg hr.ne']

end Reals

/-- An affine map of real matrices is real. -/
theorem lin_isReal {n d o : Nat} (agg x : Mat n d) (Wl : Mat d o) (bl : Mat 1 o) (Wr : Mat d o)
    (h1 : IsReal agg) (h2 : IsReal x) (h3 : IsReal Wl) (h4 : IsReal bl) (h5 : IsReal Wr) : IsReal (lin agg x Wl bl Wr) := by
  intro j
  unfold lin
  exact Reals.add (Reals.add (Reals.sum _ _ fun k _ => Reals.mul (h1 _) (h3 _)) (h4 _))
    (Reals.sum _ _ fun k _ => Reals.mul (h2 _) (h5 _))

/-- The normalised positive part of a real matrix with real statistics, scale and shift is real. -/
theorem bnRelu_isReal {n o : Nat} (p : Mat n o) (mu s g b : Fin o → EReal)
    (hp : IsReal p) (h1 : IsReal mu) (h2 : IsReal s) (h3 : IsReal g) (h4 : IsReal b) : IsReal (bnRelu p mu s g b) := by
  intro j
  unfold bnRelu
  exact Reals.max (Reals.add (Reals.mul (Reals.mul (Reals.sub (hp j) (h1 _)) (h2 _)) (h3 _)) (h4 _)) Reals.zero

/-- The column means of a real matrix are real. -/
theorem mean_isReal (p : Mat 50000 64) (hp : IsReal p) : IsReal (mean p) := by
  intro c
  unfold mean colSum
  exact Reals.div_nF (Reals.sum _ _ fun r _ => hp _)

/-- The inverse standard deviations of a real matrix's columns, from the variance by deviations, are real. -/
theorem istd_varDev_isReal (p : Mat 50000 64) (hp : IsReal p) : IsReal (fun c => istd (varDev p c)) := by
  intro c
  obtain ⟨m, hm⟩ := (Reals.iff_coe _).1 (mean_isReal p hp c)
  choose q hq using fun r : Fin 50000 => (Reals.iff_coe _).1 (hp (ix2 r c))
  obtain ⟨e, he, hE⟩ := epsF_real_pos
  have hs : (∑ r : Fin 50000, (p (ix2 r c) - mean p c) * (p (ix2 r c) - mean p c))
      = ((∑ r : Fin 50000, (q r - m) * (q r - m) : ℝ) : EReal) := by
    rw [← Reals.coe_sum]
    refine Finset.sum_congr rfl fun r _ => ?_
    rw [hq r, hm, ← EReal.coe_sub, ← EReal.coe_mul]
  have hpos : 0 < (∑ r : Fin 50000, (q r - m) * (q r - m)) / 50000 + e :=
    add_pos_of_nonneg_of_pos (div_nonneg (Finset.sum_nonneg fun r _ => mul_self_nonneg _) (by norm_num)) he
  show istd (varDev p c) ≠ ⊤ ∧ istd (varDev p c) ≠ ⊥
  unfold istd varDev
  rw [hs, Reals.div_nF_coe, hE, ← EReal.coe_add, Reals.rsqrt_pos _ hpos]
  exact Reals.of_coe _

end Cert.Spec

end
-- ==== Proof.AggEq.lean ====
/-
  The two programs' neighbourhood means are one function.

  Both programs gather the sources' feature rows, add them into the destinations and divide by the
  in-degree clamped below at one; they differ only in how the in-degree is counted. The reference adds a
  column of 800000 ones into a column of 50000 zeros; the kernel adds a rank-1 array of 800000 ones into a
  rank-1 array of 50000 zeros and then views the result as a column. Update p of the rank-1 scatter and
  update (p, 0) of the column scatter read the same destination index, so they land on the same node; the
  bijection p ↦ (p, 0) between the two update index sets carries one sum onto the other.
-/
import proofs.«105976_j14628658610510_2_alg».proof.Proof.AggRef
import proofs.«105976_j14628658610510_2_alg».proof.Proof.AggKer
import Idealize.ShloMosaic.Lib.ValueIdx

noncomputable section
namespace Cert.AggEq
open Idealize.ShloMosaic Idealize.ShloMosaic.ValueIdx

section R
variable [Cert.ReferenceIdeal.Facts]
open Cert.ReferenceIdeal

abbrev R := Cert.ReferenceIdeal.scatter_S50000x1_S800000x1_S800000x1_1_0_0_1

theorem R_siIdx (j : S800000x1.Idx) (c : Fin R.scatterDimsToOperandDims.length) :
    R.siIdx j c = ix2 (j 0) (0 : Fin 1) := by
  funext b
  match b with
  | ⟨0, _⟩ => rfl
  | ⟨1, hb⟩ =>
    apply Fin.ext
    have h1 : (R.siIdx j c ⟨1, hb⟩).val < 1 := (R.siIdx j c ⟨1, hb⟩).isLt
    show (R.siIdx j c ⟨1, hb⟩).val = 0
    omega

theorem R_start0 (j : S800000x1.Idx) (idx : IVec S800000x1 32) (h : 0 < S50000x1.rank) :
    R.start j idx ⟨0, h⟩ = (idx (ix2 (j 0) (0 : Fin 1))).toInt := by
  have hmem : (⟨0, h⟩ : Fin S50000x1.rank) ∈ R.scatterDimsToOperandDims := List.mem_singleton.2 rfl
  unfold ScatterDims.start
  rw [dif_pos hmem]
  rw [R_siIdx]
  rfl

theorem R_start1 (j : S800000x1.Idx) (idx : IVec S800000x1 32) (h : 1 < S50000x1.rank) :
    R.start j idx ⟨1, h⟩ = 0 := rfl

theorem R_window0 (j : S800000x1.Idx) (h : 0 < S50000x1.rank) : R.window j ⟨0, h⟩ = 0 := rfl

theorem R_window1 (j : S800000x1.Idx) (h : 1 < S50000x1.rank) : R.window j ⟨1, h⟩ = (j 1).val := rfl

/-- Where the reference's degree scatter sends update (p, q): to row a exactly when the destination read at edge p is a. -/
theorem R_result (idx : IVec S800000x1 32) (p : Fin 800000) (q : Fin 1) (a : Fin 50000) (b : Fin 1) :
    R.resultIdx? (ix2 p q) idx = some (ix2 a b) ↔ (idx (ix2 p (0 : Fin 1))).toInt = (a.val : Int) := by
  unfold ScatterDims.resultIdx?
  constructor
  · intro h
    split at h
    · rename_i hall
      have h0 := congrArg Fin.val (congrFun (Option.some.inj h) ⟨0, by decide⟩)
      have hb := hall ⟨0, by decide⟩
      rw [R_start0, R_window0] at hb
      have h0' : ((R.start (ix2 p q) idx ⟨0, by decide⟩ + R.window (ix2 p q) ⟨0, by decide⟩ : Int)).toNat = a.val := h0
      rw [R_start0, R_window0] at h0'
      have e : (idx (ix2 ((ix2 p q : S800000x1.Idx) 0) (0 : Fin 1))) = idx (ix2 p (0 : Fin 1)) := rfl
      rw [e] at h0' hb
      omega
    · exact absurd h (by simp)
  · intro h
    have hall : ∀ c : Fin S50000x1.rank, 0 ≤ R.start (ix2 p q) idx c + (R.window (ix2 p q) c : Int)
        ∧ R.start (ix2 p q) idx c + (R.window (ix2 p q) c : Int) < S50000x1.size c := by
      intro c
      match c with
      | ⟨0, hc⟩ =>
        rw [R_start0, R_window0]
        have e : (idx (ix2 ((ix2 p q : S800000x1.Idx) 0) (0 : Fin 1))) = idx (ix2 p (0 : Fin 1)) := rfl
        rw [e, h]
        have := a.isLt
        show (0:Int) ≤ (a.val : Int) + ((0 : Nat) : Int) ∧ (a.val : Int) + ((0 : Nat) : Int) < ((50000 : Nat) : Int)
        omega
      | ⟨1, hc⟩ =>
        rw [R_start1, R_window1]
        have := q.isLt
        show (0:Int) ≤ 0 + ((q.val : Nat) : Int) ∧ 0 + ((q.val : Nat) : Int) < ((1 : Nat) : Int)
        omega
    rw [dif_pos hall]
    refine congrArg some (funext fun c => ?_)
    match c with
    | ⟨0, hc⟩ =>
      apply Fin.ext
      show ((R.start (ix2 p q) idx ⟨0, hc⟩ + R.window (ix2 p q) ⟨0, hc⟩ : Int)).toNat = a.val
      rw [R_start0, R_window0]
      have e : (idx (ix2 ((ix2 p q : S800000x1.Idx) 0) (0 : Fin 1))) = idx (ix2 p (0 : Fin 1)) := rfl
      rw [e, h]
      omega
    | ⟨1, hc⟩ =>
      apply Fin.ext
      have h1 := b.isLt
      show ((R.start (ix2 p q) idx ⟨1, hc⟩ + R.window (ix2 p q) ⟨1, hc⟩ : Int)).toNat = b.val
      rw [R_start1, R_window1]
      have := q.isLt
      show ((0 : Int) + ((q.val : Nat) : Int)).toNat = b.val
      omega

end R

section K
variable [Cert.KernelIdeal.Facts]
open Cert.KernelIdeal

abbrev K := Cert.KernelIdeal.scatter_S50000_S800000x1_S800000_n_0_0_1

theorem K_siIdx (j : S800000.Idx) (c : Fin K.scatterDimsToOperandDims.length) :
    K.siIdx j c = ix2 (j 0) (0 : Fin 1) := by
  funext b
  match b with
  | ⟨0, _⟩ => rfl
  | ⟨1, hb⟩ =>
    apply Fin.ext
    have h1 : (K.siIdx j c ⟨1, hb⟩).val < 1 := (K.siIdx j c ⟨1, hb⟩).isLt
    show (K.siIdx j c ⟨1, hb⟩).val = 0
    omega

theorem K_start0 (j : S800000.Idx) (idx : IVec S800000x1 32) (h : 0 < S50000.rank) :
    K.start j idx ⟨0, h⟩ = (idx (ix2 (j 0) (0 : Fin 1))).toInt := by
  have hmem : (⟨0, h⟩ : Fin S50000.rank) ∈ K.scatterDimsToOperandDims := List.mem_singleton.2 rfl
  unfold ScatterDims.start
  rw [dif_pos hmem]
  rw [K_siIdx]
  rfl

theorem K_window0 (j : S800000.Idx) (h : 0 < S50000.rank) : K.window j ⟨0, h⟩ = 0 := rfl

/-- Where the kernel's degree scatter sends update p: to node a exactly when the destination read at edge p is a. -/
theorem K_result (idx : IVec S800000x1 32) (p : Fin 800000) (a : Fin 50000) :
    K.resultIdx? (ix1 p) idx = some (ix1 a) ↔ (idx (ix2 p (0 : Fin 1))).toInt = (a.val : Int) := by
  unfold ScatterDims.resultIdx?
  have e : (idx (ix2 ((ix1 p : S800000.Idx) 0) (0 : Fin 1))) = idx (ix2 p (0 : Fin 1)) := rfl
  constructor
  · intro h
    split at h
    · rename_i hall
      have hb := hall ⟨0, by decide⟩
      rw [K_start0, K_window0, e] at hb
      have h0' : ((K.start (ix1 p) idx ⟨0, by decide⟩ + K.window (ix1 p) ⟨0, by decide⟩ : Int)).toNat = a.val :=
        congrArg Fin.val (congrFun (Option.some.inj h) ⟨0, by decide⟩)
      rw [K_start0, K_window0, e] at h0'
      omega
    · exact absurd h (by simp)
  · intro h
    have hall : ∀ c : Fin S50000.rank, 0 ≤ K.start (ix1 p) idx c + (K.window (ix1 p) c : Int)
        ∧ K.start (ix1 p) idx c + (K.window (ix1 p) c : Int) < S50000.size c := by
      intro c
      match c with
      | ⟨0, hc⟩ =>
        rw [K_start0, K_window0, e, h]
        have := a.isLt
        show (0:Int) ≤ (a.val : Int) + ((0 : Nat) : Int) ∧ (a.val : Int) + ((0 : Nat) : Int) < ((50000 : Nat) : Int)
        omega
    rw [dif_pos hall]
    refine congrArg some (funext fun c => ?_)
    match c with
    | ⟨0, hc⟩ =>
      apply Fin.ext
      show ((K.start (ix1 p) idx ⟨0, hc⟩ + K.window (ix1 p) ⟨0, hc⟩ : Int)).toNat = a.val
      rw [K_start0, K_window0, e, h]
      omega

end K

section Both
variable [Cert.KernelIdeal.Facts] [Cert.ReferenceIdeal.Facts]
open Cert.KernelIdeal.KerValue Cert.ReferenceIdeal.RefValue

theorem srcIdx_eq (e : (⟨Cert.KernelIdeal.S2x800000, .i32⟩ : BufTy).Contents (Elt Ideal)) : srcIdxK e = srcIdx e := rfl
theorem dstIdx_eq (e : (⟨Cert.KernelIdeal.S2x800000, .i32⟩ : BufTy).Contents (Elt Ideal)) : dstIdxK e = dstIdx e := rfl

/-- A rank-1 index of length 800000 and the rank-2 index of the 800000-by-1 column are the same thing. -/
def colEquiv : (⟨1, ![800000]⟩ : Shape).Idx ≃ (⟨2, ![800000, 1]⟩ : Shape).Idx where
  toFun j := ix2 (j 0) (0 : Fin 1)
  invFun j := ix1 (j 0)
  left_inv j := (eq_ix1 j).symm
  right_inv j := by
    obtain ⟨p, q, rfl⟩ : ∃ (p : Fin 800000) (q : Fin 1), j = ix2 p q := ⟨j 0, j 1, eq_ix2 j⟩
    show ix2 p (0 : Fin 1) = ix2 p q
    rw [Subsingleton.elim q 0]

/-- A length-50000 array viewed as a column, read at (a, b), is the array at a. -/
theorem bcast_col_apply {α : Type} (h : (⟨1, ![50000]⟩ : Shape).BroadcastsInDim ⟨2, ![50000, 1]⟩ ![0])
    (x : (⟨1, ![50000]⟩ : Shape).Idx → α) (a : Fin 50000) (b : Fin 1) :
    broadcastInDim ⟨2, ![50000, 1]⟩ ![0] h x (ix2 a b) = x (ix1 a) := by
  unfold broadcastInDim
  refine congrArg x (funext fun c => ?_)
  match c with
  | ⟨0, hc⟩ =>
    have hne : ¬ ((⟨1, ![50000]⟩ : Shape).size ⟨0, hc⟩ = 1) := by show ¬ ((50000 : Nat) = 1); decide
    rw [dif_neg hne]
    rfl

/-- The host scatter-add at the ideal instance, read at an index (stated for any shapes, so nothing is enumerated). -/
theorem scatterAdd_eq {s si su : Shape} (d : ScatterDims s si su) {w : Nat} (x : FVec Ideal s .f32) (idx : IVec si w)
    (upd : FVec Ideal su .f32) (i : s.Idx) :
    Host.scatterAdd d x idx upd i = Ideal.hostScatterAdd d x idx upd i := rfl

/-- The two degree scatters agree entry by entry: update p of the rank-1 scatter and update (p, 0) of the column
    scatter land on the same node, and carry equal values. -/
theorem scatter_deg_eq (idx : IVec Cert.ReferenceIdeal.S800000x1 32)
    (zK : (⟨1, ![50000]⟩ : Shape).Idx → EReal) (zR : (⟨2, ![50000, 1]⟩ : Shape).Idx → EReal)
    (oK : (⟨1, ![800000]⟩ : Shape).Idx → EReal) (oR : (⟨2, ![800000, 1]⟩ : Shape).Idx → EReal)
    (a : Fin 50000) (b : Fin 1) (hz : zK (ix1 a) = zR (ix2 a b))
    (ho : ∀ p : Fin 800000, oK (ix1 p) = oR (ix2 p (0 : Fin 1))) :
    Ideal.hostScatterAdd K zK idx oK (ix1 a) = Ideal.hostScatterAdd R zR idx oR (ix2 a b) := by
  unfold Ideal.hostScatterAdd
  rw [hz]
  refine congrArg (fun t => zR (ix2 a b) + t) ?_
  refine Finset.sum_equiv colEquiv (fun j => ?_) (fun j _ => ?_)
  · obtain ⟨p, rfl⟩ : ∃ p : Fin 800000, j = ix1 p := ⟨j 0, eq_ix1 j⟩
    rw [Finset.mem_filter, Finset.mem_filter]
    refine and_congr (by simp only [Finset.mem_univ]) ?_
    refine (K_result idx p a).trans ?_
    exact (R_result idx p (0 : Fin 1) a b).symm
  · obtain ⟨p, rfl⟩ : ∃ p : Fin 800000, j = ix1 p := ⟨j 0, eq_ix1 j⟩
    exact ho p

theorem deg_eq (e : (⟨Cert.KernelIdeal.S2x800000, .i32⟩ : BufTy).Contents (Elt Ideal)) : degK e = degR e := by
  funext i
  obtain ⟨a, b, rfl⟩ : ∃ (a : Fin 50000) (b : Fin 1), i = ix2 a b := ⟨i 0, i 1, eq_ix2 i⟩
  unfold degK degR
  rw [maximumf_apply, maximumf_apply]
  refine congrArg₂ max ?_ rfl
  rw [dstIdx_eq]
  generalize dstIdx e = idx
  refine (bcast_col_apply _ _ a b).trans ?_
  rw [scatterAdd_eq, scatterAdd_eq]
  exact scatter_deg_eq idx _ _ _ _ a b rfl (fun p => rfl)

/-- The two programs' gather and scatter records have the same fields. -/
theorem gather3_eq :
    Cert.KernelIdeal.gather_S50000x3_S800000x1_S800000x3_1_0_n_n_0_1_13
      = Cert.ReferenceIdeal.gather_S50000x3_S800000x1_S800000x3_1_0_n_n_0_1_13 := rfl
theorem scatter3_eq :
    Cert.KernelIdeal.scatter_S50000x3_S800000x1_S800000x3_1_0_0_1
      = Cert.ReferenceIdeal.scatter_S50000x3_S800000x1_S800000x3_1_0_0_1 := rfl
theorem gather64_eq :
    Cert.KernelIdeal.gather_S50000x64_S800000x1_S800000x64_1_0_n_n_0_1_164
      = Cert.ReferenceIdeal.gather_S50000x64_S800000x1_S800000x64_1_0_n_n_0_1_164 := rfl
theorem scatter64_eq :
    Cert.KernelIdeal.scatter_S50000x64_S800000x1_S800000x64_1_0_0_1
      = Cert.ReferenceIdeal.scatter_S50000x64_S800000x1_S800000x64_1_0_0_1 := rfl

/-- The neighbourhood means of a three-column matrix agree. -/
theorem agg3_eq (e : (⟨Cert.KernelIdeal.S2x800000, .i32⟩ : BufTy).Contents (Elt Ideal))
    (h : FVec Ideal Cert.KernelIdeal.S50000x3 .f32) : aggK3 e h = aggR3 e h := by
  unfold aggK3 aggR3
  rw [deg_eq e, srcIdx_eq e, dstIdx_eq e, gather3_eq, scatter3_eq]
  first | done | rfl

/-- The neighbourhood means of a sixty-four-column matrix agree. -/
theorem agg64_eq (e : (⟨Cert.KernelIdeal.S2x800000, .i32⟩ : BufTy).Contents (Elt Ideal))
    (h : FVec Ideal Cert.KernelIdeal.S50000x64 .f32) : aggK64 e h = aggR64 e h := by
  unfold aggK64 aggR64
  rw [deg_eq e, srcIdx_eq e, dstIdx_eq e, gather64_eq, scatter64_eq]
  first | done | rfl

end Both
end Cert.AggEq
end
-- ==== Proof.AggReal.lean ====
/-
  The reference's neighbourhood mean keeps real-valued matrices real-valued.

  Each edge carries its source's feature row (a gather: pure re-indexing, so real entries stay real whatever the
  indices), the rows are added into zeros at the destinations (a real plus a finite sum of reals is real, whichever
  edges land on a node), and each node's sum is divided by its in-degree clamped below at one. The in-degree is zero
  plus a finite sum of ones, a nonnegative real, so the clamped value is a real at least one, and a real divided by a
  real at least one is the real quotient: no entry of the mean is an infinity.
-/
import proofs.«105976_j14628658610510_2_alg».proof.Proof.AggRef
import proofs.«105976_j14628658610510_2_alg».proof.Proof.Spec
import Idealize.ShloMosaic.PureOps.Ideal
import Idealize.ShloMosaic.PureOps.Ideal.Laws

noncomputable section

namespace Cert.ReferenceIdeal.RefValue

open Cert.ReferenceIdeal Idealize.ShloMosaic
open Cert.ReferenceIdeal.Facts₀

/-- The float pattern of `1.0` denotes the extended real `1`. -/
theorem aggReal_ofBits_one : Ideal.ofBits .f32 0x3F800000#32 = 1 := by
  simp [Ideal.ofBits, Ideal.ieee, -EReal.coe_mul]; norm_num

/-- An extended real that is neither infinity is a real number. -/
theorem aggReal_exists_of_ne {x : EReal} (h : x ≠ ⊤ ∧ x ≠ ⊥) : ∃ a : ℝ, x = (a : EReal) :=
  ⟨x.toReal, (EReal.coe_toReal h.1 h.2).symm⟩

/-- A finite sum of real numbers is a real number. -/
theorem aggReal_sum_real {ι : Type} (s : Finset ι) (u : ι → EReal) (hu : ∀ k, ∃ a : ℝ, u k = (a : EReal)) :
    ∃ a : ℝ, ∑ k ∈ s, u k = (a : EReal) := by
  classical
  induction s using Finset.induction_on with
  | empty => exact ⟨0, by simp⟩
  | insert k s hk ih =>
    obtain ⟨a, ha⟩ := ih
    obtain ⟨b, hb⟩ := hu k
    exact ⟨b + a, by rw [Finset.sum_insert hk, ha, hb, EReal.coe_add]⟩

/-- A finite sum of ones is a nonnegative real number. -/
theorem aggReal_sum_ones {ι : Type} (s : Finset ι) (u : ι → EReal) (hu : ∀ k, u k = 1) :
    ∃ a : ℝ, 0 ≤ a ∧ ∑ k ∈ s, u k = (a : EReal) := by
  classical
  induction s using Finset.induction_on with
  | empty => exact ⟨0, le_refl _, by simp⟩
  | insert k s hk ih =>
    obtain ⟨a, ha0, ha⟩ := ih
    refine ⟨1 + a, by linarith, ?_⟩
    rw [Finset.sum_insert hk, ha, hu k, EReal.coe_add, EReal.coe_one]

/-- Zero plus a finite sum of ones, clamped below at one, is a real number at least one. -/
theorem aggReal_deg_aux {ι : Type} (s : Finset ι) (z : EReal) (u : ι → EReal) (o : EReal)
    (hz : z = 0) (hu : ∀ k, u k = 1) (ho : o = 1) : ∃ r : ℝ, 1 ≤ r ∧ max (z + ∑ k ∈ s, u k) o = (r : EReal) := by
  obtain ⟨a, ha0, ha⟩ := aggReal_sum_ones s u hu
  refine ⟨max a 1, le_max_right _ _, ?_⟩
  rw [hz, ho, zero_add, ha, ← EReal.coe_one]
  exact (EReal.coe_strictMono.monotone.map_max).symm

/-- A real number divided by a real number at least one is a real number. -/
theorem aggReal_div_aux {ι : Type} (s : Finset ι) (z : EReal) (u : ι → EReal) (y : EReal)
    (hz : z = 0) (hu : ∀ k, u k ≠ ⊤ ∧ u k ≠ ⊥) (hy : ∃ b : ℝ, 1 ≤ b ∧ y = (b : EReal)) :
    Ideal.div (z + ∑ k ∈ s, u k) y ≠ ⊤ ∧ Ideal.div (z + ∑ k ∈ s, u k) y ≠ ⊥ := by
  obtain ⟨a, ha⟩ := aggReal_sum_real s u fun k => aggReal_exists_of_ne (hu k)
  obtain ⟨b, hb1, hb⟩ := hy
  have hb0 : b ≠ 0 := by intro h0; rw [h0] at hb1; linarith
  rw [hz, zero_add, ha, hb, Ideal.div_coe hb0, ← EReal.coe_mul]
  exact ⟨EReal.coe_ne_top _, EReal.coe_ne_bot _⟩

/-- A gather only re-indexes its operand: of a real-valued array it is real-valued, whatever the indices. -/
theorem aggReal_gather {s si t : Shape} {w : Nat} (d : GatherDims s si t) (x : s.Idx → EReal) (idx : IVec si w)
    (hx : Cert.Spec.IsReal x) : Cert.Spec.IsReal (Host.gather d x idx) :=
  fun _ => hx _

/-- A broadcast reads its operand at some index: a property of every operand entry holds of every result entry. -/
theorem aggReal_bcast {s t : Shape} (dims : Fin s.rank → Fin t.rank) (h : s.BroadcastsInDim t dims) (x : s.Idx → EReal)
    (P : EReal → Prop) (hx : ∀ i, P (x i)) (j : t.Idx) : P (broadcastInDim t dims h x j) :=
  hx _

/-- Ones added into zeros at any indices, then clamped below at one: every entry is a real number at least one. -/
theorem aggReal_deg_generic {s si su : Shape} {w : Nat} (d : ScatterDims s si su) (x : FVec Ideal s .f32) (idx : IVec si w)
    (upd : FVec Ideal su .f32) (o : FVec Ideal s .f32)
    (hx : ∀ i, x i = 0) (hu : ∀ j, upd j = 1) (ho : ∀ i, o i = 1) (i : s.Idx) :
    ∃ r : ℝ, 1 ≤ r ∧ maximumf (Host.scatterAdd d x idx upd) o i = (r : EReal) := by
  show ∃ r : ℝ, 1 ≤ r ∧ max (Ideal.hostScatterAdd d x idx upd i) (o i) = (r : EReal)
  unfold Ideal.hostScatterAdd
  exact aggReal_deg_aux _ _ _ _ (hx i) hu (ho i)

/-- Real-valued rows added into zeros at any indices, each sum divided by a real number at least one: real-valued. -/
theorem aggReal_mean_generic {s si su : Shape} {w : Nat} (d : ScatterDims s si su) (x : FVec Ideal s .f32) (idx : IVec si w)
    (upd : FVec Ideal su .f32) (y : FVec Ideal s .f32)
    (hx : ∀ i, x i = 0) (hu : Cert.Spec.IsReal upd) (hy : ∀ i, ∃ b : ℝ, 1 ≤ b ∧ y i = (b : EReal)) :
    Cert.Spec.IsReal (Host.divf (Host.scatterAdd d x idx upd) y) := by
  intro i
  show Ideal.div (Ideal.hostScatterAdd d x idx upd i) (y i) ≠ ⊤ ∧ Ideal.div (Ideal.hostScatterAdd d x idx upd i) (y i) ≠ ⊥
  unfold Ideal.hostScatterAdd
  exact aggReal_div_aux _ _ _ _ (hx i) hu (hy i)

variable [Cert.ReferenceIdeal.Facts]

/-- Every node's clamped in-degree is a real number at least one: the count of the edges that end at it, or one. -/
theorem degR_real_pos (e : (⟨S2x800000, .i32⟩ : BufTy).Contents (Elt Ideal)) (i : S50000x1.Idx) :
    ∃ r : ℝ, 1 ≤ r ∧ degR e i = (r : EReal) := by
  unfold degR
  exact aggReal_deg_generic _ _ _ _ _ (fun _ => Ideal.ofBits_zero_f32) (fun _ => aggReal_ofBits_one)
    (fun _ => aggReal_ofBits_one) i

/-- The neighbourhood mean of a real-valued three-column matrix is real-valued. -/
theorem aggR3_isReal (e : (⟨S2x800000, .i32⟩ : BufTy).Contents (Elt Ideal)) (h : FVec Ideal S50000x3 .f32)
    (hh : Cert.Spec.IsReal h) : Cert.Spec.IsReal (aggR3 e h) := by
  unfold aggR3
  exact aggReal_mean_generic _ _ _ _ _ (fun _ => Ideal.ofBits_zero_f32) (aggReal_gather _ _ _ hh)
    (aggReal_bcast _ _ _ (fun y => ∃ b : ℝ, 1 ≤ b ∧ y = (b : EReal)) (degR_real_pos e))

/-- The neighbourhood mean of a real-valued sixty-four-column matrix is real-valued. -/
theorem aggR64_isReal (e : (⟨S2x800000, .i32⟩ : BufTy).Contents (Elt Ideal)) (h : FVec Ideal S50000x64 .f32)
    (hh : Cert.Spec.IsReal h) : Cert.Spec.IsReal (aggR64 e h) := by
  unfold aggR64
  exact aggReal_mean_generic _ _ _ _ _ (fun _ => Ideal.ofBits_zero_f32) (aggReal_gather _ _ _ hh)
    (aggReal_bcast _ _ _ (fun y => ∃ b : ℝ, 1 ≤ b ∧ y = (b : EReal)) (degR_real_pos e))

end Cert.ReferenceIdeal.RefValue

end
-- ==== Proof.InputsReal.lean ====
/-
  From the precondition to the inputs' finiteness.

  The precondition is the conjunction, over the fourteen float arguments, of "every entry has absolute
  value below +∞": each conjunct a comparison of |x| with the pattern of +∞, reduced by "and" over the
  whole array. At the ideal instance |x| is max x (−x) and the pattern is ⊤, so each conjunct says that
  every entry is a real number.
-/
import proofs.«105976_j14628658610510_2_alg».proof.Pre_finite_inputs
import proofs.«105976_j14628658610510_2_alg».proof.Proof.Spec
import Idealize.ShloMosaic.Lib.ReduceAll

namespace Cert.InputsReal

open Idealize.ShloMosaic Cert.Pre_finite_inputs

/-- The rank-0 shape has one index. -/
instance : Subsingleton (⟨0, ![]⟩ : Shape).Idx := ⟨fun _ _ => funext fun d => d.elim0⟩

/-- An extended real whose absolute value is below +∞ is neither infinity. -/
theorem real_of_abs_lt_top (x : EReal) (h : max x (-x) < ⊤) : x ≠ ⊤ ∧ x ≠ ⊥ := by
  constructor
  · rintro rfl; simp at h
  · rintro rfl; simp at h

/-- One conjunct of the precondition: if the "and" over the whole array of the comparisons
    |x i| < +∞ is true, every entry of x is a real number. -/
theorem isReal_of_all {s : Shape} {axes : List (Fin s.rank)} (x : FVec Ideal s .f32)
    (bc : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1) :
    Cert.Spec.IsReal x := by
  intro i
  have hi := Host.reduce_andi_all _ _ h hu j e i
  have htop : Ideal.ofBits .f32 0x7F800000#32 = ⊤ := by simp [Ideal.ofBits, Ideal.ieee]
  have hc : Ideal.cmp .olt (max (x i) (-(x i))) (Ideal.ofBits .f32 0x7F800000#32) = 1#1 := hi
  rw [htop] at hc
  have hc2 : BitVec.ofBool (decide (max (x i) (-(x i)) < ⊤)) = 1#1 := hc
  by_cases hlt : max (x i) (-(x i)) < ⊤
  · exact real_of_abs_lt_top _ hlt
  · rw [decide_eq_false hlt] at hc2; exact absurd hc2 (by decide)

/-- The precondition gives every float argument real entries. -/
theorem inputs_real [Cert.Pre_finite_inputs.Facts]
    (a0 : FVec Ideal S50000x3 .f32) (a1 : IVec S2x800000 32) (a2 : FVec Ideal S3x64 .f32) (a3 : FVec Ideal S64 .f32)
    (a4 : FVec Ideal S3x64 .f32) (a5 : FVec Ideal S64 .f32) (a6 : FVec Ideal S64 .f32) (a7 : FVec Ideal S64x64 .f32)
    (a8 : FVec Ideal S64 .f32) (a9 : FVec Ideal S64x64 .f32) (a10 : FVec Ideal S64 .f32) (a11 : FVec Ideal S64 .f32)
    (a12 : FVec Ideal S64x128 .f32) (a13 : FVec Ideal S128 .f32) (a14 : FVec Ideal S64x128 .f32)
    (h : Cert.Pre_finite_inputs.fn (F := Ideal) a0 a1 a2 a3 a4 a5 a6 a7 a8 a9 a10 a11 a12 a13 a14 = (fun _ => 1#1)) :
    Cert.Spec.IsReal a0 ∧ Cert.Spec.IsReal a2 ∧ Cert.Spec.IsReal a3 ∧ Cert.Spec.IsReal a4 ∧ Cert.Spec.IsReal a5
      ∧ Cert.Spec.IsReal a6 ∧ Cert.Spec.IsReal a7 ∧ Cert.Spec.IsReal a8 ∧ Cert.Spec.IsReal a9 ∧ Cert.Spec.IsReal a10
      ∧ Cert.Spec.IsReal a11 ∧ Cert.Spec.IsReal a12 ∧ Cert.Spec.IsReal a13 ∧ Cert.Spec.IsReal a14 := by
  have h0 := congrFun h ValueIdx.ix0
  dsimp only [Cert.Pre_finite_inputs.fn, fn_part1, fn_part2, fn_part3, fn_part4, Idealize.ShloMosaic.andi] at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all a0 _ _ _ _ e0, isReal_of_all a2 _ _ _ _ e2, isReal_of_all a3 _ _ _ _ e3,
    isReal_of_all a4 _ _ _ _ e4, isReal_of_all a5 _ _ _ _ e5, isReal_of_all a6 _ _ _ _ e6,
    isReal_of_all a7 _ _ _ _ e7, isReal_of_all a8 _ _ _ _ e8, isReal_of_all a9 _ _ _ _ e9,
    isReal_of_all a10 _ _ _ _ e10, isReal_of_all a11 _ _ _ _ e11, isReal_of_all a12 _ _ _ _ e12,
    isReal_of_all a13 _ _ _ _ e13, isReal_of_all a14 _ _ _ _ e14⟩

end Cert.InputsReal
-- ==== Proof.lean ====
/-
  The certificate of a three-layer graph network on 50000 nodes against its plain reference.

  Each layer is the affine map  p = (agg · Wl + bl) + x · Wr  of the node features x and their means agg over
  in-neighbours; layers 0 and 1 are followed by a batch normalisation over the nodes and a positive part. The kernel
  program computes the affine maps, per-tile column sums and sums of squares, and the normalisations in five regions
  with host arithmetic between them; the reference is one straight line of host operations.

  At the ideal instance both results are the network function `Cert.Spec.net` of the arguments: the reference with the
  column mean and the mean of squared deviations (the generated run, read stage by stage), the kernel program with the
  tiled sums and  max (E[p²] − (E[p])², 0)  (its run with the result named, read back region by region). The two
  neighbourhood means are one function: both programs gather, scatter-add and divide by the clamped in-degree, and the
  in-degree counted through rank-1 arrays is the one counted through one-column arrays. The tiled sums are the whole
  sums regrouped. The two variances agree on real-valued pre-activations, and the pre-activations are real because the
  inputs are finite and every step keeps real matrices real: that is the one place the precondition is used.
  The frames of the two kernel programs are the generated ones; the reference's frame is its run with the result
  dropped; the idealisation rewrote nothing, so there is nothing to preserve.
-/
import proofs.«105976_j14628658610510_2_alg».proof.Defs
import proofs.«105976_j14628658610510_2_alg».proof.Proof.Gen.Kernel
import proofs.«105976_j14628658610510_2_alg».proof.Proof.Gen.Kernel.Skeleton
import proofs.«105976_j14628658610510_2_alg».proof.Proof.Gen.Kernel.Launch
import proofs.«105976_j14628658610510_2_alg».proof.Proof.Gen.Kernel.Points
import proofs.«105976_j14628658610510_2_alg».proof.Proof.Gen.Kernel.Frame
import proofs.«105976_j14628658610510_2_alg».proof.Proof.Gen.KernelIdeal
import proofs.«105976_j14628658610510_2_alg».proof.Proof.Gen.KernelIdeal.Skeleton
import proofs.«105976_j14628658610510_2_alg».proof.Proof.Gen.KernelIdeal.Launch
import proofs.«105976_j14628658610510_2_alg».proof.Proof.Gen.KernelIdeal.Points
import proofs.«105976_j14628658610510_2_alg».proof.Proof.Gen.KernelIdeal.Frame
import proofs.«105976_j14628658610510_2_alg».proof.Proof.Gen.ReferenceIdeal
import proofs.«105976_j14628658610510_2_alg».proof.Proof.Gen.Pre_finite_inputs
import proofs.«105976_j14628658610510_2_alg».proof.Proof.Gen.ReferenceIdeal.Run
import proofs.«105976_j14628658610510_2_alg».proof.Proof.Gen.ReferenceIdeal.Read
import proofs.«105976_j14628658610510_2_alg».proof.Proof.KRun
import proofs.«105976_j14628658610510_2_alg».proof.Proof.KValue
import proofs.«105976_j14628658610510_2_alg».proof.Proof.RefValue
import proofs.«105976_j14628658610510_2_alg».proof.Proof.NetEq
import proofs.«105976_j14628658610510_2_alg».proof.Proof.Moments
import proofs.«105976_j14628658610510_2_alg».proof.Proof.Reals
import proofs.«105976_j14628658610510_2_alg».proof.Proof.AggEq
import proofs.«105976_j14628658610510_2_alg».proof.Proof.AggReal
import proofs.«105976_j14628658610510_2_alg».proof.Proof.InputsReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network function of the same arguments; on finite inputs its two readings agree. -/
theorem algebraic : Cert.algebraic_KernelIdeal_ReferenceIdeal := by
  intro m ρ m' ρ' hpre hagree
  refine ⟨fun c => Cert.KernelIdeal.Gen.W10 m ρ c (Proc.devRef .tc Cert.KernelIdeal.main_v86), Cert.KernelIdeal.KerValue.run_value (F := Ideal) m ρ, ?_⟩
  refine (θ_run Cert.ReferenceIdeal.defs _ _).mono (fun _ h c => ⟨(h c).1.trans ?_, (h c).2⟩) (Cert.ReferenceIdeal.Value.run (F := Ideal) m' ρ')
  show Cert.ReferenceIdeal.Value.res_main_v127 (F := Ideal) m' c = Cert.KernelIdeal.Gen.W10 m ρ c (Proc.devRef .tc Cert.KernelIdeal.main_v86)
  rw [Cert.ReferenceIdeal.RefValue.ref_value m' c, Cert.KernelIdeal.KerValue.kernel_value m ρ c]
  obtain ⟨e0, e1, e2, e3, e4, e5, e6, e7, e8, e9, e10, e11, e12, e13, e14⟩ := hagree c
  rw [e0, e1, e2, e3, e4, e5, e6, e7, e8, e9, e10, e11, e12, e13, e14]
  obtain ⟨r0, r2, r3, r4, r5, r6, r7, r8, r9, r10, r11, r12, r13, r14⟩ := Cert.InputsReal.inputs_real _ _ _ _ _ _ _ _ _ _ _ _ _ _ _ (hpre c)
  exact (Cert.Spec.net_eq _ _ _ _
    (fun h => Cert.AggEq.agg3_eq _ h) (fun h => Cert.AggEq.agg64_eq _ h)
    (fun h hh => Cert.ReferenceIdeal.RefValue.aggR3_isReal _ h hh) (fun h hh => Cert.ReferenceIdeal.RefValue.aggR64_isReal _ h hh)
    Cert.Spec.meanTiled_eq Cert.Spec.varTiled_eq_varDev Cert.Spec.mean_isReal Cert.Spec.istd_varDev_isReal
    (fun agg x Wl bl Wr => Cert.Spec.lin_isReal agg x Wl bl Wr) (fun agg x Wl bl Wr => Cert.Spec.lin_isReal agg x Wl bl Wr)
    (fun p mu s g b => Cert.Spec.bnRelu_isReal p mu s g b)
    _ _ _ _ _ _ _ _ _ _ _ _ _ _ r0 r2 r3 r4 r5 r6 r7 r8 r9 r10 r11).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
